-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S32768x4 : Shape := ⟨2, ![32768, 4]⟩
abbrev S4x4100 : Shape := ⟨2, ![4, 4100]⟩
abbrev S4 : Shape := ⟨1, ![4]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S32768x4 : S_.BroadcastsInDim S32768x4 (![] : Fin 0 → Fin S32768x4.rank)
  reducesTo_S32768x4_S_d0_1 : S32768x4.ReducesTo [0, 1] S_
  bcast_S_S4x4100 : S_.BroadcastsInDim S4x4100 (![] : Fin 0 → Fin S4x4100.rank)
  reducesTo_S4x4100_S_d0_1 : S4x4100.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg14 : FVec F S4 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  main_v73

def fn_part3 {F : FTy → Type} [FloatOps F] (main_arg11 : FVec F S4 .f32) (main_arg12 : FVec F S4x4100 .f32) (main_arg13 : FVec F S4 .f32) (main_arg14 : FVec F S4 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4 .f32 := Host.absf main_arg11
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4x4100 .f32 := Host.absf main_arg12
  let main_cst_22 : FVec F S_ .f32 := constant S_ .f32 0x7F800000#32
  let main_v60 : FVec F S4x4100 .f32 := broadcastInDim S4x4100 ![] bcast_S_S4x4100 main_cst_22
  let main_v61 : IVec S4x4100 1 := cmpf .olt main_v59 main_v60
  let main_c_23 : IVec S_ 1 := constantI S_ 1 1#1
  let main_v62 : IVec S_ 1 := (fun x v => Host.reduce IntOp.andi x v reducesTo_S4x4100_S_d0_1 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg14 main_v63 main_v67

def fn_part2 {F : FTy → Type} [FloatOps F] (main_arg7 : FVec F S4 .f32) (main_arg8 : FVec F S4 .f32) (main_arg9 : FVec F S4x4100 .f32) (main_arg10 : FVec F S4 .f32) (main_arg11 : FVec F S4 .f32) (main_arg12 : FVec F S4x4100 .f32) (main_arg13 : FVec F S4 .f32) (main_arg14 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x4100 .f32 := Host.absf main_arg9
  let main_cst_16 : FVec F S_ .f32 := constant S_ .f32 0x7F800000#32
  let main_v45 : FVec F S4x4100 .f32 := broadcastInDim S4x4100 ![] bcast_S_S4x4100 main_cst_16
  let main_v46 : IVec S4x4100 1 := cmpf .olt main_v44 main_v45
  let main_c_17 : IVec S_ 1 := constantI S_ 1 1#1
  let main_v47 : IVec S_ 1 := (fun x v => Host.reduce IntOp.andi x v reducesTo_S4x4100_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_v48 main_v49 main_v50

def fn_part1 {F : FTy → Type} [FloatOps F] (main_arg4 : FVec F S4 .f32) (main_arg5 : FVec F S4 .f32) (main_arg6 : FVec F S4x4100 .f32) (main_arg7 : FVec F S4 .f32) (main_arg8 : FVec F S4 .f32) (main_arg9 : FVec F S4x4100 .f32) (main_arg10 : FVec F S4 .f32) (main_arg11 : FVec F S4 .f32) (main_arg12 : FVec F S4x4100 .f32) (main_arg13 : FVec F S4 .f32) (main_arg14 : FVec F S4 .f32) (main_v13 : IVec S_ 1) (main_v16 : IVec S4x4100 1) : IVec S_ 1 :=
  let main_c_5 : IVec S_ 1 := constantI S_ 1 1#1
  let main_v17 : IVec S_ 1 := (fun x v => Host.reduce IntOp.andi x v reducesTo_S4x4100_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x4100 .f32 := Host.absf main_arg6
  let main_cst_10 : FVec F S_ .f32 := constant S_ .f32 0x7F800000#32
  let main_v30 : FVec F S4x4100 .f32 := broadcastInDim S4x4100 ![] bcast_S_S4x4100 main_cst_10
  let main_v31 : IVec S4x4100 1 := cmpf .olt main_v29 main_v30
  let main_c_11 : IVec S_ 1 := constantI S_ 1 1#1
  let main_v32 : IVec S_ 1 := (fun x v => Host.reduce IntOp.andi x v reducesTo_S4x4100_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x4096 .f32) (main_arg1 : FVec F S32768x4 .f32) (main_arg2 : FVec F S32768x4 .f32) (main_arg3 : FVec F S4x4100 .f32) (main_arg4 : FVec F S4 .f32) (main_arg5 : FVec F S4 .f32) (main_arg6 : FVec F S4x4100 .f32) (main_arg7 : FVec F S4 .f32) (main_arg8 : FVec F S4 .f32) (main_arg9 : FVec F S4x4100 .f32) (main_arg10 : FVec F S4 .f32) (main_arg11 : FVec F S4 .f32) (main_arg12 : FVec F S4x4100 .f32) (main_arg13 : FVec F S4 .f32) (main_arg14 : FVec F S4 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768x4 .f32 := Host.absf main_arg1
  let main_cst_0 : FVec F S_ .f32 := constant S_ .f32 0x7F800000#32
  let main_v5 : FVec F S32768x4 .f32 := broadcastInDim S32768x4 ![] bcast_S_S32768x4 main_cst_0
  let main_v6 : IVec S32768x4 1 := cmpf .olt main_v4 main_v5
  let main_c_1 : IVec S_ 1 := constantI S_ 1 1#1
  let main_v7 : IVec S_ 1 := (fun x v => Host.reduce IntOp.andi x v reducesTo_S32768x4_S_d0_1 h_S_) main_v6 main_c_1
  let main_v8 : IVec S_ 1 := andi main_v3 main_v7
  let main_v9 : FVec F S32768x4 .f32 := Host.absf main_arg2
  let main_cst_2 : FVec F S_ .f32 := constant S_ .f32 0x7F800000#32
  let main_v10 : FVec F S32768x4 .f32 := broadcastInDim S32768x4 ![] bcast_S_S32768x4 main_cst_2
  let main_v11 : IVec S32768x4 1 := cmpf .olt main_v9 main_v10
  let main_c_3 : IVec S_ 1 := constantI S_ 1 1#1
  let main_v12 : IVec S_ 1 := (fun x v => Host.reduce IntOp.andi x v reducesTo_S32768x4_S_d0_1 h_S_) main_v11 main_c_3
  let main_v13 : IVec S_ 1 := andi main_v8 main_v12
  let main_v14 : FVec F S4x4100 .f32 := Host.absf main_arg3
  let main_cst_4 : FVec F S_ .f32 := constant S_ .f32 0x7F800000#32
  let main_v15 : FVec F S4x4100 .f32 := broadcastInDim S4x4100 ![] bcast_S_S4x4100 main_cst_4
  let main_v16 : IVec S4x4100 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x4096 : Shape := ⟨2, ![32768, 4096]⟩
abbrev S32768x4 : Shape := ⟨2, ![32768, 4]⟩
abbrev S4x4100 : Shape := ⟨2, ![4, 4100]⟩
abbrev S4 : Shape := ⟨1, ![4]⟩
abbrev S16x4100 : Shape := ⟨2, ![16, 4100]⟩
abbrev S16 : Shape := ⟨1, ![16]⟩
abbrev S16x4096 : Shape := ⟨2, ![16, 4096]⟩
abbrev S16x4 : Shape := ⟨2, ![16, 4]⟩
abbrev S4096x16 : Shape := ⟨2, ![4096, 16]⟩
abbrev S4x16 : Shape := ⟨2, ![4, 16]⟩
abbrev S1x16 : Shape := ⟨2, ![1, 16]⟩
abbrev S32768x8 : Shape := ⟨2, ![32768, 8]⟩
abbrev S1024x4096 : Shape := ⟨2, ![1024, 4096]⟩
abbrev S1024x8 : Shape := ⟨2, ![1024, 8]⟩
abbrev S1024x16 : Shape := ⟨2, ![1024, 16]⟩
abbrev S1024x1024 : Shape := ⟨2, ![1024, 1024]⟩
abbrev S1024x4 : Shape := ⟨2, ![1024, 4]⟩
abbrev S1x4 : Shape := ⟨2, ![1, 4]⟩
abbrev S1024x1 : Shape := ⟨2, ![1024, 1]⟩

abbrev nBuf : Space → Nat
  | .hbm => 30
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S32768x4, .f32⟩
  | .hbm, ⟨2, _⟩ => ⟨S32768x4, .f32⟩
  | .hbm, ⟨3, _⟩ => ⟨S4x4100, .f32⟩
  | .hbm, ⟨4, _⟩ => ⟨S4, .f32⟩
  | .hbm, ⟨5, _⟩ => ⟨S4, .f32⟩
  | .hbm, ⟨6, _⟩ => ⟨S4x4100, .f32⟩
  | .hbm, ⟨7, _⟩ => ⟨S4, .f32⟩
  | .hbm, ⟨8, _⟩ => ⟨S4, .f32⟩
  | .hbm, ⟨9, _⟩ => ⟨S4x4100, .f32⟩
  | .hbm, ⟨10, _⟩ => ⟨S4, .f32⟩
  | .hbm, ⟨11, _⟩ => ⟨S4, .f32⟩
  | .hbm, ⟨12, _⟩ => ⟨S4x4100, .f32⟩
  | .hbm, ⟨13, _⟩ => ⟨S4, .f32⟩
  | .hbm, ⟨14, _⟩ => ⟨S4, .f32⟩
  | .hbm, ⟨15, _⟩ => ⟨S16x4100, .f32⟩
  | .hbm, ⟨16, _⟩ => ⟨S16, .f32⟩
  | .hbm, ⟨17, _⟩ => ⟨S16, .f32⟩
  | .hbm, ⟨18, _⟩ => ⟨S16x4096, .f32⟩
  | .hbm, ⟨19, _⟩ => ⟨S16x4, .f32⟩
  | .hbm, ⟨20, _⟩ => ⟨S4096x16, .f32⟩
  | .hbm, ⟨21, _⟩ => ⟨S4096x16, .bf16⟩
  | .hbm, ⟨22, _⟩ => ⟨S4x16, .f32⟩
  | .hbm, ⟨23, _⟩ => ⟨S4x16, .bf16⟩
  | .hbm, ⟨24, _⟩ => ⟨S1x16, .f32⟩
  | .hbm, ⟨25, _⟩ => ⟨S1x16, .f32⟩
  | .hbm, ⟨26, _⟩ => ⟨S32768x8, .f32⟩
  | .hbm, ⟨27, _⟩ => ⟨S32768x8, .f32⟩
  | .hbm, ⟨28, _⟩ => ⟨S32768x4, .f32⟩
  | .hbm, ⟨29, _⟩ => ⟨S32768x4, .f32⟩
  | .local _ .vmem, ⟨0, _⟩ => ⟨S1024x4096, .f32⟩
  | .local _ .vmem, ⟨1, _⟩ => ⟨S1024x4096, .f32⟩
  | .local _ .vmem, ⟨2, _⟩ => ⟨S1024x8, .f32⟩
  | .local _ .vmem, ⟨3, _⟩ => ⟨S1024x8, .f32⟩
  | .local _ .vmem, ⟨4, _⟩ => ⟨S4096x16, .bf16⟩
  | .local _ .vmem, ⟨5, _⟩ => ⟨S4x16, .bf16⟩
  | .local _ .vmem, ⟨6, _⟩ => ⟨S1x16, .f32⟩
  | .local _ .vmem, ⟨7, _⟩ => ⟨S1x16, .f32⟩
  | .local _ .vmem, ⟨8, _⟩ => ⟨S1024x8, .f32⟩
  | .local _ .vmem, ⟨9, _⟩ => ⟨S1024x8, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S4x4100_S4x4100_S4x4100_S4x4100_S16x4100_d0 : Shape.Concatenates [S4x4100, S4x4100, S4x4100, S4x4100] S16x4100 0
  concatenates_S4_S4_S4_S4_S16_d0 : Shape.Concatenates [S4, S4, S4, S4] S16 0
  slices_S16x4100_S16x4096_0_0 : S16x4100.Slices ![0, 0] S16x4096
  slices_S16x4100_S16x4_0_4096 : S16x4100.Slices ![0, 4096] S16x4
  transposes_S16x4096_S4096x16_1_0 : S16x4096.Transposes [1, 0] S4096x16
  bitsLt_bf16_f32 : FTy.bits .bf16 < FTy.bits .f32
  transposes_S16x4_S4x16_1_0 : S16x4.Transposes [1, 0] S4x16
  shapeCasts_S16_S1x16 : S16.ShapeCasts S1x16
  concatenates_S32768x4_S32768x4_S32768x8_d1 : Shape.Concatenates [S32768x4, S32768x4] S32768x8 1
  inb_S1024x4096_S1024x1024_0_0 : ∀ a, (![0, 0] : Fin 2 → Nat) a + S1024x1024.size a ≤ S1024x4096.size a
  h_S1024x1024 : 0 < S1024x1024.numel
  inb_S4096x16_S1024x16_0_0 : ∀ a, (![0, 0] : Fin 2 → Nat) a + S1024x16.size a ≤ S4096x16.size a
  h_S1024x16 : 0 < S1024x16.numel
  shapeCasts_S1024x16_S1024x16 : S1024x16.ShapeCasts S1024x16
  inb_S1024x4096_S1024x1024_0_1024 : ∀ a, (![0, 1024] : Fin 2 → Nat) a + S1024x1024.size a ≤ S1024x4096.size a
  inb_S4096x16_S1024x16_1024_0 : ∀ a, (![1024, 0] : Fin 2 → Nat) a + S1024x16.size a ≤ S4096x16.size a
  inb_S1024x4096_S1024x1024_0_2048 : ∀ a, (![0, 2048] : Fin 2 → Nat) a + S1024x1024.size a ≤ S1024x4096.size a
  inb_S4096x16_S1024x16_2048_0 : ∀ a, (![2048, 0] : Fin 2 → Nat) a + S1024x16.size a ≤ S4096x16.size a
  inb_S1024x4096_S1024x1024_0_3072 : ∀ a, (![0, 3072] : Fin 2 → Nat) a + S1024x1024.size a ≤ S1024x4096.size a
  inb_S4096x16_S1024x16_3072_0 : ∀ a, (![3072, 0] : Fin 2 → Nat) a + S1024x16.size a ≤ S4096x16.size a
  inb_S1024x8_S1024x4_0_0 : ∀ a, (![0, 0] : Fin 2 → Nat) a + S1024x4.size a ≤ S1024x8.size a
  h_S1024x4 : 0 < S1024x4.numel
  shapeCasts_S1024x4_S1024x4 : S1024x4.ShapeCasts S1024x4
  inb_S1024x8_S1024x4_0_4 : ∀ a, (![0, 4] : Fin 2 → Nat) a + S1024x4.size a ≤ S1024x8.size a
  inb_S4x16_S4x16_0_0 : ∀ a, (![0, 0] : Fin 2 → Nat) a + S4x16.size a ≤ S4x16.size a
  h_S4x16 : 0 < S4x16.numel
  shapeCasts_S4x16_S4x16 : S4x16.ShapeCasts S4x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  slices_S1024x16_o0_0_S1024x4 : S1024x16.Slices ![0, 0] S1024x4
  slices_S1024x16_o0_4_S1024x4 : S1024x16.Slices ![0, 4] S1024x4
  slices_S1024x16_o0_8_S1024x4 : S1024x16.Slices ![0, 8] S1024x4
  slices_S1024x16_o0_12_S1024x4 : S1024x16.Slices ![0, 12] S1024x4
  slices_S1x16_o0_0_S1x4 : S1x16.Slices ![0, 0] S1x4
  slices_S1x16_o0_4_S1x4 : S1x16.Slices ![0, 4] S1x4
  slices_S1x16_o0_8_S1x4 : S1x16.Slices ![0, 8] S1x4
  slices_S1x16_o0_12_S1x4 : S1x16.Slices ![0, 12] S1x4
  broadcasts_S1x4_S1024x4 : S1x4.Broadcasts S1024x4
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  concatenates_S1024x1_S1024x1_S1024x1_S1024x1_S1024x4_d1 : Shape.Concatenates [S1024x1, S1024x1, S1024x1, S1024x1] S1024x4 1
  concatenates_S1024x4_S1024x4_S1024x8_d1 : Shape.Concatenates [S1024x4, S1024x4] S1024x8 1
  inb_S1024x8_S1024x8_0_0 : ∀ a, (![0, 0] : Fin 2 → Nat) a + S1024x8.size a ≤ S1024x8.size a
  h_S1024x8 : 0 < S1024x8.numel
  slices_S32768x8_S32768x4_0_0 : S32768x8.Slices ![0, 0] S32768x4
  slices_S32768x8_S32768x4_0_4 : S32768x8.Slices ![0, 4] S32768x4
  dot_S1024x1024_S1024x16_S1024x16_1_0_0_1_n_n_wf : DotDims.WF S1024x1024 S1024x16 S1024x16 [1] [0] [0] [1] [] []
  dot_S1024x4_S4x16_S1024x16_1_0_0_1_n_n_wf : DotDims.WF S1024x4 S4x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S32768x8.size a
  hwx0_1 : ∀ i : grid0.Coords, EltTy.bits .f32 = 32 ∨ (Rect.block (s := S32768x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .bf16 = 32 ∨ (Rect.block (s := S4096x16) S4096x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .bf16 = 32 ∨ (Rect.block (s := S4x16) S4x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x8.size a ≤ S32768x8.size a
  hwx0_6 : ∀ i : grid0.Coords, EltTy.bits .f32 = 32 ∨ (Rect.block (s := S32768x8) S1024x8.size (cc0_transform_6 i) (hinb0_6 i)).WholeWords (EltTy.packing .f32)

variable [Facts₀]

def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x4_S4x16_S1024x16_1_0_0_1_n_n : DotDims S1024x4 S4x16 S1024x16 where
  lhsContracting := [1]
  rhsContracting := [0]
  lhsNonContracting := [0]
  rhsNonContracting := [1]
  lhsBatch := []
  rhsBatch := []
  wf := dot_S1024x4_S4x16_S1024x16_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x8.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S32768x4 : Shape := ⟨2, ![32768, 4]⟩
abbrev S4x4100 : Shape := ⟨2, ![4, 4100]⟩
abbrev S4 : Shape := ⟨1, ![4]⟩
abbrev S32768x4100 : Shape := ⟨2, ![32768, 4100]⟩
abbrev S4100x4 : Shape := ⟨2, ![4100, 4]⟩
abbrev S1x4 : Shape := ⟨2, ![1, 4]⟩
abbrev S32768x1 : Shape := ⟨2, ![32768, 1]⟩
abbrev S32768 : Shape := ⟨1, ![32768]⟩
abbrev S_ : Shape := ⟨0, ![]⟩

abbrev nBuf : Space → Nat
  | .hbm => 166
  | .vmem => 0
  | .smem => 0
  | _ => 0

abbrev hbmTy0_0 (i : Nat) : BufTy := match i % 128 with
  | 0 => ⟨S32768x4096, .f32⟩
  | 1 => ⟨S32768x4, .f32⟩
  | 2 => ⟨S32768x4, .f32⟩
  | 3 => ⟨S4x4100, .f32⟩
  | 4 => ⟨S4, .f32⟩
  | 5 => ⟨S4, .f32⟩
  | 6 => ⟨S4x4100, .f32⟩
  | 7 => ⟨S4, .f32⟩
  | 8 => ⟨S4, .f32⟩
  | 9 => ⟨S4x4100, .f32⟩
  | 10 => ⟨S4, .f32⟩
  | 11 => ⟨S4, .f32⟩
  | 12 => ⟨S4x4100, .f32⟩
  | 13 => ⟨S4, .f32⟩
  | 14 => ⟨S4, .f32⟩
  | 15 => ⟨S32768x4100, .f32⟩
  | 16 => ⟨S4100x4, .f32⟩
  | 17 => ⟨S32768x4, .f32⟩
  | 18 => ⟨S1x4, .f32⟩
  | 19 => ⟨S32768x4, .f32⟩
  | 20 => ⟨S32768x4, .f32⟩
  | 21 => ⟨S1x4, .f32⟩
  | 22 => ⟨S32768x4, .f32⟩
  | 23 => ⟨S32768x4, .f32⟩
  | 24 => ⟨S32768x4, .f32⟩
  | 25 => ⟨S32768x1, .f32⟩
  | 26 => ⟨S32768, .f32⟩
  | 27 => ⟨S32768x1, .f32⟩
  | 28 => ⟨S32768, .f32⟩
  | 29 => ⟨S32768x1, .f32⟩
  | 30 => ⟨S32768, .f32⟩
  | 31 => ⟨S32768x1, .f32⟩
  | 32 => ⟨S32768, .f32⟩
  | 33 => ⟨S32768, .f32⟩
  | 34 => ⟨S32768, .f32⟩
  | 35 => ⟨S32768, .f32⟩
  | 36 => ⟨S32768, .f32⟩
  | 37 => ⟨S32768, .f32⟩
  | 38 => ⟨S32768, .f32⟩
  | 39 => ⟨S32768, .f32⟩
  | 40 => ⟨S32768, .f32⟩
  | 41 => ⟨S32768x1, .f32⟩
  | 42 => ⟨S32768x1, .f32⟩
  | 43 => ⟨S32768x1, .f32⟩
  | 44 => ⟨S32768x1, .f32⟩
  | 45 => ⟨S32768x4, .f32⟩
  | 46 => ⟨S32768x4, .f32⟩
  | 47 => ⟨S32768x4, .f32⟩
  | 48 => ⟨S_, .f32⟩
  | 49 => ⟨S32768x4, .f32⟩
  | 50 => ⟨S32768x4, .f32⟩
  | 51 => ⟨S_, .f32⟩
  | 52 => ⟨S32768x4, .f32⟩
  | 53 => ⟨S32768x4, .f32⟩
  | 54 => ⟨S4100x4, .f32⟩
  | 55 => ⟨S32768x4, .f32⟩
  | 56 => ⟨S1x4, .f32⟩
  | 57 => ⟨S32768x4, .f32⟩
  | 58 => ⟨S32768x4, .f32⟩
  | 59 => ⟨S1x4, .f32⟩
  | 60 => ⟨S32768x4, .f32⟩
  | 61 => ⟨S32768x4, .f32⟩
  | 62 => ⟨S32768x4, .f32⟩
  | 63 => ⟨S32768x1, .f32⟩
  | 64 => ⟨S32768, .f32⟩
  | 65 => ⟨S32768x1, .f32⟩
  | 66 => ⟨S32768, .f32⟩
  | 67 => ⟨S32768x1, .f32⟩
  | 68 => ⟨S32768, .f32⟩
  | 69 => ⟨S32768x1, .f32⟩
  | 70 => ⟨S32768, .f32⟩
  | 71 => ⟨S32768, .f32⟩
  | 72 => ⟨S32768, .f32⟩
  | 73 => ⟨S32768, .f32⟩
  | 74 => ⟨S32768, .f32⟩
  | 75 => ⟨S32768, .f32⟩
  | 76 => ⟨S32768, .f32⟩
  | 77 => ⟨S32768, .f32⟩
  | 78 => ⟨S32768, .f32⟩
  | 79 => ⟨S32768x1, .f32⟩
  | 80 => ⟨S32768x1, .f32⟩
  | 81 => ⟨S32768x1, .f32⟩
  | 82 => ⟨S32768x1, .f32⟩
  | 83 => ⟨S32768x4, .f32⟩
  | 84 => ⟨S32768x4, .f32⟩
  | 85 => ⟨S32768x4, .f32⟩
  | 86 => ⟨S_, .f32⟩
  | 87 => ⟨S32768x4, .f32⟩
  | 88 => ⟨S32768x4, .f32⟩
  | 89 => ⟨S_, .f32⟩
  | 90 => ⟨S32768x4, .f32⟩
  | 91 => ⟨S32768x4, .f32⟩
  | 92 => ⟨S4100x4, .f32⟩
  | 93 => ⟨S32768x4, .f32⟩
  | 94 => ⟨S1x4, .f32⟩
  | 95 => ⟨S32768x4, .f32⟩
  | 96 => ⟨S32768x4, .f32⟩
  | 97 => ⟨S1x4, .f32⟩
  | 98 => ⟨S32768x4, .f32⟩
  | 99 => ⟨S32768x4, .f32⟩
  | 100 => ⟨S32768x4, .f32⟩
  | 101 => ⟨S32768x1, .f32⟩
  | 102 => ⟨S32768, .f32⟩
  | 103 => ⟨S32768x1, .f32⟩
  | 104 => ⟨S32768, .f32⟩
  | 105 => ⟨S32768x1, .f32⟩
  | 106 => ⟨S32768, .f32⟩
  | 107 => ⟨S32768x1, .f32⟩
  | 108 => ⟨S32768, .f32⟩
  | 109 => ⟨S32768, .f32⟩
  | 110 => ⟨S32768, .f32⟩
  | 111 => ⟨S32768, .f32⟩
  | 112 => ⟨S32768, .f32⟩
  | 113 => ⟨S32768, .f32⟩
  | 114 => ⟨S32768, .f32⟩
  | 115 => ⟨S32768, .f32⟩
  | 116 => ⟨S32768, .f32⟩
  | 117 => ⟨S32768x1, .f32⟩
  | 118 => ⟨S32768x1, .f32⟩
  | 119 => ⟨S32768x1, .f32⟩
  | 120 => ⟨S32768x1, .f32⟩
  | 121 => ⟨S32768x4, .f32⟩
  | 122 => ⟨S32768x4, .f32⟩
  | 123 => ⟨S4100x4, .f32⟩
  | 124 => ⟨S32768x4, .f32⟩
  | 125 => ⟨S1x4, .f32⟩
  | 126 => ⟨S32768x4, .f32⟩
  | 127 => ⟨S32768x4, .f32⟩
  | _ => ⟨S32768x4096, .f32⟩

abbrev hbmTy0_1 (i : Nat) : BufTy := match i % 128 with
  | 0 => ⟨S1x4, .f32⟩
  | 1 => ⟨S32768x4, .f32⟩
  | 2 => ⟨S32768x4, .f32⟩
  | 3 => ⟨S32768x4, .f32⟩
  | 4 => ⟨S32768x1, .f32⟩
  | 5 => ⟨S32768, .f32⟩
  | 6 => ⟨S32768x1, .f32⟩
  | 7 => ⟨S32768, .f32⟩
  | 8 => ⟨S32768x1, .f32⟩
  | 9 => ⟨S32768, .f32⟩
  | 10 => ⟨S32768x1, .f32⟩
  | 11 => ⟨S32768, .f32⟩
  | 12 => ⟨S32768, .f32⟩
  | 13 => ⟨S32768, .f32⟩
  | 14 => ⟨S32768, .f32⟩
  | 15 => ⟨S32768, .f32⟩
  | 16 => ⟨S32768, .f32⟩
  | 17 => ⟨S32768, .f32⟩
  | 18 => ⟨S32768, .f32⟩
  | 19 => ⟨S32768, .f32⟩
  | 20 => ⟨S32768x1, .f32⟩
  | 21 => ⟨S32768x1, .f32⟩
  | 22 => ⟨S32768x1, .f32⟩
  | 23 => ⟨S32768x1, .f32⟩
  | 24 => ⟨S32768x4, .f32⟩
  | 25 => ⟨S32768x4, .f32⟩
  | 26 => ⟨S32768x4, .f32⟩
  | 27 => ⟨S_, .f32⟩
  | 28 => ⟨S32768x4, .f32⟩
  | 29 => ⟨S32768x4, .f32⟩
  | 30 => ⟨S_, .f32⟩
  | 31 => ⟨S32768x4, .f32⟩
  | 32 => ⟨S32768x4, .f32⟩
  | 33 => ⟨S32768x4, .f32⟩
  | 34 => ⟨S32768x4, .f32⟩
  | 35 => ⟨S32768x4, .f32⟩
  | 36 => ⟨S32768x4, .f32⟩
  | 37 => ⟨S32768x4, .f32⟩
  | _ => ⟨S32768x4096, .f32⟩

abbrev hbmTy (i : Nat) : BufTy := match i / 128 with
  | 0 => hbmTy0_0 i
  | 1 => hbmTy0_1 i
  | _ => ⟨S32768x4096, .f32⟩

abbrev bufTy : (tb : Table) → Fin (tcTables nBuf tb) → BufTy
  | .hbm, ⟨i, _⟩ => hbmTy i
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_1 : Ref sig .tc := ⟨.hbm, 86, rfl⟩
abbrev main_v69 : Ref sig .tc := ⟨.hbm, 87, rfl⟩
abbrev main_v70 : Ref sig .tc := ⟨.hbm, 88, rfl⟩
abbrev main_cst_2 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_cst_3 : Ref sig .tc := ⟨.hbm, 155, rfl⟩
abbrev main_v136 : Ref sig .tc := ⟨.hbm, 156, rfl⟩
abbrev main_v137 : Ref sig .tc := ⟨.hbm, 157, rfl⟩
abbrev main_cst_4 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩

abbrev nD : Nat := 1
abbrev τ : Topo := Topo.v7x

variable {F : FTy → Type} [FloatOps F]

class Facts₀ : Prop where
  concatenates_S32768x4096_S32768x4_S32768x4100_d1 : Shape.Concatenates [S32768x4096, S32768x4] S32768x4100 1
  transposes_S4x4100_S4100x4_1_0 : S4x4100.Transposes [1, 0] S4100x4
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S32768_S32768x1_0 : S32768.BroadcastsInDim S32768x1 (![0] : Fin 1 → Fin S32768x1.rank)
  concatenates_S32768x1_S32768x1_S32768x1_S32768x1_S32768x4_d1 : Shape.Concatenates [S32768x1, S32768x1, S32768x1, S32768x1] S32768x4 1
  bcast_S_S32768x4 : S_.BroadcastsInDim S32768x4 (![] : Fin 0 → Fin S32768x4.rank)
  dot_S32768x4100_S4100x4_S32768x4_1_0_0_1_n_n_wf : DotDims.WF S32768x4100 S4100x4 S32768x4 [1] [0] [0] [1] [] []

variable [Facts₀]

def dot_S32768x4100_S4100x4_S32768x4_1_0_0_1_n_n : DotDims S32768x4100 S4100x4 S32768x4 where
  lhsContracting := [1]
  rhsContracting := [0]
  lhsNonContracting := [0]
  rhsNonContracting := [1]
  lhsBatch := []
  rhsBatch := []
  wf := dot_S32768x4100_S4100x4_S32768x4_1_0_0_1_n_n_wf

class Facts : Prop extends Facts₀ where

variable [Facts]
-- ==== Proof.KernelAround.lean ====
/- The entry function is three stretches run in order on each core: twelve whole-array operations
   that build the region's operands out of the fifteen argument arrays (three four-way
   concatenations stacking the gates' weights, biases and angles; two column slices; two
   transpositions; two roundings to bf16; two reshapes to a row; one two-way concatenation of the
   hidden and the cell state), the pipelined region over a grid of 32 points, and two column slices
   that cut the region's result into the two outputs.

   This module is the part of the frame argument that is about the entry function alone:
     * the buffer contents the region is entered with (`V0`, `V`), and the entry function as
       "operations, region, operations" in the form the launch theorem takes (`hmain`);
     * the operations after the region touch only unscoped buffers, allocate nothing, and write no
       array the pipeline stages (`sfx_sub`, `sfx_fresh`, `sfx_keeps`);
     * a buffer that none of the twelve operations writes is entered as launched
       (`V_of_not_written`), and a buffer that is no staged array and that neither slice writes
       leaves as it was entered (`W_of_bypass`); the fifteen arguments are instances;
     * each input window's block at a grid point, read off the array as entered (`iblk`), is what
       the window's current staging buffer holds whenever the body is called, fetched at that
       point or not (`before_0_of` … `before_5_of`): windows 0 and 1 move with the point and are
       fetched at every point; windows 2–5 have the constant block index 0, are fetched at the
       first point only, and at a later point hold the previous point's block, which is the same
       block because the index did not move;
     * the frame claim's post from the launch theorem's (`frame_of`): argument 0 is window 0's
       array, an input, never written back, so it ends at its entry contents; every other argument
       is unscoped and no window's array, so it ends at what the trailing operations leave, which
       is its entry contents, which are its launch contents. -/
import proofs.«138498_j65481071399076_2_alg».proof.Proof.Gen.Kernel.Launch
import proofs.«138498_j65481071399076_2_alg».proof.Proof.Gen.Kernel.Skeleton
import proofs.«138498_j65481071399076_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (m : (ℓ : Loc nD τ sig) → Buf (Elt F) ℓ) (ρ : Dev nD → PrngReg)

/-! ## The entry function around the region -/

/-- Core `c`'s buffer contents when the region is entered: the launch contents run through the twelve
    operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The operations before the region allocate nothing, -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

/-- The entry function is the twelve operations, the region, the two slices: run from the launch memory it reaches
    the region with the contents `V` and continues after it with the two slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two slices touch unscoped TensorCore buffers only; with no prefetched table every such buffer is a staged
    array or a buffer that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop

/-- Each writes its own result (`main_v13`, `main_v14`), which is none of the seven staged arrays
    (`main_arg0`, `main_v11`, `main_v6`, `main_v8`, `main_v9`, `main_v10`, `main_v12`). -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_singleton] using hops
  simp only [hostOps1, List.mem_cons, List.mem_nil_iff, or_false] at hop
  rcases hop with rfl | rfl
  all_goals
    intro w
    fin_cases w <;> simp only [StableHlo.unary_writes, Finset.mem_singleton] <;>
      exact StableHlo.devRef_ne_of_ne (by decide)

/-! ## What the operations leave alone -/

/-- The buffers the twelve operations before the region write: their results. -/
abbrev written0 : List (Ref sig .tc) :=
  [main_v0, main_v1, main_v2, main_v3, main_v4, main_v5, main_v6, main_v7, main_v8, main_v9, main_v10, main_v11]

/-- The buffers the two slices after the region write. -/
abbrev written1 : List (Ref sig .tc) := [main_v13, main_v14]

/-- A buffer that is no result of the twelve operations is entered as launched: each operation writes its result and
    nothing else. -/
theorem V_of_not_written (c : Dev nD) (b : Ref sig .tc) (hb : b ∉ written0) : V m c b = m ((c : Thread nD τ).loc b) := by
  simp only [written0, List.mem_cons, List.mem_nil_iff, or_false, not_or] at hb
  obtain ⟨h0, h1, h2, h3, h4, h5, h6, h7, h8, h9, h10, h11⟩ := hb
  refine StableHlo.after_of_forall_not_mem (b := Proc.devRef .tc b) _ _ (List.forall_iff_forall_mem.mp ?_)
  simp only [hostOps0, List.flatten_cons, List.flatten_nil, List.append_nil, List.Forall,
    StableHlo.nary_writes, StableHlo.unary_writes, StableHlo.binary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11⟩

/-- A buffer that is no staged array and no result of the two slices holds after them what it held when the region
    was entered: the region's exit contents differ from the entry contents at the staged arrays only, and the slices
    write their results only. -/
theorem W_of_bypass (dats : (p : Fin 1) → (c : Dev nD) → Dat τ (Elt F) Unit ℕ (UR sig nD τ) ℕ (cfgs p) c) (c : Dev nD)
    (b : Ref sig .tc) (ha : ∀ w, Pipeline.arrRef spec0 w ≠ b) (hb : b ∉ written1) :
    Pipeline.afterTail₀ cfgs dats 0 (V0 m) [hostOps1] c b = V m c b := by
  simp only [written1, List.mem_cons, List.mem_nil_iff, or_false, not_or] at hb
  obtain ⟨h13, h14⟩ := hb
  unfold Pipeline.afterTail₀
  rw [StableHlo.after_of_forall_not_mem (b := Proc.devRef .tc b) _ _ (List.forall_iff_forall_mem.mp (by
      simp only [hostOps1, List.flatten_cons, List.flatten_nil, List.append_nil, List.Forall,
        StableHlo.unary_writes, Finset.mem_singleton]
      exact ⟨StableHlo.devRef_ne_of_ne h13, StableHlo.devRef_ne_of_ne h14⟩)),
    Pipeline.withArrays_of_ne _ c (V0 m c) _ b ha]

/-! ### The fifteen arguments

None is a result of an operation before the region, so each is entered as launched. -/

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)
theorem V_main_arg4 (c : Dev nD) : V m c main_arg4 = m ((c : Thread nD τ).loc main_arg4) :=
  V_of_not_written m c main_arg4 (by decide)
theorem V_main_arg5 (c : Dev nD) : V m c main_arg5 = m ((c : Thread nD τ).loc main_arg5) :=
  V_of_not_written m c main_arg5 (by decide)
theorem V_main_arg6 (c : Dev nD) : V m c main_arg6 = m ((c : Thread nD τ).loc main_arg6) :=
  V_of_not_written m c main_arg6 (by decide)
theorem V_main_arg7 (c : Dev nD) : V m c main_arg7 = m ((c : Thread nD τ).loc main_arg7) :=
  V_of_not_written m c main_arg7 (by decide)
theorem V_main_arg8 (c : Dev nD) : V m c main_arg8 = m ((c : Thread nD τ).loc main_arg8) :=
  V_of_not_written m c main_arg8 (by decide)
theorem V_main_arg9 (c : Dev nD) : V m c main_arg9 = m ((c : Thread nD τ).loc main_arg9) :=
  V_of_not_written m c main_arg9 (by decide)
theorem V_main_arg10 (c : Dev nD) : V m c main_arg10 = m ((c : Thread nD τ).loc main_arg10) :=
  V_of_not_written m c main_arg10 (by decide)
theorem V_main_arg11 (c : Dev nD) : V m c main_arg11 = m ((c : Thread nD τ).loc main_arg11) :=
  V_of_not_written m c main_arg11 (by decide)
theorem V_main_arg12 (c : Dev nD) : V m c main_arg12 = m ((c : Thread nD τ).loc main_arg12) :=
  V_of_not_written m c main_arg12 (by decide)
theorem V_main_arg13 (c : Dev nD) : V m c main_arg13 = m ((c : Thread nD τ).loc main_arg13) :=
  V_of_not_written m c main_arg13 (by decide)
theorem V_main_arg14 (c : Dev nD) : V m c main_arg14 = m ((c : Thread nD τ).loc main_arg14) :=
  V_of_not_written m c main_arg14 (by decide)

/-! Arguments 1–14 are no staged array and no result of a slice, so each holds at the end what it held at launch.
(Argument 0 is window 0's array; its turn comes in `frame_of`.) -/

theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_bypass m dats c main_arg4 (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_bypass m dats c main_arg5 (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_bypass m dats c main_arg6 (by decide) (by decide)).trans (V_main_arg6 m c)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (W_of_bypass m dats c main_arg7 (by decide) (by decide)).trans (V_main_arg7 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (W_of_bypass m dats c main_arg8 (by decide) (by decide)).trans (V_main_arg8 m c)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (W_of_bypass m dats c main_arg9 (by decide) (by decide)).trans (V_main_arg9 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (W_of_bypass m dats c main_arg10 (by decide) (by decide)).trans (V_main_arg10 m c)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (W_of_bypass m dats c main_arg11 (by decide) (by decide)).trans (V_main_arg11 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (W_of_bypass m dats c main_arg12 (by decide) (by decide)).trans (V_main_arg12 m c)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (W_of_bypass m dats c main_arg13 (by decide) (by decide)).trans (V_main_arg13 m c)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (W_of_bypass m dats c main_arg14 (by decide) (by decide)).trans (V_main_arg14 m c)

/-! ## The windows' blocks -/

/-- Window `w`'s block at point `t`: the window's rectangle at that point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! For any proof data whose array for the window is the entry contents (`hA`) and whose body leaves the window's
buffer at its block (`hafter`), the buffer holds the block whenever the body is called. At a point where the window is
fetched the transfer has just put the block there. At a point where it is not, the block index has not moved since the
previous point, whose body left that point's block there: the same block. No window here is cut at the array's edge or
ever idle, so the library's side conditions hold by computation. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from the launch theorem's -/

/-- An argument other than the first ends as launched, in any final state the launch theorem describes: it is an unscoped
    buffer that no window stages, so it ends at what the trailing slices leave of its entry contents. -/
theorem bypass_kept (dats : (p : Fin 1) → (c : Dev nD) → Dat τ (Elt F) Unit ℕ (UR sig nD τ) ℕ (cfgs p) c)
    {r : PUnit × MemSt nD τ sig (Elt F)}
    (hr : Pipeline.FramePost cfgs dats 0 (Pipeline.afterTail₀ cfgs dats 0 (V0 m) [hostOps1]) r) (c : Dev nD)
    (b : Ref sig .tc) (hs : b.isScoped = false) (ha : ∀ w, (spec0 w).arr.view.ref ≠ b)
    (hW : Pipeline.afterTail₀ cfgs dats 0 (V0 m) [hostOps1] c b = m ((c : Thread nD τ).loc b)) :
    r.2.mem ((c.tc : Thread nD τ).loc b) = m ((c.tc : Thread nD τ).loc b) :=
  ((hr c).2 b (Pipeline.mem_restRefs_of b hs ha)).trans hW

/-- The frame claim's post from a run to the launch theorem's post, for any proof data whose arrays are the entry
    contents (`hA`). Argument 0 is window 0's array: an input window's array is never written back, so it ends at
    `dat.A 0`, the entry contents, which are the launch contents. Arguments 1–14 by `bypass_kept`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_main_arg0 m c))),
     bypass_kept m dats h c main_arg1 (by decide) (by decide) (W_main_arg1 m dats c),
     bypass_kept m dats h c main_arg2 (by decide) (by decide) (W_main_arg2 m dats c),
     bypass_kept m dats h c main_arg3 (by decide) (by decide) (W_main_arg3 m dats c),
     bypass_kept m dats h c main_arg4 (by decide) (by decide) (W_main_arg4 m dats c),
     bypass_kept m dats h c main_arg5 (by decide) (by decide) (W_main_arg5 m dats c),
     bypass_kept m dats h c main_arg6 (by decide) (by decide) (W_main_arg6 m dats c),
     bypass_kept m dats h c main_arg7 (by decide) (by decide) (W_main_arg7 m dats c),
     bypass_kept m dats h c main_arg8 (by decide) (by decide) (W_main_arg8 m dats c),
     bypass_kept m dats h c main_arg9 (by decide) (by decide) (W_main_arg9 m dats c),
     bypass_kept m dats h c main_arg10 (by decide) (by decide) (W_main_arg10 m dats c),
     bypass_kept m dats h c main_arg11 (by decide) (by decide) (W_main_arg11 m dats c),
     bypass_kept m dats h c main_arg12 (by decide) (by decide) (W_main_arg12 m dats c),
     bypass_kept m dats h c main_arg13 (by decide) (by decide) (W_main_arg13 m dats c),
     bypass_kept m dats h c main_arg14 (by decide) (by decide) (W_main_arg14 m dats c)⟩) h

end Cert.Kernel.Around

end
-- ==== Proof.KernelStored.lean ====
/-
  What the kernel body stores, as one pure function of its six input blocks.

  At a grid point the body sees a block of 1024 rows: `x` (1024 × 4096), the packed state `hc` (1024 × 8: columns 0–3 the
  hidden state, 4–7 the cell state), the transposed x-weights `wxt` (4096 × 16), the transposed h-weights `wht` (4 × 16),
  the bias row `b` and the angle row `th` (1 × 16 each; column 4·g + q is gate g, wire q, gates in the order f, i, g, o).
  It loads `x` and `wxt` in four column/row bands of width 1024, the two halves of `hc`, and the three small operands
  whole; everything else is arithmetic on those eleven loads, which the skeleton names `k0_pay1 … k0_pay14`. The one store
  writes the whole 1024 × 8 output block.
-/
import proofs.«138498_j65481071399076_2_alg».proof.Proof.Gen.Kernel.Skeleton
import Idealize.ShloMosaic.Lib.Pipeline.FrameBody

noncomputable section

namespace Cert.Kernel.Body

open Idealize.ShloMosaic Idealize.SL.Sem
open Cert.Kernel Cert.Kernel.Gen

variable {F : FTy → Type} [FloatOps F]

/-! ## The rectangles the body reads and writes through -/

/-- Band `k` of the block of `x`: all 1024 rows, columns 1024·k … 1024·k + 1023. -/
abbrev xBand0 : Rect S1024x4096 := Rect.unit (s := S1024x4096) ![0, 0] S1024x1024.size inb_S1024x4096_S1024x1024_0_0
abbrev xBand1 : Rect S1024x4096 := Rect.unit (s := S1024x4096) ![0, 1024] S1024x1024.size inb_S1024x4096_S1024x1024_0_1024
abbrev xBand2 : Rect S1024x4096 := Rect.unit (s := S1024x4096) ![0, 2048] S1024x1024.size inb_S1024x4096_S1024x1024_0_2048
abbrev xBand3 : Rect S1024x4096 := Rect.unit (s := S1024x4096) ![0, 3072] S1024x1024.size inb_S1024x4096_S1024x1024_0_3072
/-- Band `k` of the transposed x-weights: rows 1024·k … 1024·k + 1023, all 16 columns. -/
abbrev wBand0 : Rect S4096x16 := Rect.unit (s := S4096x16) ![0, 0] S1024x16.size inb_S4096x16_S1024x16_0_0
abbrev wBand1 : Rect S4096x16 := Rect.unit (s := S4096x16) ![1024, 0] S1024x16.size inb_S4096x16_S1024x16_1024_0
abbrev wBand2 : Rect S4096x16 := Rect.unit (s := S4096x16) ![2048, 0] S1024x16.size inb_S4096x16_S1024x16_2048_0
abbrev wBand3 : Rect S4096x16 := Rect.unit (s := S4096x16) ![3072, 0] S1024x16.size inb_S4096x16_S1024x16_3072_0
/-- The hidden-state half (columns 0–3) and the cell-state half (columns 4–7) of the packed state block. -/
abbrev hHalf : Rect S1024x8 := Rect.unit (s := S1024x8) ![0, 0] S1024x4.size inb_S1024x8_S1024x4_0_0
abbrev cHalf : Rect S1024x8 := Rect.unit (s := S1024x8) ![0, 4] S1024x4.size inb_S1024x8_S1024x4_0_4
/-- The small operands and the output block, whole. -/
abbrev whWhole : Rect S4x16 := Rect.unit (s := S4x16) ![0, 0] S4x16.size inb_S4x16_S4x16_0_0
abbrev rowWhole : Rect S1x16 := Rect.unit (s := S1x16) ![0, 0] S1x16.size inb_S1x16_S1x16_0_0
abbrev outWhole : Rect S1024x8 := Rect.unit (s := S1024x8) ![0, 0] S1024x8.size inb_S1024x8_S1024x8_0_0

/-! ## The stored value -/

/-- The x-part of the sixteen logits of each row: the four band products, added up from zero. -/
def xLogits (x : Vec F S1024x4096 .f32) (wxt : Vec F S4096x16 .bf16) : FVec F S1024x16 .f32 :=
  k0_pay2 (View.ld x xBand0) (View.ld wxt wBand0) (View.ld x xBand1) (View.ld wxt wBand1)
    (View.ld x xBand2) (View.ld wxt wBand2) (View.ld x xBand3) (View.ld wxt wBand3)

/-- The new packed state of the block's 1024 rows (columns 0–3 the new hidden state, 4–7 the new cell state), from the
    six input blocks: the skeleton's payloads composed as the body composes them. -/
def stored (x : Vec F S1024x4096 .f32) (hc : Vec F S1024x8 .f32) (wxt : Vec F S4096x16 .bf16) (wht : Vec F S4x16 .bf16)
    (b th : Vec F S1x16 .f32) : FVec F S1024x8 .f32 :=
  k0_pay1 (k0_pay3 (View.ld hc cHalf))
    (k0_pay8 (xLogits x wxt) (k0_pay4 (View.ld hc hHalf)) (k0_pay5 (View.ld wht whWhole)) (View.ld b rowWhole))
    (k0_pay9 (View.ld th rowWhole))
    (k0_pay10 (xLogits x wxt) (k0_pay4 (View.ld hc hHalf)) (k0_pay5 (View.ld wht whWhole)) (View.ld b rowWhole) (View.ld th rowWhole))
    (k0_pay11 (xLogits x wxt) (k0_pay4 (View.ld hc hHalf)) (k0_pay5 (View.ld wht whWhole)) (View.ld b rowWhole) (View.ld th rowWhole))
    (k0_pay12 (xLogits x wxt) (k0_pay4 (View.ld hc hHalf)) (k0_pay5 (View.ld wht whWhole)) (View.ld b rowWhole) (View.ld th rowWhole))
    (k0_pay13 (xLogits x wxt) (k0_pay4 (View.ld hc hHalf)) (k0_pay5 (View.ld wht whWhole)) (View.ld b rowWhole) (View.ld th rowWhole))
    (k0_pay14 (xLogits x wxt) (k0_pay4 (View.ld hc hHalf)) (k0_pay5 (View.ld wht whWhole)) (View.ld b rowWhole) (View.ld th rowWhole))

/-- The output block's staging buffer after the body: its one store, which covers it. -/
def outBlock (x : Vec F S1024x4096 .f32) (hc : Vec F S1024x8 .f32) (wxt : Vec F S4096x16 .bf16) (wht : Vec F S4x16 .bf16)
    (b th : Vec F S1x16 .f32) : Vec F S1024x8 .f32 :=
  View.canon [⟨outWhole, stored x hc wxt wht b th⟩]

end Cert.Kernel.Body

end
-- ==== Proof.KernelBody.lean ====
/-
  The kernel body's triple: run at a grid point on its seven staging buffers, the body leaves the six input blocks
  as it found them and the output block holding `outBlock` of the six inputs.

  The body is a straight line of memory operations around pure arithmetic: eleven loads of the input buffers (four
  column bands of `x`, four row bands of the transposed x-weights, the two halves of the packed state, the
  h-weights; then, in the second part, the bias row and the angle row), one load of the whole output buffer whose
  value nothing uses, and one store of the whole output buffer. Loads change nothing, so every input buffer ends as
  it began. A load through a rectangle of a buffer whose contents read `X` reads `View.ld X` of that rectangle, so
  the value stored is `stored` of the six input blocks — the payloads composed over those eleven loads. The output
  buffer starts at contents nobody knows; the load of it reads those unknown contents and discards them, and the
  store then overwrites every element, because its rectangle is the whole 1024 × 8 block. So the block reads back as
  the stored value laid over nothing, `View.canon [⟨outWhole, stored …⟩]`, which is `outBlock`.
-/
import proofs.«138498_j65481071399076_2_alg».proof.Proof.KernelStored
import proofs.«138498_j65481071399076_2_alg».proof.Proof.Gen.Kernel.Launch
import proofs.«138498_j65481071399076_2_alg».proof.Proof.Gen.Kernel.Points
import Idealize.ShloMosaic.Lib.Pipeline.FrameBody
import Idealize.ShloMosaic.Lib.Ring
import Idealize.ShloMosaic.Lib.Tactic

-- membership of an index in a rectangle with a side of 1024 is decided by a recursion one level per coordinate
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

/-! ## The one store covers the output block -/

/-- Every index of the 1024 × 8 output block lies in the rectangle of the body's one store: the rectangle starts at
    (0, 0) and has the block's own extents, so the one piece tiles the block. -/
theorem cover_out (p : Vec F S1024x8 .f32) (y : S1024x8.Idx) :
    ∃ pc ∈ ([⟨outWhole, p⟩] : List (View.Piece (Elt F) S1024x8 .f32)), y ∈ pc.1.set :=
  View.cover_of_tiled [⟨outWhole, p⟩] S1024x8.size (by rfl) y

/-! ## The body's triple -/

set_option maxHeartbeats 1000000 in
/-- The body at grid point `i`, on whole staging memrefs: given the six input buffers at contents reading `x`, `hc`,
    `wxt`, `wht`, `b`, `th` and the output buffer at any contents `d`, it runs to any continuation `K` that accepts
    the six input buffers unchanged and the output buffer reading `outBlock x hc wxt wht b th`. -/
theorem sound_kernel (c : Dev nD) (E : Set ℕ) (i : grid0.Coords)
    (arg1 : Memref sig .tc .vmem S1024x4096 .f32) (harg1 : arg1.IsWhole) (arg2 : Memref sig .tc .vmem S1024x8 .f32) (harg2 : arg2.IsWhole)
    (arg3 : Memref sig .tc .vmem S4096x16 .bf16) (harg3 : arg3.IsWhole) (arg4 : Memref sig .tc .vmem S4x16 .bf16) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S1024x8 .f32) (harg7 : arg7.IsWhole)
    (x : Vec F S1024x4096 .f32) (hc : Vec F S1024x8 .f32) (wxt : Vec F S4096x16 .bf16) (wht : Vec F S4x16 .bf16) (b th : Vec F S1x16 .f32)
    (K : PUnit → sProp (MT nD τ sig Unit (Elt F) ℕ (UR sig nD τ) ℕ)) :
    iprop(owns (c : Thread nD τ) arg1 fullShare x ∗ owns (c : Thread nD τ) arg2 fullShare hc ∗ owns (c : Thread nD τ) arg3 fullShare wxt ∗ owns (c : Thread nD τ) arg4 fullShare wht ∗ owns (c : Thread nD τ) arg5 fullShare b ∗ owns (c : Thread nD τ) arg6 fullShare th ∗ (∃ d, owns (c : Thread nD τ) arg7 fullShare d)
        ∗ (iprop(owns (c : Thread nD τ) arg1 fullShare x ∗ owns (c : Thread nD τ) arg2 fullShare hc ∗ owns (c : Thread nD τ) arg3 fullShare wxt ∗ owns (c : Thread nD τ) arg4 fullShare wht ∗ owns (c : Thread nD τ) arg5 fullShare b ∗ owns (c : Thread nD τ) arg6 fullShare th ∗ owns (c : Thread nD τ) arg7 fullShare (outBlock x hc wxt wht b th)) -∗ K ⟨⟩))
      ⊢ wp frame (wpE (defs₀ (F := F)) Variants.none c none) E (cc0__qlstm_kernel i arg1 harg1 arg2 harg2 arg3 harg3 arg4 harg4 arg5 harg5 arg6 harg6 arg7 harg7) K := by
  -- The body and its two parts are their skeletons: the memory operations in program order, every pure value
  -- between them a payload `k0_payN` of the values loaded before it.
  simp only [cc0__qlstm_kernel_eq_skeleton]; unfold cc0__qlstm_kernel_skel
  simp only [k0_part1_eq_skeleton]; unfold k0_part1_skel
  simp only [k0_part2_eq_skeleton]; unfold k0_part2_skel
  -- Owning a memref that reads `X` is owning its elements at some raw contents `f` of its buffer with
  -- `read f = X`. Name the raw contents `f1 … f6` of the inputs and replace `x … th` by what they read; of the output
  -- buffer keep only its raw contents `f7`: what they read (`d7`) is never used.
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  -- Run the twelve loads and the store. A load through rectangle `r` of a buffer at `f` binds `readAt r f` and
  -- leaves the buffer at `f` — the load of the output buffer binds `readAt outWhole f7`, which no later operation
  -- mentions —; the store leaves the output buffer at `writes f7 [⟨outWhole, k0_pay1 …⟩]`, the payload over the
  -- parts' returned values, themselves payloads over the eleven input loads.
  sl_exec
  -- The body returns; hand the seven buffers to the continuation.
  sl_step
  iapply Hk
  -- Each input buffer is at the raw contents it started with, so it reads what it read.
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- The output buffer is at `writes f7 [⟨outWhole, v⟩]` for the stored value `v`; it remains to read it back.
  iexists _; isplitr
  swap; · iexact H7
  ipureintro
  -- Select the components of the parts' returned tuples: `v` becomes `k0_pay1` over the payloads of the loads.
  dsimp only
  -- The one piece covers the block (`cover_out`), so whatever `f7` was, the block now reads the canonical contents of
  -- the piece list, `View.canon [⟨outWhole, v⟩]`. And `v` is `stored` of what the inputs read: `readAt r f` is
  -- `View.ld (read f) r` by definition, and `stored` composes the same payloads over the same eleven rectangles. That is
  -- `outBlock`.
  exact View.read_writes_eq_canon _ _ _ (cover_out _)

end Cert.Kernel.Body

end
-- ==== Proof.KernelFrame.lean ====
/- The frame of the whole program: from any launch memory with zero counters the entry function runs to the end on
   every core, faults nowhere, and leaves its fifteen argument arrays as launched.

   The region is a pipeline of the plain class: at each of the 32 grid points the body reads six staged input
   blocks, writes the one staged output block whole, and touches nothing else. For such a pipeline the launch
   theorem asks for proof data — per core, what each staged array holds at entry and what each window's staging
   buffer holds after the body at each point — and for the body's triple at a generic point. The data here
   (`dats`): the arrays at their entry contents; after the body at point `t` each input window's buffer still at its
   block there (the body only reads it), and the output window's buffer at the body's stored block computed from the
   six input blocks at `t`. The body's triple at point `t` (`sound_body`) is the kernel's own triple read at the
   current staging buffers, once each input buffer is known to hold its block there, fetched at `t` or not. The
   launch theorem then gives the run (`run_main`) with every staged array and every bypassing buffer determined at
   the end, and reading that post at the fifteen arguments gives the frame (`frame`). -/
import proofs.«138498_j65481071399076_2_alg».proof.Proof.KernelAround
import proofs.«138498_j65481071399076_2_alg».proof.Proof.KernelBody

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`. The staged arrays hold their entry contents. After the body at point `t`
    an input window's buffer holds the window's block at `t`, and the output window's buffer holds the stored block of
    the six input blocks at `t`. The invariant is the class's (the scoped rest and the generator register, untouched);
    every share is full; nothing is owed. -/
def dats (_ : Fin 1) (c : Dev nD) : Dat τ (Elt F) Unit ℕ (UR sig nD τ) ℕ cfg0 c where
  A w := Around.V m c (Pipeline.arrRef spec0 w)
  after w t := match w with
    | ⟨0, _⟩ => Around.iblk m c 0 t
    | ⟨1, _⟩ => Around.iblk m c 1 t
    | ⟨2, _⟩ => Around.iblk m c 2 t
    | ⟨3, _⟩ => Around.iblk m c 3 t
    | ⟨4, _⟩ => Around.iblk m c 4 t
    | ⟨5, _⟩ => Around.iblk m c 5 t
    | ⟨6, _⟩ => Body.outBlock (Around.iblk m c 0 t) (Around.iblk m c 1 t) (Around.iblk m c 2 t) (Around.iblk m c 3 t)
        (Around.iblk m c 4 t) (Around.iblk m c 5 t)
  Φ _ := Pipeline.ΦA spec0 c
  q _ := fullShare
  owed _ := 0

/-- The data's arrays are the entry contents (the definition projected; the entry contents, a fold over the twelve
    operations, stay folded). -/
theorem A_eq (c : Dev nD) (w : Fin cfg0.W) : (dats m 0 c).A w = Around.V m c (Pipeline.arrRef spec0 w) := by
  dsimp only [dats]

/-! What the body leaves, window by window (the definition's case split reduced). -/

theorem after_0 (c : Dev nD) (t : Fin cfg0.N) : (dats m 0 c).after 0 t = Around.iblk m c 0 t := by dsimp only [dats]
theorem after_1 (c : Dev nD) (t : Fin cfg0.N) : (dats m 0 c).after 1 t = Around.iblk m c 1 t := by dsimp only [dats]
theorem after_2 (c : Dev nD) (t : Fin cfg0.N) : (dats m 0 c).after 2 t = Around.iblk m c 2 t := by dsimp only [dats]
theorem after_3 (c : Dev nD) (t : Fin cfg0.N) : (dats m 0 c).after 3 t = Around.iblk m c 3 t := by dsimp only [dats]
theorem after_4 (c : Dev nD) (t : Fin cfg0.N) : (dats m 0 c).after 4 t = Around.iblk m c 4 t := by dsimp only [dats]
theorem after_5 (c : Dev nD) (t : Fin cfg0.N) : (dats m 0 c).after 5 t = Around.iblk m c 5 t := by dsimp only [dats]
theorem after_6 (c : Dev nD) (t : Fin cfg0.N) : (dats m 0 c).after 6 t =
    Body.outBlock (Around.iblk m c 0 t) (Around.iblk m c 1 t) (Around.iblk m c 2 t) (Around.iblk m c 3 t)
      (Around.iblk m c 4 t) (Around.iblk m c 5 t) := by dsimp only [dats]

/-! Each input window's current staging buffer holds its block whenever the body is called, fetched at that point or
not: the data's arrays are the entry contents and its body leaves every input block in place. -/

theorem before_0 (c : Dev nD) (t : Fin cfg0.N) (d) : (dats m 0 c).before 0 t d = Around.iblk m c 0 t :=
  Around.before_0_of m (dats m 0 c) (A_eq m c 0) (after_0 m c) t d
theorem before_1 (c : Dev nD) (t : Fin cfg0.N) (d) : (dats m 0 c).before 1 t d = Around.iblk m c 1 t :=
  Around.before_1_of m (dats m 0 c) (A_eq m c 1) (after_1 m c) t d
theorem before_2 (c : Dev nD) (t : Fin cfg0.N) (d) : (dats m 0 c).before 2 t d = Around.iblk m c 2 t :=
  Around.before_2_of m (dats m 0 c) (A_eq m c 2) (after_2 m c) t d
theorem before_3 (c : Dev nD) (t : Fin cfg0.N) (d) : (dats m 0 c).before 3 t d = Around.iblk m c 3 t :=
  Around.before_3_of m (dats m 0 c) (A_eq m c 3) (after_3 m c) t d
theorem before_4 (c : Dev nD) (t : Fin cfg0.N) (d) : (dats m 0 c).before 4 t d = Around.iblk m c 4 t :=
  Around.before_4_of m (dats m 0 c) (A_eq m c 4) (after_4 m c) t d
theorem before_5 (c : Dev nD) (t : Fin cfg0.N) (d) : (dats m 0 c).before 5 t d = Around.iblk m c 5 t :=
  Around.before_5_of m (dats m 0 c) (A_eq m c 5) (after_5 m c) t d

/-! ## The body obligation at a generic point -/

/-- What the body is called with at point `t`: the invariant, what the core owes, and each window's current staging
    buffer whole at what it holds then. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the same, each buffer at what the data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. The six input buffers hold their blocks (`before_0` … `before_5`) and the output buffer holds
    something, which is the kernel's precondition at those blocks; the kernel returns the inputs as they were and the
    output at the stored block, which is what the data say. The invariant and what is owed pass through unread: the
    class's invariant does not depend on the point, and nothing is ever owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel c Set.univ (grid0.coords t) _ _ _ _ _ _ _ _ _ _ _ _ _ _
    (Around.iblk m c 0 t) (Around.iblk m c 1 t) (Around.iblk m c 2 t) (Around.iblk m c 3 t)
    (Around.iblk m c 4 t) (Around.iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point: its conjunction over the seven windows written out. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions in the type of a not yet assigned argument
set_option backward.isDefEq.respectTransparency.types false in
/-- From any launch memory with zero counters every weakly fair execution of the entry function terminates without a
    fault, and in every final state each staged array holds what the data compute (an input its entry contents, the
    output its entry contents overwritten block by block by what the body stored) and every other unscoped buffer what
    the two trailing slices leave of the region's exit contents. -/
theorem run_main : θ_run defs (onTc (τ := τ) (main (F := F))) (s₀ m ρ)
    (Pipeline.FramePost cfgs (dats m) 0 (Pipeline.afterTail₀ cfgs (dats m) 0 (Around.V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Around.V0 m) (opss := [hostOps1]) (hsub := Around.sfx_sub) (hfresh := Around.sfx_fresh)
    (hkeep := Around.sfx_keeps) (hmain := Around.hmain m Variants.none) (hA := A_eq m) (hΦ := fun _ _ => rfl)

/-- The frame: the entry function runs to the end without a fault and leaves its fifteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Around.frame_of m ρ (dats m) (A_eq m) (run_main m ρ)

end Cert.Kernel.Frame

end
-- ==== Proof.KernelIdealAround.lean ====
/- The entry function is three stretches run in order on each core: twelve whole-array operations
   that build the region's operands out of the fifteen argument arrays (three four-way
   concatenations stacking the gates' weights, biases and angles; two column slices; two
   transpositions; two roundings to bf16; two reshapes to a row; one two-way concatenation of the
   hidden and the cell state), the pipelined region over a grid of 32 points, and two column slices
   that cut the region's result into the two outputs.

   This module is the part of the frame argument that is about the entry function alone:
     * the buffer contents the region is entered with (`V0`, `V`), and the entry function as
       "operations, region, operations" in the form the launch theorem takes (`hmain`);
     * the operations after the region touch only unscoped buffers, allocate nothing, and write no
       array the pipeline stages (`sfx_sub`, `sfx_fresh`, `sfx_keeps`);
     * a buffer that none of the twelve operations writes is entered as launched
       (`V_of_not_written`), and a buffer that is no staged array and that neither slice writes
       leaves as it was entered (`W_of_bypass`); the fifteen arguments are instances;
     * each input window's block at a grid point, read off the array as entered (`iblk`), is what
       the window's current staging buffer holds whenever the body is called, fetched at that
       point or not (`before_0_of` … `before_5_of`): windows 0 and 1 move with the point and are
       fetched at every point; windows 2–5 have the constant block index 0, are fetched at the
       first point only, and at a later point hold the previous point's block, which is the same
       block because the index did not move;
     * the frame claim's post from the launch theorem's (`frame_of`): argument 0 is window 0's
       array, an input, never written back, so it ends at its entry contents; every other argument
       is unscoped and no window's array, so it ends at what the trailing operations leave, which
       is its entry contents, which are its launch contents. -/
import proofs.«138498_j65481071399076_2_alg».proof.Proof.Gen.KernelIdeal.Launch
import proofs.«138498_j65481071399076_2_alg».proof.Proof.Gen.KernelIdeal.Skeleton
import proofs.«138498_j65481071399076_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (m : (ℓ : Loc nD τ sig) → Buf (Elt F) ℓ) (ρ : Dev nD → PrngReg)

/-! ## The entry function around the region -/

/-- Core `c`'s buffer contents when the region is entered: the launch contents run through the twelve
    operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The operations before the region allocate nothing, -/
theorem hostOps0_fresh : (hostOps0 : List (HloOp τ sig (Elt F))).Forall fun op => op.fresh = ∅ := by
  simp only [List.Forall]; repeat' constructor
/-- nor do those after it. -/
theorem hostOps1_fresh : (hostOps1 : List (HloOp τ sig (Elt F))).Forall fun op => op.fresh = ∅ := by
  simp only [List.Forall]; repeat' constructor

/-- The entry function is the twelve operations, the region, the two slices: run from the launch memory it reaches
    the region with the contents `V` and continues after it with the two slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two slices touch unscoped TensorCore buffers only; with no prefetched table every such buffer is a staged
    array or a buffer that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_singleton] using hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  obtain rfl : ops = hostOps1 := by simpa only [List.mem_singleton] using hops
  exact (List.forall_iff_forall_mem.mp hostOps1_fresh) op hop

/-- Each writes its own result (`main_v13`, `main_v14`), which is none of the seven staged arrays
    (`main_arg0`, `main_v11`, `main_v6`, `main_v8`, `main_v9`, `main_v10`, `main_v12`). -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_singleton] using hops
  simp only [hostOps1, List.mem_cons, List.mem_nil_iff, or_false] at hop
  rcases hop with rfl | rfl
  all_goals
    intro w
    fin_cases w <;> simp only [StableHlo.unary_writes, Finset.mem_singleton] <;>
      exact StableHlo.devRef_ne_of_ne (by decide)

/-! ## What the operations leave alone -/

/-- The buffers the twelve operations before the region write: their results. -/
abbrev written0 : List (Ref sig .tc) :=
  [main_v0, main_v1, main_v2, main_v3, main_v4, main_v5, main_v6, main_v7, main_v8, main_v9, main_v10, main_v11]

/-- The buffers the two slices after the region write. -/
abbrev written1 : List (Ref sig .tc) := [main_v13, main_v14]

/-- A buffer that is no result of the twelve operations is entered as launched: each operation writes its result and
    nothing else. -/
theorem V_of_not_written (c : Dev nD) (b : Ref sig .tc) (hb : b ∉ written0) : V m c b = m ((c : Thread nD τ).loc b) := by
  simp only [written0, List.mem_cons, List.mem_nil_iff, or_false, not_or] at hb
  obtain ⟨h0, h1, h2, h3, h4, h5, h6, h7, h8, h9, h10, h11⟩ := hb
  refine StableHlo.after_of_forall_not_mem (b := Proc.devRef .tc b) _ _ (List.forall_iff_forall_mem.mp ?_)
  simp only [hostOps0, List.flatten_cons, List.flatten_nil, List.append_nil, List.Forall,
    StableHlo.nary_writes, StableHlo.unary_writes, StableHlo.binary_writes, StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11⟩

/-- A buffer that is no staged array and no result of the two slices holds after them what it held when the region
    was entered: the region's exit contents differ from the entry contents at the staged arrays only, and the slices
    write their results only. -/
theorem W_of_bypass (dats : (p : Fin 1) → (c : Dev nD) → Dat τ (Elt F) Unit ℕ (UR sig nD τ) ℕ (cfgs p) c) (c : Dev nD)
    (b : Ref sig .tc) (ha : ∀ w, Pipeline.arrRef spec0 w ≠ b) (hb : b ∉ written1) :
    Pipeline.afterTail₀ cfgs dats 0 (V0 m) [hostOps1] c b = V m c b := by
  simp only [written1, List.mem_cons, List.mem_nil_iff, or_false, not_or] at hb
  obtain ⟨h13, h14⟩ := hb
  unfold Pipeline.afterTail₀
  rw [StableHlo.after_of_forall_not_mem (b := Proc.devRef .tc b) _ _ (List.forall_iff_forall_mem.mp (by
      simp only [hostOps1, List.flatten_cons, List.flatten_nil, List.append_nil, List.Forall,
        StableHlo.unary_writes, Finset.mem_singleton]
      exact ⟨StableHlo.devRef_ne_of_ne h13, StableHlo.devRef_ne_of_ne h14⟩)),
    Pipeline.withArrays_of_ne _ c (V0 m c) _ b ha]

/-! ### The fifteen arguments

None is a result of an operation before the region, so each is entered as launched. -/

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)
theorem V_main_arg4 (c : Dev nD) : V m c main_arg4 = m ((c : Thread nD τ).loc main_arg4) :=
  V_of_not_written m c main_arg4 (by decide)
theorem V_main_arg5 (c : Dev nD) : V m c main_arg5 = m ((c : Thread nD τ).loc main_arg5) :=
  V_of_not_written m c main_arg5 (by decide)
theorem V_main_arg6 (c : Dev nD) : V m c main_arg6 = m ((c : Thread nD τ).loc main_arg6) :=
  V_of_not_written m c main_arg6 (by decide)
theorem V_main_arg7 (c : Dev nD) : V m c main_arg7 = m ((c : Thread nD τ).loc main_arg7) :=
  V_of_not_written m c main_arg7 (by decide)
theorem V_main_arg8 (c : Dev nD) : V m c main_arg8 = m ((c : Thread nD τ).loc main_arg8) :=
  V_of_not_written m c main_arg8 (by decide)
theorem V_main_arg9 (c : Dev nD) : V m c main_arg9 = m ((c : Thread nD τ).loc main_arg9) :=
  V_of_not_written m c main_arg9 (by decide)
theorem V_main_arg10 (c : Dev nD) : V m c main_arg10 = m ((c : Thread nD τ).loc main_arg10) :=
  V_of_not_written m c main_arg10 (by decide)
theorem V_main_arg11 (c : Dev nD) : V m c main_arg11 = m ((c : Thread nD τ).loc main_arg11) :=
  V_of_not_written m c main_arg11 (by decide)
theorem V_main_arg12 (c : Dev nD) : V m c main_arg12 = m ((c : Thread nD τ).loc main_arg12) :=
  V_of_not_written m c main_arg12 (by decide)
theorem V_main_arg13 (c : Dev nD) : V m c main_arg13 = m ((c : Thread nD τ).loc main_arg13) :=
  V_of_not_written m c main_arg13 (by decide)
theorem V_main_arg14 (c : Dev nD) : V m c main_arg14 = m ((c : Thread nD τ).loc main_arg14) :=
  V_of_not_written m c main_arg14 (by decide)

/-! Arguments 1–14 are no staged array and no result of a slice, so each holds at the end what it held at launch.
(Argument 0 is window 0's array; its turn comes in `frame_of`.) -/

theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (W_of_bypass m dats c main_arg4 (by decide) (by decide)).trans (V_main_arg4 m c)
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (W_of_bypass m dats c main_arg5 (by decide) (by decide)).trans (V_main_arg5 m c)
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (W_of_bypass m dats c main_arg6 (by decide) (by decide)).trans (V_main_arg6 m c)
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (W_of_bypass m dats c main_arg7 (by decide) (by decide)).trans (V_main_arg7 m c)
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (W_of_bypass m dats c main_arg8 (by decide) (by decide)).trans (V_main_arg8 m c)
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (W_of_bypass m dats c main_arg9 (by decide) (by decide)).trans (V_main_arg9 m c)
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (W_of_bypass m dats c main_arg10 (by decide) (by decide)).trans (V_main_arg10 m c)
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (W_of_bypass m dats c main_arg11 (by decide) (by decide)).trans (V_main_arg11 m c)
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (W_of_bypass m dats c main_arg12 (by decide) (by decide)).trans (V_main_arg12 m c)
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (W_of_bypass m dats c main_arg13 (by decide) (by decide)).trans (V_main_arg13 m c)
theorem W_main_arg14 (dats : (p : Fin 1) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) :=
  (W_of_bypass m dats c main_arg14 (by decide) (by decide)).trans (V_main_arg14 m c)

/-! ## The windows' blocks -/

/-- Window `w`'s block at point `t`: the window's rectangle at that point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! For any proof data whose array for the window is the entry contents (`hA`) and whose body leaves the window's
buffer at its block (`hafter`), the buffer holds the block whenever the body is called. At a point where the window is
fetched the transfer has just put the block there. At a point where it is not, the block index has not moved since the
previous point, whose body left that point's block there: the same block. No window here is cut at the array's edge or
ever idle, so the library's side conditions hold by computation. -/

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl)
    (fun t => by rw [hafter]; unfold Dat.blockOf iblk; rw [hA]; try rfl) t d).trans
    (by unfold Dat.fetched Dat.blockOf iblk; rw [hA]; try rfl)

/-! ## The frame claim's post from the launch theorem's -/

/-- An argument other than the first ends as launched, in any final state the launch theorem describes: it is an unscoped
    buffer that no window stages, so it ends at what the trailing slices leave of its entry contents. -/
theorem bypass_kept (dats : (p : Fin 1) → (c : Dev nD) → Dat τ (Elt F) Unit ℕ (UR sig nD τ) ℕ (cfgs p) c)
    {r : PUnit × MemSt nD τ sig (Elt F)}
    (hr : Pipeline.FramePost cfgs dats 0 (Pipeline.afterTail₀ cfgs dats 0 (V0 m) [hostOps1]) r) (c : Dev nD)
    (b : Ref sig .tc) (hs : b.isScoped = false) (ha : ∀ w, (spec0 w).arr.view.ref ≠ b)
    (hW : Pipeline.afterTail₀ cfgs dats 0 (V0 m) [hostOps1] c b = m ((c : Thread nD τ).loc b)) :
    r.2.mem ((c.tc : Thread nD τ).loc b) = m ((c.tc : Thread nD τ).loc b) :=
  ((hr c).2 b (Pipeline.mem_restRefs_of b hs ha)).trans hW

/-- The frame claim's post from a run to the launch theorem's post, for any proof data whose arrays are the entry
    contents (`hA`). Argument 0 is window 0's array: an input window's array is never written back, so it ends at
    `dat.A 0`, the entry contents, which are the launch contents. Arguments 1–14 by `bypass_kept`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨((h c).1 0).trans (((dats 0 c).arrAt_in 0 rfl _).trans ((hA c 0).trans (V_main_arg0 m c))),
     bypass_kept m dats h c main_arg1 (by decide) (by decide) (W_main_arg1 m dats c),
     bypass_kept m dats h c main_arg2 (by decide) (by decide) (W_main_arg2 m dats c),
     bypass_kept m dats h c main_arg3 (by decide) (by decide) (W_main_arg3 m dats c),
     bypass_kept m dats h c main_arg4 (by decide) (by decide) (W_main_arg4 m dats c),
     bypass_kept m dats h c main_arg5 (by decide) (by decide) (W_main_arg5 m dats c),
     bypass_kept m dats h c main_arg6 (by decide) (by decide) (W_main_arg6 m dats c),
     bypass_kept m dats h c main_arg7 (by decide) (by decide) (W_main_arg7 m dats c),
     bypass_kept m dats h c main_arg8 (by decide) (by decide) (W_main_arg8 m dats c),
     bypass_kept m dats h c main_arg9 (by decide) (by decide) (W_main_arg9 m dats c),
     bypass_kept m dats h c main_arg10 (by decide) (by decide) (W_main_arg10 m dats c),
     bypass_kept m dats h c main_arg11 (by decide) (by decide) (W_main_arg11 m dats c),
     bypass_kept m dats h c main_arg12 (by decide) (by decide) (W_main_arg12 m dats c),
     bypass_kept m dats h c main_arg13 (by decide) (by decide) (W_main_arg13 m dats c),
     bypass_kept m dats h c main_arg14 (by decide) (by decide) (W_main_arg14 m dats c)⟩) h

end Cert.KernelIdeal.Around

end
-- ==== Proof.KernelIdealStored.lean ====
/-
  What the kernel body stores, as one pure function of its six input blocks.

  At a grid point the body sees a block of 1024 rows: `x` (1024 × 4096), the packed state `hc` (1024 × 8: columns 0–3 the
  hidden state, 4–7 the cell state), the transposed x-weights `wxt` (4096 × 16), the transposed h-weights `wht` (4 × 16),
  the bias row `b` and the angle row `th` (1 × 16 each; column 4·g + q is gate g, wire q, gates in the order f, i, g, o).
  It loads `x` and `wxt` in four column/row bands of width 1024, the two halves of `hc`, and the three small operands
  whole; everything else is arithmetic on those eleven loads, which the skeleton names `k0_pay1 … k0_pay14`. The one store
  writes the whole 1024 × 8 output block.
-/
import proofs.«138498_j65481071399076_2_alg».proof.Proof.Gen.KernelIdeal.Skeleton
import Idealize.ShloMosaic.Lib.Pipeline.FrameBody

noncomputable section

namespace Cert.KernelIdeal.Body

open Idealize.ShloMosaic Idealize.SL.Sem
open Cert.KernelIdeal Cert.KernelIdeal.Gen

variable {F : FTy → Type} [FloatOps F]

/-! ## The rectangles the body reads and writes through -/

/-- Band `k` of the block of `x`: all 1024 rows, columns 1024·k … 1024·k + 1023. -/
abbrev xBand0 : Rect S1024x4096 := Rect.unit (s := S1024x4096) ![0, 0] S1024x1024.size inb_S1024x4096_S1024x1024_0_0
abbrev xBand1 : Rect S1024x4096 := Rect.unit (s := S1024x4096) ![0, 1024] S1024x1024.size inb_S1024x4096_S1024x1024_0_1024
abbrev xBand2 : Rect S1024x4096 := Rect.unit (s := S1024x4096) ![0, 2048] S1024x1024.size inb_S1024x4096_S1024x1024_0_2048
abbrev xBand3 : Rect S1024x4096 := Rect.unit (s := S1024x4096) ![0, 3072] S1024x1024.size inb_S1024x4096_S1024x1024_0_3072
/-- Band `k` of the transposed x-weights: rows 1024·k … 1024·k + 1023, all 16 columns. -/
abbrev wBand0 : Rect S4096x16 := Rect.unit (s := S4096x16) ![0, 0] S1024x16.size inb_S4096x16_S1024x16_0_0
abbrev wBand1 : Rect S4096x16 := Rect.unit (s := S4096x16) ![1024, 0] S1024x16.size inb_S4096x16_S1024x16_1024_0
abbrev wBand2 : Rect S4096x16 := Rect.unit (s := S4096x16) ![2048, 0] S1024x16.size inb_S4096x16_S1024x16_2048_0
abbrev wBand3 : Rect S4096x16 := Rect.unit (s := S4096x16) ![3072, 0] S1024x16.size inb_S4096x16_S1024x16_3072_0
/-- The hidden-state half (columns 0–3) and the cell-state half (columns 4–7) of the packed state block. -/
abbrev hHalf : Rect S1024x8 := Rect.unit (s := S1024x8) ![0, 0] S1024x4.size inb_S1024x8_S1024x4_0_0
abbrev cHalf : Rect S1024x8 := Rect.unit (s := S1024x8) ![0, 4] S1024x4.size inb_S1024x8_S1024x4_0_4
/-- The small operands and the output block, whole. -/
abbrev whWhole : Rect S4x16 := Rect.unit (s := S4x16) ![0, 0] S4x16.size inb_S4x16_S4x16_0_0
abbrev rowWhole : Rect S1x16 := Rect.unit (s := S1x16) ![0, 0] S1x16.size inb_S1x16_S1x16_0_0
abbrev outWhole : Rect S1024x8 := Rect.unit (s := S1024x8) ![0, 0] S1024x8.size inb_S1024x8_S1024x8_0_0

/-! ## The stored value -/

/-- The x-part of the sixteen logits of each row: the four band products, added up from zero. -/
def xLogits (x : Vec F S1024x4096 .f32) (wxt : Vec F S4096x16 .bf16) : FVec F S1024x16 .f32 :=
  k0_pay2 (View.ld x xBand0) (View.ld wxt wBand0) (View.ld x xBand1) (View.ld wxt wBand1)
    (View.ld x xBand2) (View.ld wxt wBand2) (View.ld x xBand3) (View.ld wxt wBand3)

/-- The new packed state of the block's 1024 rows (columns 0–3 the new hidden state, 4–7 the new cell state), from the
    six input blocks: the skeleton's payloads composed as the body composes them. -/
def stored (x : Vec F S1024x4096 .f32) (hc : Vec F S1024x8 .f32) (wxt : Vec F S4096x16 .bf16) (wht : Vec F S4x16 .bf16)
    (b th : Vec F S1x16 .f32) : FVec F S1024x8 .f32 :=
  k0_pay1 (k0_pay3 (View.ld hc cHalf))
    (k0_pay8 (xLogits x wxt) (k0_pay4 (View.ld hc hHalf)) (k0_pay5 (View.ld wht whWhole)) (View.ld b rowWhole))
    (k0_pay9 (View.ld th rowWhole))
    (k0_pay10 (xLogits x wxt) (k0_pay4 (View.ld hc hHalf)) (k0_pay5 (View.ld wht whWhole)) (View.ld b rowWhole) (View.ld th rowWhole))
    (k0_pay11 (xLogits x wxt) (k0_pay4 (View.ld hc hHalf)) (k0_pay5 (View.ld wht whWhole)) (View.ld b rowWhole) (View.ld th rowWhole))
    (k0_pay12 (xLogits x wxt) (k0_pay4 (View.ld hc hHalf)) (k0_pay5 (View.ld wht whWhole)) (View.ld b rowWhole) (View.ld th rowWhole))
    (k0_pay13 (xLogits x wxt) (k0_pay4 (View.ld hc hHalf)) (k0_pay5 (View.ld wht whWhole)) (View.ld b rowWhole) (View.ld th rowWhole))
    (k0_pay14 (xLogits x wxt) (k0_pay4 (View.ld hc hHalf)) (k0_pay5 (View.ld wht whWhole)) (View.ld b rowWhole) (View.ld th rowWhole))

/-- The output block's staging buffer after the body: its one store, which covers it. -/
def outBlock (x : Vec F S1024x4096 .f32) (hc : Vec F S1024x8 .f32) (wxt : Vec F S4096x16 .bf16) (wht : Vec F S4x16 .bf16)
    (b th : Vec F S1x16 .f32) : Vec F S1024x8 .f32 :=
  View.canon [⟨outWhole, stored x hc wxt wht b th⟩]

end Cert.KernelIdeal.Body

end
-- ==== Proof.KernelIdealBody.lean ====
/-
  The kernel body's triple: run at a grid point on its seven staging buffers, the body leaves the six input blocks
  as it found them and the output block holding `outBlock` of the six inputs.

  The body is a straight line of memory operations around pure arithmetic: eleven loads of the input buffers (four
  column bands of `x`, four row bands of the transposed x-weights, the two halves of the packed state, the
  h-weights; then, in the second part, the bias row and the angle row), one load of the whole output buffer whose
  value nothing uses, and one store of the whole output buffer. Loads change nothing, so every input buffer ends as
  it began. A load through a rectangle of a buffer whose contents read `X` reads `View.ld X` of that rectangle, so
  the value stored is `stored` of the six input blocks — the payloads composed over those eleven loads. The output
  buffer starts at contents nobody knows; the load of it reads those unknown contents and discards them, and the
  store then overwrites every element, because its rectangle is the whole 1024 × 8 block. So the block reads back as
  the stored value laid over nothing, `View.canon [⟨outWhole, stored …⟩]`, which is `outBlock`.
-/
import proofs.«138498_j65481071399076_2_alg».proof.Proof.KernelIdealStored
import proofs.«138498_j65481071399076_2_alg».proof.Proof.Gen.KernelIdeal.Launch
import proofs.«138498_j65481071399076_2_alg».proof.Proof.Gen.KernelIdeal.Points
import Idealize.ShloMosaic.Lib.Pipeline.FrameBody
import Idealize.ShloMosaic.Lib.Ring
import Idealize.ShloMosaic.Lib.Tactic

-- membership of an index in a rectangle with a side of 1024 is decided by a recursion one level per coordinate
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-! ## The one store covers the output block -/

/-- Every index of the 1024 × 8 output block lies in the rectangle of the body's one store: the rectangle starts at
    (0, 0) and has the block's own extents, so the one piece tiles the block. -/
theorem cover_out (p : Vec F S1024x8 .f32) (y : S1024x8.Idx) :
    ∃ pc ∈ ([⟨outWhole, p⟩] : List (View.Piece (Elt F) S1024x8 .f32)), y ∈ pc.1.set :=
  View.cover_of_tiled [⟨outWhole, p⟩] S1024x8.size (by rfl) y

/-! ## The body's triple -/

set_option maxHeartbeats 1000000 in
/-- The body at grid point `i`, on whole staging memrefs: given the six input buffers at contents reading `x`, `hc`,
    `wxt`, `wht`, `b`, `th` and the output buffer at any contents `d`, it runs to any continuation `K` that accepts
    the six input buffers unchanged and the output buffer reading `outBlock x hc wxt wht b th`. -/
theorem sound_kernel (c : Dev nD) (E : Set ℕ) (i : grid0.Coords)
    (arg1 : Memref sig .tc .vmem S1024x4096 .f32) (harg1 : arg1.IsWhole) (arg2 : Memref sig .tc .vmem S1024x8 .f32) (harg2 : arg2.IsWhole)
    (arg3 : Memref sig .tc .vmem S4096x16 .bf16) (harg3 : arg3.IsWhole) (arg4 : Memref sig .tc .vmem S4x16 .bf16) (harg4 : arg4.IsWhole)
    (arg5 : Memref sig .tc .vmem S1x16 .f32) (harg5 : arg5.IsWhole) (arg6 : Memref sig .tc .vmem S1x16 .f32) (harg6 : arg6.IsWhole)
    (arg7 : Memref sig .tc .vmem S1024x8 .f32) (harg7 : arg7.IsWhole)
    (x : Vec F S1024x4096 .f32) (hc : Vec F S1024x8 .f32) (wxt : Vec F S4096x16 .bf16) (wht : Vec F S4x16 .bf16) (b th : Vec F S1x16 .f32)
    (K : PUnit → sProp (MT nD τ sig Unit (Elt F) ℕ (UR sig nD τ) ℕ)) :
    iprop(owns (c : Thread nD τ) arg1 fullShare x ∗ owns (c : Thread nD τ) arg2 fullShare hc ∗ owns (c : Thread nD τ) arg3 fullShare wxt ∗ owns (c : Thread nD τ) arg4 fullShare wht ∗ owns (c : Thread nD τ) arg5 fullShare b ∗ owns (c : Thread nD τ) arg6 fullShare th ∗ (∃ d, owns (c : Thread nD τ) arg7 fullShare d)
        ∗ (iprop(owns (c : Thread nD τ) arg1 fullShare x ∗ owns (c : Thread nD τ) arg2 fullShare hc ∗ owns (c : Thread nD τ) arg3 fullShare wxt ∗ owns (c : Thread nD τ) arg4 fullShare wht ∗ owns (c : Thread nD τ) arg5 fullShare b ∗ owns (c : Thread nD τ) arg6 fullShare th ∗ owns (c : Thread nD τ) arg7 fullShare (outBlock x hc wxt wht b th)) -∗ K ⟨⟩))
      ⊢ wp frame (wpE (defs₀ (F := F)) Variants.none c none) E (cc0__qlstm_kernel i arg1 harg1 arg2 harg2 arg3 harg3 arg4 harg4 arg5 harg5 arg6 harg6 arg7 harg7) K := by
  -- The body and its two parts are their skeletons: the memory operations in program order, every pure value
  -- between them a payload `k0_payN` of the values loaded before it.
  simp only [cc0__qlstm_kernel_eq_skeleton]; unfold cc0__qlstm_kernel_skel
  simp only [k0_part1_eq_skeleton]; unfold k0_part1_skel
  simp only [k0_part2_eq_skeleton]; unfold k0_part2_skel
  -- Owning a memref that reads `X` is owning its elements at some raw contents `f` of its buffer with
  -- `read f = X`. Name the raw contents `f1 … f6` of the inputs and replace `x … th` by what they read; of the output
  -- buffer keep only its raw contents `f7`: what they read (`d7`) is never used.
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  -- Run the twelve loads and the store. A load through rectangle `r` of a buffer at `f` binds `readAt r f` and
  -- leaves the buffer at `f` — the load of the output buffer binds `readAt outWhole f7`, which no later operation
  -- mentions —; the store leaves the output buffer at `writes f7 [⟨outWhole, k0_pay1 …⟩]`, the payload over the
  -- parts' returned values, themselves payloads over the eleven input loads.
  sl_exec
  -- The body returns; hand the seven buffers to the continuation.
  sl_step
  iapply Hk
  -- Each input buffer is at the raw contents it started with, so it reads what it read.
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- The output buffer is at `writes f7 [⟨outWhole, v⟩]` for the stored value `v`; it remains to read it back.
  iexists _; isplitr
  swap; · iexact H7
  ipureintro
  -- Select the components of the parts' returned tuples: `v` becomes `k0_pay1` over the payloads of the loads.
  dsimp only
  -- The one piece covers the block (`cover_out`), so whatever `f7` was, the block now reads the canonical contents of
  -- the piece list, `View.canon [⟨outWhole, v⟩]`. And `v` is `stored` of what the inputs read: `readAt r f` is
  -- `View.ld (read f) r` by definition, and `stored` composes the same payloads over the same eleven rectangles. That is
  -- `outBlock`.
  exact View.read_writes_eq_canon _ _ _ (cover_out _)

end Cert.KernelIdeal.Body

end
-- ==== Proof.KernelIdealFrame.lean ====
/- The frame of the whole program: from any launch memory with zero counters the entry function runs to the end on
   every core, faults nowhere, and leaves its fifteen argument arrays as launched.

   The region is a pipeline of the plain class: at each of the 32 grid points the body reads six staged input
   blocks, writes the one staged output block whole, and touches nothing else. For such a pipeline the launch
   theorem asks for proof data — per core, what each staged array holds at entry and what each window's staging
   buffer holds after the body at each point — and for the body's triple at a generic point. The data here
   (`dats`): the arrays at their entry contents; after the body at point `t` each input window's buffer still at its
   block there (the body only reads it), and the output window's buffer at the body's stored block computed from the
   six input blocks at `t`. The body's triple at point `t` (`sound_body`) is the kernel's own triple read at the
   current staging buffers, once each input buffer is known to hold its block there, fetched at `t` or not. The
   launch theorem then gives the run (`run_main`) with every staged array and every bypassing buffer determined at
   the end, and reading that post at the fifteen arguments gives the frame (`frame`). -/
import proofs.«138498_j65481071399076_2_alg».proof.Proof.KernelIdealAround
import proofs.«138498_j65481071399076_2_alg».proof.Proof.KernelIdealBody

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the pipeline on core `c`. The staged arrays hold their entry contents. After the body at point `t`
    an input window's buffer holds the window's block at `t`, and the output window's buffer holds the stored block of
    the six input blocks at `t`. The invariant is the class's (the scoped rest and the generator register, untouched);
    every share is full; nothing is owed. -/
def dats (_ : Fin 1) (c : Dev nD) : Dat τ (Elt F) Unit ℕ (UR sig nD τ) ℕ cfg0 c where
  A w := Around.V m c (Pipeline.arrRef spec0 w)
  after w t := match w with
    | ⟨0, _⟩ => Around.iblk m c 0 t
    | ⟨1, _⟩ => Around.iblk m c 1 t
    | ⟨2, _⟩ => Around.iblk m c 2 t
    | ⟨3, _⟩ => Around.iblk m c 3 t
    | ⟨4, _⟩ => Around.iblk m c 4 t
    | ⟨5, _⟩ => Around.iblk m c 5 t
    | ⟨6, _⟩ => Body.outBlock (Around.iblk m c 0 t) (Around.iblk m c 1 t) (Around.iblk m c 2 t) (Around.iblk m c 3 t)
        (Around.iblk m c 4 t) (Around.iblk m c 5 t)
  Φ _ := Pipeline.ΦA spec0 c
  q _ := fullShare
  owed _ := 0

/-- The data's arrays are the entry contents (the definition projected; the entry contents, a fold over the twelve
    operations, stay folded). -/
theorem A_eq (c : Dev nD) (w : Fin cfg0.W) : (dats m 0 c).A w = Around.V m c (Pipeline.arrRef spec0 w) := by
  dsimp only [dats]

/-! What the body leaves, window by window (the definition's case split reduced). -/

theorem after_0 (c : Dev nD) (t : Fin cfg0.N) : (dats m 0 c).after 0 t = Around.iblk m c 0 t := by dsimp only [dats]
theorem after_1 (c : Dev nD) (t : Fin cfg0.N) : (dats m 0 c).after 1 t = Around.iblk m c 1 t := by dsimp only [dats]
theorem after_2 (c : Dev nD) (t : Fin cfg0.N) : (dats m 0 c).after 2 t = Around.iblk m c 2 t := by dsimp only [dats]
theorem after_3 (c : Dev nD) (t : Fin cfg0.N) : (dats m 0 c).after 3 t = Around.iblk m c 3 t := by dsimp only [dats]
theorem after_4 (c : Dev nD) (t : Fin cfg0.N) : (dats m 0 c).after 4 t = Around.iblk m c 4 t := by dsimp only [dats]
theorem after_5 (c : Dev nD) (t : Fin cfg0.N) : (dats m 0 c).after 5 t = Around.iblk m c 5 t := by dsimp only [dats]
theorem after_6 (c : Dev nD) (t : Fin cfg0.N) : (dats m 0 c).after 6 t =
    Body.outBlock (Around.iblk m c 0 t) (Around.iblk m c 1 t) (Around.iblk m c 2 t) (Around.iblk m c 3 t)
      (Around.iblk m c 4 t) (Around.iblk m c 5 t) := by dsimp only [dats]

/-! Each input window's current staging buffer holds its block whenever the body is called, fetched at that point or
not: the data's arrays are the entry contents and its body leaves every input block in place. -/

theorem before_0 (c : Dev nD) (t : Fin cfg0.N) (d) : (dats m 0 c).before 0 t d = Around.iblk m c 0 t :=
  Around.before_0_of m (dats m 0 c) (A_eq m c 0) (after_0 m c) t d
theorem before_1 (c : Dev nD) (t : Fin cfg0.N) (d) : (dats m 0 c).before 1 t d = Around.iblk m c 1 t :=
  Around.before_1_of m (dats m 0 c) (A_eq m c 1) (after_1 m c) t d
theorem before_2 (c : Dev nD) (t : Fin cfg0.N) (d) : (dats m 0 c).before 2 t d = Around.iblk m c 2 t :=
  Around.before_2_of m (dats m 0 c) (A_eq m c 2) (after_2 m c) t d
theorem before_3 (c : Dev nD) (t : Fin cfg0.N) (d) : (dats m 0 c).before 3 t d = Around.iblk m c 3 t :=
  Around.before_3_of m (dats m 0 c) (A_eq m c 3) (after_3 m c) t d
theorem before_4 (c : Dev nD) (t : Fin cfg0.N) (d) : (dats m 0 c).before 4 t d = Around.iblk m c 4 t :=
  Around.before_4_of m (dats m 0 c) (A_eq m c 4) (after_4 m c) t d
theorem before_5 (c : Dev nD) (t : Fin cfg0.N) (d) : (dats m 0 c).before 5 t d = Around.iblk m c 5 t :=
  Around.before_5_of m (dats m 0 c) (A_eq m c 5) (after_5 m c) t d

/-! ## The body obligation at a generic point -/

/-- What the body is called with at point `t`: the invariant, what the core owes, and each window's current staging
    buffer whole at what it holds then. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns: the same, each buffer at what the data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point. The six input buffers hold their blocks (`before_0` … `before_5`) and the output buffer holds
    something, which is the kernel's precondition at those blocks; the kernel returns the inputs as they were and the
    output at the stored block, which is what the data say. The invariant and what is owed pass through unread: the
    class's invariant does not depend on the point, and nothing is ever owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel c Set.univ (grid0.coords t) _ _ _ _ _ _ _ _ _ _ _ _ _ _
    (Around.iblk m c 0 t) (Around.iblk m c 1 t) (Around.iblk m c 2 t) (Around.iblk m c 3 t)
    (Around.iblk m c 4 t) (Around.iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point: its conjunction over the seven windows written out. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which unfolds plain
-- definitions in the type of a not yet assigned argument
set_option backward.isDefEq.respectTransparency.types false in
/-- From any launch memory with zero counters every weakly fair execution of the entry function terminates without a
    fault, and in every final state each staged array holds what the data compute (an input its entry contents, the
    output its entry contents overwritten block by block by what the body stored) and every other unscoped buffer what
    the two trailing slices leave of the region's exit contents. -/
theorem run_main : θ_run defs (onTc (τ := τ) (main (F := F))) (s₀ m ρ)
    (Pipeline.FramePost cfgs (dats m) 0 (Pipeline.afterTail₀ cfgs (dats m) 0 (Around.V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := Around.V0 m) (opss := [hostOps1]) (hsub := Around.sfx_sub) (hfresh := Around.sfx_fresh)
    (hkeep := Around.sfx_keeps) (hmain := Around.hmain m Variants.none) (hA := A_eq m) (hΦ := fun _ _ => rfl)

/-- The frame: the entry function runs to the end without a fault and leaves its fifteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Around.frame_of m ρ (dats m) (A_eq m) (run_main m ρ)

end Cert.KernelIdeal.Frame

end
-- ==== Proof.KernelHostValue.lean ====
/-
  What the region's operands hold, entry by entry, in terms of the fifteen argument arrays.

  Before the region the entry function stacks the four gates' weight matrices (4 × 4100 each) into one 16 × 4100 matrix,
  row 4·g + q being wire q of gate g; cuts it into its first 4096 columns and its last 4; transposes the two pieces (and
  rounds them to bf16, which on the extended reals is the identity); stacks the four bias vectors and the four angle
  vectors into two vectors of length 16 and recasts each as a 1 × 16 row; and joins the hidden and the cell state side by
  side into one 32768 × 8 array. So, with `col g q = 4·g + q`:

    * the transposed x-weights at (k, col g q) are gate g's weight matrix at (q, k), for k < 4096;
    * the transposed h-weights at (k, col g q) are gate g's weight matrix at (q, 4096 + k), for k < 4;
    * the bias row and the angle row at (0, col g q) are gate g's bias and angle at q;
    * the packed state at (r, k) is the hidden state at (r, k) for k < 4 and the cell state at (r, k − 4) for 4 ≤ k < 8.
-/
import proofs.«138498_j65481071399076_2_alg».proof.Proof.KernelIdealAround
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen
open Idealize.ShloMosaic Idealize.ShloMosaic.TcCoe Idealize.ShloMosaic.ValueIdx Idealize.ShloMosaic.StableHlo Idealize.SL.Sem

/-- Row (or entry) 4·g + q of a stack of four pieces of four. -/
abbrev col16 (g q : Fin 4) : Fin 16 := ⟨4 * g.val + q.val, by have := g.isLt; have := q.isLt; omega⟩

/-! ## Stacks and joins read at an entry -/

section Pure
variable {α : Type}

/-- Four 4 × 4100 matrices stacked along the rows: row 4·g + q of the stack is row q of matrix g. -/
theorem stackRows_at (W : Fin 4 → (S4x4100.Idx → α)) (g q : Fin 4) (k : Fin 4100) :
    concatenate S16x4100 0 [⟨S4x4100, W 0⟩, ⟨S4x4100, W 1⟩, ⟨S4x4100, W 2⟩, ⟨S4x4100, W 3⟩]
        concatenates_S4x4100_S4x4100_S4x4100_S4x4100_S16x4100_d0 (ix2 (col16 g q) k)
      = W g (ix2 q k) := by
  have hi : ∀ b : Fin S4x4100.rank, b.cast (rfl : S4x4100.rank = S16x4100.rank) ≠ (0 : Fin S16x4100.rank) →
      ((ix2 q k : S4x4100.Idx) b).val = ((ix2 (col16 g q) k : S16x4100.Idx) (b.cast rfl)).val := fun b hb => by
    match b with
    | ⟨0, _⟩ => exact absurd rfl hb
    | ⟨1, _⟩ => rfl
  match g with
  | ⟨0, _⟩ => exact concatenate_apply_piece (t := S16x4100) 0 [⟨S4x4100, W 0⟩, ⟨S4x4100, W 1⟩, ⟨S4x4100, W 2⟩, ⟨S4x4100, W 3⟩] concatenates_S4x4100_S4x4100_S4x4100_S4x4100_S16x4100_d0 (ix2 (col16 ⟨0, by omega⟩ q) k) 0 (by show 0 < 4; omega) S4x4100 (W 0) rfl rfl 0 rfl (ix2 q k) hi (by show 0 + q.val = 4 * 0 + q.val; omega)
  | ⟨1, _⟩ => exact concatenate_apply_piece (t := S16x4100) 0 [⟨S4x4100, W 0⟩, ⟨S4x4100, W 1⟩, ⟨S4x4100, W 2⟩, ⟨S4x4100, W 3⟩] concatenates_S4x4100_S4x4100_S4x4100_S4x4100_S16x4100_d0 (ix2 (col16 ⟨1, by omega⟩ q) k) 1 (by show 1 < 4; omega) S4x4100 (W 1) rfl rfl 4 rfl (ix2 q k) hi (by show 4 + q.val = 4 * 1 + q.val; omega)
  | ⟨2, _⟩ => exact concatenate_apply_piece (t := S16x4100) 0 [⟨S4x4100, W 0⟩, ⟨S4x4100, W 1⟩, ⟨S4x4100, W 2⟩, ⟨S4x4100, W 3⟩] concatenates_S4x4100_S4x4100_S4x4100_S4x4100_S16x4100_d0 (ix2 (col16 ⟨2, by omega⟩ q) k) 2 (by show 2 < 4; omega) S4x4100 (W 2) rfl rfl 8 rfl (ix2 q k) hi (by show 8 + q.val = 4 * 2 + q.val; omega)
  | ⟨3, _⟩ => exact concatenate_apply_piece (t := S16x4100) 0 [⟨S4x4100, W 0⟩, ⟨S4x4100, W 1⟩, ⟨S4x4100, W 2⟩, ⟨S4x4100, W 3⟩] concatenates_S4x4100_S4x4100_S4x4100_S4x4100_S16x4100_d0 (ix2 (col16 ⟨3, by omega⟩ q) k) 3 (by show 3 < 4; omega) S4x4100 (W 3) rfl rfl 12 rfl (ix2 q k) hi (by show 12 + q.val = 4 * 3 + q.val; omega)

/-- Four vectors of length 4 stacked: entry 4·g + q of the stack is entry q of vector g. -/
theorem stackVec_at (B : Fin 4 → (S4.Idx → α)) (g q : Fin 4) :
    concatenate S16 0 [⟨S4, B 0⟩, ⟨S4, B 1⟩, ⟨S4, B 2⟩, ⟨S4, B 3⟩] concatenates_S4_S4_S4_S4_S16_d0 (ix1 (col16 g q))
      = B g (ix1 q) := by
  have hi : ∀ b : Fin S4.rank, b.cast (rfl : S4.rank = S16.rank) ≠ (0 : Fin S16.rank) →
      ((ix1 q : S4.Idx) b).val = ((ix1 (col16 g q) : S16.Idx) (b.cast rfl)).val := fun b hb => by
    match b with
    | ⟨0, _⟩ => exact absurd rfl hb
  match g with
  | ⟨0, _⟩ => exact concatenate_apply_piece (t := S16) 0 [⟨S4, B 0⟩, ⟨S4, B 1⟩, ⟨S4, B 2⟩, ⟨S4, B 3⟩] concatenates_S4_S4_S4_S4_S16_d0 (ix1 (col16 ⟨0, by omega⟩ q)) 0 (by show 0 < 4; omega) S4 (B 0) rfl rfl 0 rfl (ix1 q) hi (by show 0 + q.val = 4 * 0 + q.val; omega)
  | ⟨1, _⟩ => exact concatenate_apply_piece (t := S16) 0 [⟨S4, B 0⟩, ⟨S4, B 1⟩, ⟨S4, B 2⟩, ⟨S4, B 3⟩] concatenates_S4_S4_S4_S4_S16_d0 (ix1 (col16 ⟨1, by omega⟩ q)) 1 (by show 1 < 4; omega) S4 (B 1) rfl rfl 4 rfl (ix1 q) hi (by show 4 + q.val = 4 * 1 + q.val; omega)
  | ⟨2, _⟩ => exact concatenate_apply_piece (t := S16) 0 [⟨S4, B 0⟩, ⟨S4, B 1⟩, ⟨S4, B 2⟩, ⟨S4, B 3⟩] concatenates_S4_S4_S4_S4_S16_d0 (ix1 (col16 ⟨2, by omega⟩ q)) 2 (by show 2 < 4; omega) S4 (B 2) rfl rfl 8 rfl (ix1 q) hi (by show 8 + q.val = 4 * 2 + q.val; omega)
  | ⟨3, _⟩ => exact concatenate_apply_piece (t := S16) 0 [⟨S4, B 0⟩, ⟨S4, B 1⟩, ⟨S4, B 2⟩, ⟨S4, B 3⟩] concatenates_S4_S4_S4_S4_S16_d0 (ix1 (col16 ⟨3, by omega⟩ q)) 3 (by show 3 < 4; omega) S4 (B 3) rfl rfl 12 rfl (ix1 q) hi (by show 12 + q.val = 4 * 3 + q.val; omega)

/-- The hidden and the cell state side by side: columns 0–3 are the hidden state, -/
theorem packed_left (h c : S32768x4.Idx → α) (r : Fin 32768) (k : Fin 4) :
    concatenate S32768x8 1 [⟨S32768x4, h⟩, ⟨S32768x4, c⟩] concatenates_S32768x4_S32768x4_S32768x8_d1
        (ix2 r (⟨k.val, by have := k.isLt; omega⟩ : Fin 8)) = h (ix2 r k) :=
  concatenate_pair_apply_left (t := S32768x8) 1 h c concatenates_S32768x4_S32768x4_S32768x8_d1
    (ix2 r (⟨k.val, by have := k.isLt; omega⟩ : Fin 8)) rfl (ix2 r k) fun b => by
    match b with
    | ⟨0, _⟩ => rfl
    | ⟨1, _⟩ => rfl

/-- and columns 4–7 the cell state. -/
theorem packed_right (h c : S32768x4.Idx → α) (r : Fin 32768) (k : Fin 4) :
    concatenate S32768x8 1 [⟨S32768x4, h⟩, ⟨S32768x4, c⟩] concatenates_S32768x4_S32768x4_S32768x8_d1
        (ix2 r (⟨4 + k.val, by have := k.isLt; omega⟩ : Fin 8)) = c (ix2 r k) :=
  concatenate_pair_apply_right (t := S32768x8) 1 h c concatenates_S32768x4_S32768x4_S32768x8_d1
    (ix2 r (⟨4 + k.val, by have := k.isLt; omega⟩ : Fin 8)) rfl rfl (ix2 r k) (fun b hb => by
    match b with
    | ⟨0, _⟩ => rfl
    | ⟨1, _⟩ => exact absurd rfl hb) (by show k.val + 4 = 4 + k.val; omega)

end Pure

/-! ## The operands as the region finds them -/

variable (m : (ℓ : Loc nD τ sig) → Buf (Elt Ideal) ℓ)

/-- Gate `g`'s weight matrix as launched on core `c` (gates in the order forget, input, candidate, output). -/
def weightOf (c : Dev nD) (g : Fin 4) : S4x4100.Idx → EReal :=
  match g with
  | ⟨0, _⟩ => m ((c : Thread nD τ).loc main_arg3)
  | ⟨1, _⟩ => m ((c : Thread nD τ).loc main_arg6)
  | ⟨2, _⟩ => m ((c : Thread nD τ).loc main_arg9)
  | ⟨3, _⟩ => m ((c : Thread nD τ).loc main_arg12)

/-- Gate `g`'s bias vector as launched. -/
def biasOf (c : Dev nD) (g : Fin 4) : S4.Idx → EReal :=
  match g with
  | ⟨0, _⟩ => m ((c : Thread nD τ).loc main_arg4)
  | ⟨1, _⟩ => m ((c : Thread nD τ).loc main_arg7)
  | ⟨2, _⟩ => m ((c : Thread nD τ).loc main_arg10)
  | ⟨3, _⟩ => m ((c : Thread nD τ).loc main_arg13)

/-- Gate `g`'s angle vector as launched. -/
def angleOf (c : Dev nD) (g : Fin 4) : S4.Idx → EReal :=
  match g with
  | ⟨0, _⟩ => m ((c : Thread nD τ).loc main_arg5)
  | ⟨1, _⟩ => m ((c : Thread nD τ).loc main_arg8)
  | ⟨2, _⟩ => m ((c : Thread nD τ).loc main_arg11)
  | ⟨3, _⟩ => m ((c : Thread nD τ).loc main_arg14)

/-- The four weight matrices stacked along the rows: what the first operation writes. -/
def stackedWeights (c : Dev nD) : S16x4100.Idx → EReal :=
  concatenate S16x4100 0 [⟨S4x4100, weightOf m c 0⟩, ⟨S4x4100, weightOf m c 1⟩, ⟨S4x4100, weightOf m c 2⟩, ⟨S4x4100, weightOf m c 3⟩]
    concatenates_S4x4100_S4x4100_S4x4100_S4x4100_S16x4100_d0

/-- The transposed x-weights: the stack's first 4096 columns, transposed (the rounding to bf16 is the identity here). -/
theorem entry_wxt (c : Dev nD) : (Around.V m c main_v6 : S4096x16.Idx → EReal)
    = truncf (F := Ideal) .bf16 (transpose S4096x16 [1, 0] (extractStridedSlice S16x4096 ![0, 0] (stackedWeights m c) slices_S16x4100_S16x4096_0_0)
        transposes_S16x4096_S4096x16_1_0) bitsLt_bf16_f32 := by
  show StableHlo.after hostOps0 (fun b => m (c, b)) (Proc.devRef .tc main_v6) = _
  after_results
  rfl

/-- The transposed h-weights: the stack's last 4 columns, transposed. -/
theorem entry_wht (c : Dev nD) : (Around.V m c main_v8 : S4x16.Idx → EReal)
    = truncf (F := Ideal) .bf16 (transpose S4x16 [1, 0] (extractStridedSlice S16x4 ![0, 4096] (stackedWeights m c) slices_S16x4100_S16x4_0_4096)
        transposes_S16x4_S4x16_1_0) bitsLt_bf16_f32 := by
  show StableHlo.after hostOps0 (fun b => m (c, b)) (Proc.devRef .tc main_v8) = _
  after_results
  rfl

/-- The bias row: the four bias vectors stacked, recast as one row. -/
theorem entry_bias (c : Dev nD) : (Around.V m c main_v9 : S1x16.Idx → EReal)
    = shapeCast S1x16 (concatenate S16 0 [⟨S4, biasOf m c 0⟩, ⟨S4, biasOf m c 1⟩, ⟨S4, biasOf m c 2⟩, ⟨S4, biasOf m c 3⟩]
        concatenates_S4_S4_S4_S4_S16_d0) shapeCasts_S16_S1x16 := by
  show StableHlo.after hostOps0 (fun b => m (c, b)) (Proc.devRef .tc main_v9) = _
  after_results
  rfl

/-- The angle row, likewise. -/
theorem entry_angle (c : Dev nD) : (Around.V m c main_v10 : S1x16.Idx → EReal)
    = shapeCast S1x16 (concatenate S16 0 [⟨S4, angleOf m c 0⟩, ⟨S4, angleOf m c 1⟩, ⟨S4, angleOf m c 2⟩, ⟨S4, angleOf m c 3⟩]
        concatenates_S4_S4_S4_S4_S16_d0) shapeCasts_S16_S1x16 := by
  show StableHlo.after hostOps0 (fun b => m (c, b)) (Proc.devRef .tc main_v10) = _
  after_results
  rfl

/-- The packed state: the hidden and the cell state side by side. -/
theorem entry_packed (c : Dev nD) : (Around.V m c main_v11 : S32768x8.Idx → EReal)
    = concatenate S32768x8 1 [⟨S32768x4, m ((c : Thread nD τ).loc main_arg1)⟩, ⟨S32768x4, m ((c : Thread nD τ).loc main_arg2)⟩]
        concatenates_S32768x4_S32768x4_S32768x8_d1 := by
  show StableHlo.after hostOps0 (fun b => m (c, b)) (Proc.devRef .tc main_v11) = _
  after_results

/-! ## The operands read at an entry -/

/-- The transposed x-weights at (k, 4·g + q) are gate g's weights at (q, k). -/
theorem wxt_at (c : Dev nD) (g q : Fin 4) (k : Fin 4096) :
    (Around.V m c main_v6 : S4096x16.Idx → EReal) (ix2 k (col16 g q))
      = weightOf m c g (ix2 q (⟨k.val, by have := k.isLt; omega⟩ : Fin 4100)) := by
  rw [entry_wxt]
  show transpose S4096x16 [1, 0] (extractStridedSlice S16x4096 ![0, 0] (stackedWeights m c) slices_S16x4100_S16x4096_0_0)
      transposes_S16x4096_S4096x16_1_0 (ix2 k (col16 g q)) = _
  rw [transpose_apply [1, 0] _ transposes_S16x4096_S4096x16_1_0 (ix2 k (col16 g q)) (ix2 (col16 g q) k : S16x4096.Idx)
      (fun b => by match b with | ⟨0, _⟩ => rfl | ⟨1, _⟩ => rfl),
    extractStridedSlice_apply ![0, 0] _ slices_S16x4100_S16x4096_0_0 (ix2 (col16 g q) k : S16x4096.Idx)
      (ix2 (col16 g q) (⟨k.val, by have := k.isLt; omega⟩ : Fin 4100) : S16x4100.Idx)
      (fun a => by match a with | ⟨0, _⟩ => exact (Nat.zero_add _).symm | ⟨1, _⟩ => exact (Nat.zero_add _).symm)]
  exact stackRows_at (weightOf m c) g q _

/-- The transposed h-weights at (k, 4·g + q) are gate g's weights at (q, 4096 + k). -/
theorem wht_at (c : Dev nD) (g q : Fin 4) (k : Fin 4) :
    (Around.V m c main_v8 : S4x16.Idx → EReal) (ix2 k (col16 g q))
      = weightOf m c g (ix2 q (⟨4096 + k.val, by have := k.isLt; omega⟩ : Fin 4100)) := by
  rw [entry_wht]
  show transpose S4x16 [1, 0] (extractStridedSlice S16x4 ![0, 4096] (stackedWeights m c) slices_S16x4100_S16x4_0_4096)
      transposes_S16x4_S4x16_1_0 (ix2 k (col16 g q)) = _
  rw [transpose_apply [1, 0] _ transposes_S16x4_S4x16_1_0 (ix2 k (col16 g q)) (ix2 (col16 g q) k : S16x4.Idx)
      (fun b => by match b with | ⟨0, _⟩ => rfl | ⟨1, _⟩ => rfl),
    extractStridedSlice_apply ![0, 4096] _ slices_S16x4100_S16x4_0_4096 (ix2 (col16 g q) k : S16x4.Idx)
      (ix2 (col16 g q) (⟨4096 + k.val, by have := k.isLt; omega⟩ : Fin 4100) : S16x4100.Idx)
      (fun a => by match a with | ⟨0, _⟩ => exact (Nat.zero_add _).symm | ⟨1, _⟩ => rfl)]
  exact stackRows_at (weightOf m c) g q _

/-- Entry 4·g + q of a vector of length 16 recast as a 1 × 16 row sits at (0, 4·g + q). -/
theorem row_of_vec {α : Type} (v : S16.Idx → α) (j : Fin 16) :
    shapeCast S1x16 v shapeCasts_S16_S1x16 (ix2 (0 : Fin 1) j) = v (ix1 j) :=
  shapeCast_apply v shapeCasts_S16_S1x16 (ix2 (0 : Fin 1) j) (ix1 j) (by
    rw [Shape.rowMajor_val_one, Shape.rowMajor_val_two]
    show j.val = 0 * 16 + j.val
    omega)

/-- The bias row at (0, 4·g + q) is gate g's bias at q. -/
theorem bias_at (c : Dev nD) (g q : Fin 4) :
    (Around.V m c main_v9 : S1x16.Idx → EReal) (ix2 (0 : Fin 1) (col16 g q)) = biasOf m c g (ix1 q) := by
  rw [entry_bias, row_of_vec]
  exact stackVec_at (biasOf m c) g q

/-- The angle row at (0, 4·g + q) is gate g's angle at q. -/
theorem angle_at (c : Dev nD) (g q : Fin 4) :
    (Around.V m c main_v10 : S1x16.Idx → EReal) (ix2 (0 : Fin 1) (col16 g q)) = angleOf m c g (ix1 q) := by
  rw [entry_angle, row_of_vec]
  exact stackVec_at (angleOf m c) g q

/-- The packed state's columns 0–3 are the hidden state, -/
theorem packed_hidden_at (c : Dev nD) (r : Fin 32768) (k : Fin 4) :
    (Around.V m c main_v11 : S32768x8.Idx → EReal) (ix2 r (⟨k.val, by have := k.isLt; omega⟩ : Fin 8))
      = (m ((c : Thread nD τ).loc main_arg1) : S32768x4.Idx → EReal) (ix2 r k) := by
  rw [entry_packed]
  exact packed_left _ _ r k

/-- and its columns 4–7 the cell state. -/
theorem packed_cell_at (c : Dev nD) (r : Fin 32768) (k : Fin 4) :
    (Around.V m c main_v11 : S32768x8.Idx → EReal) (ix2 r (⟨4 + k.val, by have := k.isLt; omega⟩ : Fin 8))
      = (m ((c : Thread nD τ).loc main_arg2) : S32768x4.Idx → EReal) (ix2 r k) := by
  rw [entry_packed]
  exact packed_right _ _ r k

end Cert.KernelIdeal.HostValue

end
-- ==== Proof.KernelBlocks.lean ====
/-
  The blocks the body is handed at a grid point, entry by entry, in terms of the argument arrays.

  The grid has 32 points. At point `t` the feature window and the packed-state window hold rows 1024·t … 1024·t + 1023 of
  their arrays (all columns), the output window is written back to the same rows of the result, and the four small
  windows (the two transposed weight blocks, the bias row, the angle row) hold their whole arrays at every point. So
  entry (r, k) of a moving block is entry (1024·t + r, k) of its array, and an entry of a fixed block is the same entry
  of its array; what those arrays hold in terms of the arguments is read off the operations before the region.
-/
import proofs.«138498_j65481071399076_2_alg».proof.Proof.KernelIdealAround
import proofs.«138498_j65481071399076_2_alg».proof.Proof.KernelHostValue

noncomputable section

namespace Cert.KernelIdeal.Blocks

open Cert.KernelIdeal Cert.KernelIdeal.Gen
open Idealize.ShloMosaic Idealize.ShloMosaic.TcCoe Idealize.ShloMosaic.ValueIdx Idealize.SL.Sem
open Cert.KernelIdeal.HostValue (col16 weightOf biasOf angleOf)

variable (m : (ℓ : Loc nD τ sig) → Buf (Elt Ideal) ℓ)

/-- The printed index maps over the grid: the three moving windows are at block (t, 0), the four fixed ones at (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of the block at point `t` is row 1024·t + r of the array. -/
def rowAt (t : Fin cfg0.N) (r : Fin 1024) : Fin 32768 :=
  ⟨1024 * t.val + r.val, by have h : t.val < 32 := Nat.lt_of_lt_of_eq t.isLt N_0
                            have := r.isLt; omega⟩

/-- The feature block at point `t`: entry (r, k) is the features' entry (1024·t + r, k). -/
theorem features_at (c : Dev nD) (t : Fin cfg0.N) (r : Fin 1024) (k : Fin 4096) :
    (Around.iblk m c 0 t : S1024x4096.Idx → EReal) (ix2 r k)
      = (m ((c : Thread nD τ).loc main_arg0) : S32768x4096.Idx → EReal) (ix2 (rowAt t r) k) := by
  obtain ⟨e0, e1, -⟩ := index_facts t
  unfold Around.iblk
  show Around.V m c main_arg0 (((cfg0.win 0).blk t).view.emb (ix2 r k)) = _
  rw [Around.V_main_arg0]
  refine congrArg _ (funext fun a => Fin.ext ?_)
  match a with
  | ⟨0, _⟩ => show win0_0.index t (0 : Fin 2) * 1024 + 1 * r.val = 1024 * t.val + r.val; omega
  | ⟨1, _⟩ => show win0_0.index t (1 : Fin 2) * 4096 + 1 * k.val = k.val; omega

/-- The packed-state block at point `t`: entry (r, j) is the packed state's entry (1024·t + r, j). -/
theorem packed_at (c : Dev nD) (t : Fin cfg0.N) (r : Fin 1024) (j : Fin 8) :
    (Around.iblk m c 1 t : S1024x8.Idx → EReal) (ix2 r j)
      = (Around.V m c main_v11 : S32768x8.Idx → EReal) (ix2 (rowAt t r) j) := by
  obtain ⟨-, -, e0, e1, -⟩ := index_facts t
  unfold Around.iblk
  show Around.V m c main_v11 (((cfg0.win 1).blk t).view.emb (ix2 r j)) = _
  refine congrArg _ (funext fun a => Fin.ext ?_)
  match a with
  | ⟨0, _⟩ => show win0_1.index t (0 : Fin 2) * 1024 + 1 * r.val = 1024 * t.val + r.val; omega
  | ⟨1, _⟩ => show win0_1.index t (1 : Fin 2) * 8 + 1 * j.val = j.val; omega

/-- The transposed x-weights' block is the whole array at every point. -/
theorem wxt_block_at (c : Dev nD) (t : Fin cfg0.N) (k : Fin 4096) (j : Fin 16) :
    (Around.iblk m c 2 t : S4096x16.Idx → EReal) (ix2 k j) = (Around.V m c main_v6 : S4096x16.Idx → EReal) (ix2 k j) := by
  obtain ⟨-, -, -, -, e0, e1, -⟩ := index_facts t
  unfold Around.iblk
  show Around.V m c main_v6 (((cfg0.win 2).blk t).view.emb (ix2 k j)) = _
  refine congrArg _ (funext fun a => Fin.ext ?_)
  match a with
  | ⟨0, _⟩ => show win0_2.index t (0 : Fin 2) * 4096 + 1 * k.val = k.val; omega
  | ⟨1, _⟩ => show win0_2.index t (1 : Fin 2) * 16 + 1 * j.val = j.val; omega

/-- So is the transposed h-weights' block, -/
theorem wht_block_at (c : Dev nD) (t : Fin cfg0.N) (k : Fin 4) (j : Fin 16) :
    (Around.iblk m c 3 t : S4x16.Idx → EReal) (ix2 k j) = (Around.V m c main_v8 : S4x16.Idx → EReal) (ix2 k j) := by
  obtain ⟨-, -, -, -, -, -, e0, e1, -⟩ := index_facts t
  unfold Around.iblk
  show Around.V m c main_v8 (((cfg0.win 3).blk t).view.emb (ix2 k j)) = _
  refine congrArg _ (funext fun a => Fin.ext ?_)
  match a with
  | ⟨0, _⟩ => show win0_3.index t (0 : Fin 2) * 4 + 1 * k.val = k.val; omega
  | ⟨1, _⟩ => show win0_3.index t (1 : Fin 2) * 16 + 1 * j.val = j.val; omega

/-- the bias row's, -/
theorem bias_block_at (c : Dev nD) (t : Fin cfg0.N) (j : Fin 16) :
    (Around.iblk m c 4 t : S1x16.Idx → EReal) (ix2 (0 : Fin 1) j) = (Around.V m c main_v9 : S1x16.Idx → EReal) (ix2 (0 : Fin 1) j) := by
  obtain ⟨-, -, -, -, -, -, -, -, e0, e1, -⟩ := index_facts t
  unfold Around.iblk
  show Around.V m c main_v9 (((cfg0.win 4).blk t).view.emb (ix2 (0 : Fin 1) j)) = _
  refine congrArg _ (funext fun a => Fin.ext ?_)
  match a with
  | ⟨0, _⟩ => show win0_4.index t (0 : Fin 2) * 1 + 1 * 0 = 0; omega
  | ⟨1, _⟩ => show win0_4.index t (1 : Fin 2) * 16 + 1 * j.val = j.val; omega

/-- and the angle row's. -/
theorem angle_block_at (c : Dev nD) (t : Fin cfg0.N) (j : Fin 16) :
    (Around.iblk m c 5 t : S1x16.Idx → EReal) (ix2 (0 : Fin 1) j) = (Around.V m c main_v10 : S1x16.Idx → EReal) (ix2 (0 : Fin 1) j) := by
  obtain ⟨-, -, -, -, -, -, -, -, -, -, e0, e1, -⟩ := index_facts t
  unfold Around.iblk
  show Around.V m c main_v10 (((cfg0.win 5).blk t).view.emb (ix2 (0 : Fin 1) j)) = _
  refine congrArg _ (funext fun a => Fin.ext ?_)
  match a with
  | ⟨0, _⟩ => show win0_5.index t (0 : Fin 2) * 1 + 1 * 0 = 0; omega
  | ⟨1, _⟩ => show win0_5.index t (1 : Fin 2) * 16 + 1 * j.val = j.val; omega

end Cert.KernelIdeal.Blocks

end
-- ==== Proof.Spec.lean ====
/-
  The cell, one row at a time.

  One row of the batch has a feature row `xr` (4096 numbers), a hidden state `hr` and a cell state `cr` (4 numbers each).
  Each of the four gates (forget, input, candidate, output) has four "wires"; wire `q` of a gate has a weight row `w` of
  length 4100, a bias `b` and an angle `th`, and carries the number

      cos ( ⟨[xr, hr], w⟩ + b + th ).

  A ring of controlled-NOTs turns the four wires' numbers `c 0 … c 3` into the four products
      c 1 · c 2 · c 3,   c 0 · c 1,   c 0 · c 1 · c 2,   c 0 · c 1 · c 2 · c 3,
  and the gate's value on wire `q` is the `q`-th of these. Then, wire by wire,

      c' = σ(forget) · c + σ(input) · tanh(candidate),        h' = σ(output) · tanh(c'),

  with σ the logistic function. Everything is read on the extended reals, where the arithmetic is exact; sums and products
  associate as written (left to right), which is how both programs compute them.

  The kernel does not take the inner product in one go: it adds, starting from zero, four partial products over bands of
  1024 features, then the product with the hidden state. `angleBands` is the angle computed that way, and
  `angleBands_eq` says it is the same number: a finite sum may be cut into consecutive bands in any additive commutative
  monoid, so nothing about finiteness of the entries is needed.
-/
import Idealize.ShloMosaic.PureOps.Ideal
import Idealize.ShloMosaic.Lib.ValueIdx

noncomputable section

open scoped BigOperators

namespace Cert.QLstm

open Idealize.ShloMosaic

/-! ## One wire's angle -/

/-- Entry `k` of the row `[xr, hr]` of length 4100: the features first, then the hidden state. -/
def joined (xr : Fin 4096 → EReal) (hr : Fin 4 → EReal) (k : Fin 4100) : EReal :=
  if hk : k.val < 4096 then xr ⟨k.val, hk⟩ else hr ⟨k.val - 4096, by omega⟩

/-- The angle of a wire: the inner product of `[xr, hr]` with the wire's weight row, plus its bias, plus its angle. -/
def angle (xr : Fin 4096 → EReal) (hr : Fin 4 → EReal) (w : Fin 4100 → EReal) (b th : EReal) : EReal :=
  ((∑ k : Fin 4100, joined xr hr k * w k) + b) + th

/-- Feature `1024·j + k` as an index below 4096 (`j` one of the four bands). -/
def bandIx (j : Fin 4) (k : Fin 1024) : Fin 4096 := ⟨1024 * j.val + k.val, by omega⟩
/-- The same position in the joined row of length 4100. -/
def bandIx' (j : Fin 4) (k : Fin 1024) : Fin 4100 := ⟨1024 * j.val + k.val, by omega⟩
/-- Hidden-state entry `k` as a position in the joined row. -/
def tailIx (k : Fin 4) : Fin 4100 := ⟨4096 + k.val, by omega⟩

/-- The partial inner product over band `j` of the features. -/
def bandDot (xr : Fin 4096 → EReal) (w : Fin 4100 → EReal) (j : Fin 4) : EReal :=
  ∑ k : Fin 1024, xr (bandIx j k) * w (bandIx' j k)

/-- The angle as the kernel adds it up: from zero, the four band products in order, then the product with the hidden
    state, then the bias, then the angle. -/
def angleBands (xr : Fin 4096 → EReal) (hr : Fin 4 → EReal) (w : Fin 4100 → EReal) (b th : EReal) : EReal :=
  ((((((0 + bandDot xr w 0) + bandDot xr w 1) + bandDot xr w 2) + bandDot xr w 3)
      + ∑ k : Fin 4, hr k * w (tailIx k)) + b) + th

/-! ## A gate -/

/-- The four wires' numbers after the ring of controlled-NOTs. -/
def ring (c : Fin 4 → EReal) (q : Fin 4) : EReal :=
  match q with
  | ⟨0, _⟩ => c 1 * c 2 * c 3
  | ⟨1, _⟩ => c 0 * c 1
  | ⟨2, _⟩ => c 0 * c 1 * c 2
  | ⟨3, _⟩ => c 0 * c 1 * c 2 * c 3

/-- A gate's value on wire `q`: the ring applied to the cosines of the four wires' angles. `W q'`, `B q'`, `T q'` are
    wire `q'`'s weight row, bias and angle. -/
def gate (xr : Fin 4096 → EReal) (hr : Fin 4 → EReal) (W : Fin 4 → Fin 4100 → EReal) (B T : Fin 4 → EReal) (q : Fin 4) : EReal :=
  ring (fun q' => Ideal.cos (angle xr hr (W q') (B q') (T q'))) q

/-- The same with every angle added up band by band. -/
def gateBands (xr : Fin 4096 → EReal) (hr : Fin 4 → EReal) (W : Fin 4 → Fin 4100 → EReal) (B T : Fin 4 → EReal) (q : Fin 4) : EReal :=
  ring (fun q' => Ideal.cos (angleBands xr hr (W q') (B q') (T q'))) q

/-! ## The new state -/

/-- The new cell state on wire `q`: forget-gate times the old cell state plus input-gate times the candidate. -/
def cellNew (xr : Fin 4096 → EReal) (hr cr : Fin 4 → EReal)
    (Wf : Fin 4 → Fin 4100 → EReal) (Bf Tf : Fin 4 → EReal) (Wi : Fin 4 → Fin 4100 → EReal) (Bi Ti : Fin 4 → EReal)
    (Wg : Fin 4 → Fin 4100 → EReal) (Bg Tg : Fin 4 → EReal) (q : Fin 4) : EReal :=
  Ideal.logistic (gate xr hr Wf Bf Tf q) * cr q + Ideal.logistic (gate xr hr Wi Bi Ti q) * Ideal.tanh (gate xr hr Wg Bg Tg q)

/-- The new hidden state on wire `q`: output-gate times the hyperbolic tangent of the new cell state. -/
def hiddenNew (xr : Fin 4096 → EReal) (hr cr : Fin 4 → EReal)
    (Wf : Fin 4 → Fin 4100 → EReal) (Bf Tf : Fin 4 → EReal) (Wi : Fin 4 → Fin 4100 → EReal) (Bi Ti : Fin 4 → EReal)
    (Wg : Fin 4 → Fin 4100 → EReal) (Bg Tg : Fin 4 → EReal) (Wo : Fin 4 → Fin 4100 → EReal) (Bo To : Fin 4 → EReal) (q : Fin 4) : EReal :=
  Ideal.logistic (gate xr hr Wo Bo To q) * Ideal.tanh (cellNew xr hr cr Wf Bf Tf Wi Bi Ti Wg Bg Tg q)

/-- The band-by-band forms of the two. -/
def cellNewBands (xr : Fin 4096 → EReal) (hr cr : Fin 4 → EReal)
    (Wf : Fin 4 → Fin 4100 → EReal) (Bf Tf : Fin 4 → EReal) (Wi : Fin 4 → Fin 4100 → EReal) (Bi Ti : Fin 4 → EReal)
    (Wg : Fin 4 → Fin 4100 → EReal) (Bg Tg : Fin 4 → EReal) (q : Fin 4) : EReal :=
  Ideal.logistic (gateBands xr hr Wf Bf Tf q) * cr q
    + Ideal.logistic (gateBands xr hr Wi Bi Ti q) * Ideal.tanh (gateBands xr hr Wg Bg Tg q)

def hiddenNewBands (xr : Fin 4096 → EReal) (hr cr : Fin 4 → EReal)
    (Wf : Fin 4 → Fin 4100 → EReal) (Bf Tf : Fin 4 → EReal) (Wi : Fin 4 → Fin 4100 → EReal) (Bi Ti : Fin 4 → EReal)
    (Wg : Fin 4 → Fin 4100 → EReal) (Bg Tg : Fin 4 → EReal) (Wo : Fin 4 → Fin 4100 → EReal) (Bo To : Fin 4 → EReal) (q : Fin 4) : EReal :=
  Ideal.logistic (gateBands xr hr Wo Bo To q) * Ideal.tanh (cellNewBands xr hr cr Wf Bf Tf Wi Bi Ti Wg Bg Tg q)

/-! ## The whole batch -/

/-- A rank-2 array from a function of the two coordinates. -/
def ofCoords {a b : Nat} (f : Fin a → Fin b → EReal) : (⟨2, ![a, b]⟩ : Shape).Idx → EReal := fun i => f (i 0) (i 1)

@[simp] theorem ofCoords_ix2 {a b : Nat} (f : Fin a → Fin b → EReal) (r : Fin a) (q : Fin b) :
    ofCoords f (ValueIdx.ix2 r q) = f r q := rfl

/-- Row `r` of a rank-2 array. -/
def rowOf {a b : Nat} (x : (⟨2, ![a, b]⟩ : Shape).Idx → EReal) (r : Fin a) : Fin b → EReal := fun k => x (ValueIdx.ix2 r k)
/-- A rank-1 array as a function of its coordinate. -/
def vecOf {a : Nat} (v : (⟨1, ![a]⟩ : Shape).Idx → EReal) : Fin a → EReal := fun k => v (ValueIdx.ix1 k)

/-- The new cell state of every row: the second result of both programs. -/
def cellArray (x : (⟨2, ![32768, 4096]⟩ : Shape).Idx → EReal) (h c : (⟨2, ![32768, 4]⟩ : Shape).Idx → EReal)
    (Wf : (⟨2, ![4, 4100]⟩ : Shape).Idx → EReal) (bf thf : (⟨1, ![4]⟩ : Shape).Idx → EReal)
    (Wi : (⟨2, ![4, 4100]⟩ : Shape).Idx → EReal) (bi thi : (⟨1, ![4]⟩ : Shape).Idx → EReal)
    (Wg : (⟨2, ![4, 4100]⟩ : Shape).Idx → EReal) (bg thg : (⟨1, ![4]⟩ : Shape).Idx → EReal) :
    (⟨2, ![32768, 4]⟩ : Shape).Idx → EReal :=
  ofCoords fun r q => cellNew (rowOf x r) (rowOf h r) (rowOf c r) (rowOf Wf) (vecOf bf) (vecOf thf) (rowOf Wi) (vecOf bi) (vecOf thi)
    (rowOf Wg) (vecOf bg) (vecOf thg) q

/-- The new hidden state of every row: the first result of both programs. -/
def hiddenArray (x : (⟨2, ![32768, 4096]⟩ : Shape).Idx → EReal) (h c : (⟨2, ![32768, 4]⟩ : Shape).Idx → EReal)
    (Wf : (⟨2, ![4, 4100]⟩ : Shape).Idx → EReal) (bf thf : (⟨1, ![4]⟩ : Shape).Idx → EReal)
    (Wi : (⟨2, ![4, 4100]⟩ : Shape).Idx → EReal) (bi thi : (⟨1, ![4]⟩ : Shape).Idx → EReal)
    (Wg : (⟨2, ![4, 4100]⟩ : Shape).Idx → EReal) (bg thg : (⟨1, ![4]⟩ : Shape).Idx → EReal)
    (Wo : (⟨2, ![4, 4100]⟩ : Shape).Idx → EReal) (bo tho : (⟨1, ![4]⟩ : Shape).Idx → EReal) :
    (⟨2, ![32768, 4]⟩ : Shape).Idx → EReal :=
  ofCoords fun r q => hiddenNew (rowOf x r) (rowOf h r) (rowOf c r) (rowOf Wf) (vecOf bf) (vecOf thf) (rowOf Wi) (vecOf bi) (vecOf thi)
    (rowOf Wg) (vecOf bg) (vecOf thg) (rowOf Wo) (vecOf bo) (vecOf tho) q

end Cert.QLstm

end
-- ==== Proof.LibSumBands.lean ====
/-
  A sum over a finite range, cut into consecutive bands.

  When an axis of length `n` is a concatenation of pieces of lengths `a`, `b` (and `c`), a sum over the axis is
  the sum over the first piece, plus the sum over the second piece read `a` places further on (plus the sum over the
  third read `a + b` places further on). Nothing is asked of the summands but that they live in a commutative
  monoid: on the extended reals, where `+` is commutative and associative without any finiteness hypothesis, this
  is the law that turns ONE contraction over a concatenated axis into the partial products of the pieces.

  The positions are spelt with the anonymous constructor `⟨a + j, _⟩` of the literal range `Fin n`, so that the
  statement rewrites a sum whose bound is a numeral (`Fin 320`, `Fin 384`) and leaves coordinates of literal type.
-/
import Mathlib.Algebra.BigOperators.Fin

/-! # Sums over consecutive bands of a range

`sum_two_bands` and `sum_three_bands`: a sum over `Fin n` with `n = a + b` (or `a + b + c`) is the sum of the sums
over the bands, the `j`-th position of a band being `⟨offset + j, _⟩ : Fin n`. Stated for any commutative monoid, so
in particular for the extended reals with no finiteness hypothesis. -/

namespace Cert.SumBands

open scoped BigOperators

/-- A sum over `n = a + b` positions is the sum over the first `a` plus the sum over the last `b`. -/
theorem sum_two_bands {M : Type*} [AddCommMonoid M] {n : Nat} (a b : Nat) (h : a + b = n) (f : Fin n → M) :
    ∑ k : Fin n, f k
      = (∑ j : Fin a, f ⟨j.val, by have := j.isLt; omega⟩) + (∑ j : Fin b, f ⟨a + j.val, by have := j.isLt; omega⟩) := by
  subst h
  rw [Fin.sum_univ_add]
  rfl

/-- A sum over `n = a + b + c` positions is the sum over the first `a`, plus the sum over the next `b`, plus the
    sum over the last `c` — grouped `(first + second) + third`. -/
theorem sum_three_bands {M : Type*} [AddCommMonoid M] {n : Nat} (a b c : Nat) (h : a + b + c = n) (f : Fin n → M) :
    ∑ k : Fin n, f k
      = ((∑ j : Fin a, f ⟨j.val, by have := j.isLt; omega⟩) + (∑ j : Fin b, f ⟨a + j.val, by have := j.isLt; omega⟩))
        + (∑ j : Fin c, f ⟨a + b + j.val, by have := j.isLt; omega⟩) := by
  subst h
  rw [Fin.sum_univ_add, Fin.sum_univ_add]
  rfl

end Cert.SumBands
-- ==== Proof.Bands.lean ====
/-
  The inner product over the joined row `[xr, hr]` of length 4100, cut into the kernel's five bands.

  The joined row is the 4096 features followed by the 4 hidden-state entries. Cutting positions 0 … 4099 at 1024, 2048,
  3072 and 4096 turns the one sum into four sums over bands of 1024 features and one over the 4 hidden-state entries; on
  band `j` position `1024·j + k` of the joined row is feature `1024·j + k`, and position `4096 + k` is hidden-state entry
  `k`. Adding the five pieces up from zero in order is therefore the whole inner product. The law used is only that a sum
  over consecutive positions splits at a cut, which holds in every additive commutative monoid — so it holds on the
  extended reals whatever the entries are, infinite ones included.
-/
import proofs.«138498_j65481071399076_2_alg».proof.Proof.Spec
import proofs.«138498_j65481071399076_2_alg».proof.Proof.LibSumBands

noncomputable section

open scoped BigOperators

namespace Cert.QLstm

/-- A sum over 4100 positions is the sum of the sums over the four bands of 1024 and the tail of 4, in order. -/
theorem sum_five_bands {M : Type*} [AddCommMonoid M] (f : Fin 4100 → M) :
    ∑ k : Fin 4100, f k
      = ((((∑ k : Fin 1024, f (bandIx' 0 k)) + ∑ k : Fin 1024, f (bandIx' 1 k)) + ∑ k : Fin 1024, f (bandIx' 2 k))
          + ∑ k : Fin 1024, f (bandIx' 3 k)) + ∑ k : Fin 4, f (tailIx k) := by
  rw [Cert.SumBands.sum_two_bands 4096 4 rfl f,
    Cert.SumBands.sum_two_bands 3072 1024 rfl (fun j : Fin 4096 => f ⟨j.val, by have := j.isLt; omega⟩),
    Cert.SumBands.sum_two_bands 2048 1024 rfl (fun j : Fin 3072 => f ⟨j.val, by have := j.isLt; omega⟩),
    Cert.SumBands.sum_two_bands 1024 1024 rfl (fun j : Fin 2048 => f ⟨j.val, by have := j.isLt; omega⟩)]
  rfl

/-- On band `j`, position `1024·j + k` of the joined row is feature `1024·j + k`. -/
theorem joined_band (xr : Fin 4096 → EReal) (hr : Fin 4 → EReal) (j : Fin 4) (k : Fin 1024) :
    joined xr hr (bandIx' j k) = xr (bandIx j k) := by
  have hlt : 1024 * j.val + k.val < 4096 := by have := j.isLt; have := k.isLt; omega
  show (if hk : 1024 * j.val + k.val < 4096 then xr ⟨1024 * j.val + k.val, hk⟩ else _) = _
  rw [dif_pos hlt]
  rfl

/-- Position `4096 + k` of the joined row is hidden-state entry `k`. -/
theorem joined_tail (xr : Fin 4096 → EReal) (hr : Fin 4 → EReal) (k : Fin 4) :
    joined xr hr (tailIx k) = hr k := by
  have hge : ¬ (4096 + k.val < 4096) := by omega
  show (if hk : 4096 + k.val < 4096 then _ else hr ⟨4096 + k.val - 4096, _⟩) = _
  rw [dif_neg hge]
  exact congrArg hr (Fin.ext (by show 4096 + k.val - 4096 = k.val; omega))

/-- The angle added up band by band is the angle. -/
theorem angleBands_eq (xr : Fin 4096 → EReal) (hr : Fin 4 → EReal) (w : Fin 4100 → EReal) (b th : EReal) :
    angleBands xr hr w b th = angle xr hr w b th := by
  unfold angleBands angle bandDot
  rw [sum_five_bands (fun k => joined xr hr k * w k), zero_add]
  simp only [joined_band, joined_tail]

/-- So a gate computed band by band is the gate, -/
theorem gateBands_eq (xr : Fin 4096 → EReal) (hr : Fin 4 → EReal) (W : Fin 4 → Fin 4100 → EReal) (B T : Fin 4 → EReal) (q : Fin 4) :
    gateBands xr hr W B T q = gate xr hr W B T q := by
  unfold gateBands gate
  simp only [angleBands_eq]

/-- and so are the new cell state and the new hidden state. -/
theorem cellNewBands_eq (xr : Fin 4096 → EReal) (hr cr : Fin 4 → EReal)
    (Wf : Fin 4 → Fin 4100 → EReal) (Bf Tf : Fin 4 → EReal) (Wi : Fin 4 → Fin 4100 → EReal) (Bi Ti : Fin 4 → EReal)
    (Wg : Fin 4 → Fin 4100 → EReal) (Bg Tg : Fin 4 → EReal) (q : Fin 4) :
    cellNewBands xr hr cr Wf Bf Tf Wi Bi Ti Wg Bg Tg q = cellNew xr hr cr Wf Bf Tf Wi Bi Ti Wg Bg Tg q := by
  unfold cellNewBands cellNew
  simp only [gateBands_eq]

theorem hiddenNewBands_eq (xr : Fin 4096 → EReal) (hr cr : Fin 4 → EReal)
    (Wf : Fin 4 → Fin 4100 → EReal) (Bf Tf : Fin 4 → EReal) (Wi : Fin 4 → Fin 4100 → EReal) (Bi Ti : Fin 4 → EReal)
    (Wg : Fin 4 → Fin 4100 → EReal) (Bg Tg : Fin 4 → EReal) (Wo : Fin 4 → Fin 4100 → EReal) (Bo To : Fin 4 → EReal) (q : Fin 4) :
    hiddenNewBands xr hr cr Wf Bf Tf Wi Bi Ti Wg Bg Tg Wo Bo To q = hiddenNew xr hr cr Wf Bf Tf Wi Bi Ti Wg Bg Tg Wo Bo To q := by
  unfold hiddenNewBands hiddenNew
  simp only [gateBands_eq, cellNewBands_eq]

end Cert.QLstm

end
-- ==== Proof.LibMatmulFin.lean ====
/-
  A matrix product read at one entry, as a finite sum over a plain range.

  On the extended reals a matrix-unit product into a zero accumulator is, entry by entry, the sum
  over the contraction index of the products of the two operands' entries.  When one axis is
  contracted, of extent `K`, that index is just a number below `K`; the lemma below states the
  entry as a sum over `Fin K`, the caller naming which entry of each operand position `k` reads.
  It holds for any dimension numbers with a single contracted axis, whatever the operands' layout
  (either may be stored transposed).
-/
import Idealize.ShloMosaic.PureOps.Ideal.Laws
import Idealize.ShloMosaic.Lib.ValueIdx

noncomputable section

namespace Cert.LibMatmulFin

open Idealize.ShloMosaic Idealize.ShloMosaic.ValueIdx

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- A product into the zero accumulator, contracted over ONE axis of extent `K`, read at the
    result index `j`: the sum over `k < K` of the left operand at `li k` times the right operand at
    `ri k`, where `li k` and `ri k` are the operand indices the dimension numbers assign to result
    index `j` and contraction position `k` (`hl`, `hri`). -/
theorem matmul_zero_apply_fin {sl sr so : Shape} {φ₁ φ₂ : FTy} (D : DotDims sl sr so) (K : Nat)
    (hr : D.contr.rank = 1) (hs : D.contr.size ⟨0, by omega⟩ = K) (prec : Option ContractPrecision)
    (A : FVec Ideal sl φ₁) (B : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec A B (constant so .f32 0x00000000#32) j = ∑ k : Fin K, A (li k) * B (ri k) := by
  rw [Ideal.matmul_constant_zero_apply, ← Equiv.sum_comp (contrEquiv1 D K hr hs).symm]
  exact Finset.sum_congr rfl fun k _ => by rw [hl k, hri k]

end Cert.LibMatmulFin

end
-- ==== Proof.KernelBlockValue.lean ====
/-
  What the kernel body stores, read one entry at a time, is the cell's new state of one row.

  The body sees 1024 rows at once. For a row r it holds the feature row x (r, ·) of length 4096, the old hidden state
  (columns 0–3 of the packed state block) and the old cell state (columns 4–7). The sixteen columns of the weight,
  bias and angle operands are the sixteen wires: column 4·g + q is wire q of gate g (g = 0 forget, 1 input, 2 candidate,
  3 output). Reading the stored block at (r, q) and at (r, 4 + q) we follow the arithmetic backwards:

  * the store lays the new hidden state (1024 × 4) beside the new cell state (1024 × 4), so column q < 4 reads the
    first and column 4 + q the second;
  * new cell = σ(forget) · old cell + σ(input) · tanh(candidate), new hidden = σ(output) · tanh(new cell), entry by
    entry, σ the logistic function;
  * a gate's value on wire q is the q-th product of the ring — c1·c2·c3, c0·c1, c0·c1·c2, c0·c1·c2·c3, multiplied left to
    right — of the four cosines c0 … c3 of its wires' angles: the kernel cuts the four cosine columns out, multiplies
    them in exactly this order, and lays the four products side by side;
  * a wire's angle is its logit plus its entry of the angle row, and its logit is, added in this order from zero, the
    four partial inner products of the feature row with the wire's weights over the bands of 1024 features, then the
    inner product of the hidden state with the wire's last four weights, then the bias;
  * a band's partial inner product is one entry of a matrix product into a zero accumulator: the sum over the 1024
    positions k of x (r, 1024·j + k) · w (1024·j + k, c). The change of number format before the product is the identity
    on extended reals, and so is every re-cast of an array to the shape it already has.

  Nothing here needs the entries to be finite: each step is a reading of an array at an index, or the same sum or
  product written with the same association on both sides.
-/
import proofs.«138498_j65481071399076_2_alg».proof.Proof.KernelIdealStored
import proofs.«138498_j65481071399076_2_alg».proof.Proof.Spec
import proofs.«138498_j65481071399076_2_alg».proof.Proof.Bands
import proofs.«138498_j65481071399076_2_alg».proof.Proof.LibMatmulFin
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Cert.KernelIdeal.Body Cert.QLstm Idealize.ShloMosaic Idealize.ShloMosaic.ValueIdx

/-! ## Rows, wires and columns -/

/-- Column 4·g + q of the sixteen stacked columns: gate g (0 forget, 1 input, 2 candidate, 3 output), wire q. -/
def col (g q : Fin 4) : Fin 16 := ⟨4 * g.val + q.val, by have := g.isLt; have := q.isLt; omega⟩

/-- Wire (g, q)'s weight row of length 4100, read off the two transposed weight blocks. -/
def wRow (wxt : Vec Ideal S4096x16 .bf16) (wht : Vec Ideal S4x16 .bf16) (g q : Fin 4) : Fin 4100 → EReal :=
  joined (fun k => wxt (ix2 k (col g q))) (fun k => wht (ix2 k (col g q)))

/-- Entry (g, q) of a 1 × 16 row (the bias row, or the angle row). -/
def rowEntry (b : Vec Ideal S1x16 .f32) (g q : Fin 4) : EReal := b (ix2 (0 : Fin 1) (col g q))

/-- Row r's old hidden state: columns 0–3 of the packed block. -/
def hRow (hc : Vec Ideal S1024x8 .f32) (r : Fin 1024) (k : Fin 4) : EReal :=
  hc (ix2 r (⟨k.val, by have := k.isLt; omega⟩ : Fin 8))

/-- Row r's old cell state: columns 4–7 of the packed block. -/
def cRow (hc : Vec Ideal S1024x8 .f32) (r : Fin 1024) (k : Fin 4) : EReal :=
  hc (ix2 r (⟨4 + k.val, by have := k.isLt; omega⟩ : Fin 8))

/-! ## The two matrix products at an entry -/

/-- A 1024 × 1024 by 1024 × 16 product into the zero accumulator, at entry (r, c): the sum over k of A (r, k) · B (k, c). -/
theorem bandMatmul_apply (A : FVec Ideal S1024x1024 .bf16) (B : FVec Ideal S1024x16 .bf16) (r : Fin 1024) (c : Fin 16) :
    matmul dot_S1024x1024_S1024x16_S1024x16_1_0_0_1_n_n none A B (constant (F := Ideal) S1024x16 .f32 0x00000000#32) (ix2 r c)
      = ∑ k : Fin 1024, A (ix2 r k) * B (ix2 k c) := by
  refine Cert.LibMatmulFin.matmul_zero_apply_fin dot_S1024x1024_S1024x16_S1024x16_1_0_0_1_n_n 1024 rfl rfl none A B (ix2 r c)
    (fun k => ix2 r k) (fun k => ix2 k c) (fun k => ?_) (fun k => ?_)
  · refine Cert.LibMatmulFin.idx2_ext _ _ ?_ ?_
    · unfold DotDims.lhsIdx
      rw [dif_neg (show ¬(0 : Fin S1024x1024.rank) ∈ dot_S1024x1024_S1024x16_S1024x16_1_0_0_1_n_n.lhsBatch by decide),
        dif_pos (show (0 : Fin S1024x1024.rank) ∈ dot_S1024x1024_S1024x16_S1024x16_1_0_0_1_n_n.lhsNonContracting by decide)]
      rfl
    · exact (dot_S1024x1024_S1024x16_S1024x16_1_0_0_1_n_n.lhsIdx_val_of_single rfl _ _).trans
        (contrEquiv1_symm_val dot_S1024x1024_S1024x16_S1024x16_1_0_0_1_n_n 1024 rfl rfl k)
  · refine Cert.LibMatmulFin.idx2_ext _ _ ?_ ?_
    · exact (dot_S1024x1024_S1024x16_S1024x16_1_0_0_1_n_n.rhsIdx_val_of_single rfl _ _).trans
        (contrEquiv1_symm_val dot_S1024x1024_S1024x16_S1024x16_1_0_0_1_n_n 1024 rfl rfl k)
    · unfold DotDims.rhsIdx
      rw [dif_neg (show ¬(1 : Fin S1024x16.rank) ∈ dot_S1024x1024_S1024x16_S1024x16_1_0_0_1_n_n.rhsBatch by decide),
        dif_pos (show (1 : Fin S1024x16.rank) ∈ dot_S1024x1024_S1024x16_S1024x16_1_0_0_1_n_n.rhsNonContracting by decide)]
      rfl

/-- The 1024 × 4 by 4 × 16 product into the zero accumulator, at entry (r, c): the sum over k of A (r, k) · B (k, c). -/
theorem tailMatmul_apply (A : FVec Ideal S1024x4 .bf16) (B : FVec Ideal S4x16 .bf16) (r : Fin 1024) (c : Fin 16) :
    matmul dot_S1024x4_S4x16_S1024x16_1_0_0_1_n_n none A B (constant (F := Ideal) S1024x16 .f32 0x00000000#32) (ix2 r c)
      = ∑ k : Fin 4, A (ix2 r k) * B (ix2 k c) := by
  refine Cert.LibMatmulFin.matmul_zero_apply_fin dot_S1024x4_S4x16_S1024x16_1_0_0_1_n_n 4 rfl rfl none A B (ix2 r c)
    (fun k => ix2 r k) (fun k => ix2 k c) (fun k => ?_) (fun k => ?_)
  · refine Cert.LibMatmulFin.idx2_ext _ _ ?_ ?_
    · unfold DotDims.lhsIdx
      rw [dif_neg (show ¬(0 : Fin S1024x4.rank) ∈ dot_S1024x4_S4x16_S1024x16_1_0_0_1_n_n.lhsBatch by decide),
        dif_pos (show (0 : Fin S1024x4.rank) ∈ dot_S1024x4_S4x16_S1024x16_1_0_0_1_n_n.lhsNonContracting by decide)]
      rfl
    · exact (dot_S1024x4_S4x16_S1024x16_1_0_0_1_n_n.lhsIdx_val_of_single rfl _ _).trans
        (contrEquiv1_symm_val dot_S1024x4_S4x16_S1024x16_1_0_0_1_n_n 4 rfl rfl k)
  · refine Cert.LibMatmulFin.idx2_ext _ _ ?_ ?_
    · exact (dot_S1024x4_S4x16_S1024x16_1_0_0_1_n_n.rhsIdx_val_of_single rfl _ _).trans
        (contrEquiv1_symm_val dot_S1024x4_S4x16_S1024x16_1_0_0_1_n_n 4 rfl rfl k)
    · unfold DotDims.rhsIdx
      rw [dif_neg (show ¬(1 : Fin S4x16.rank) ∈ dot_S1024x4_S4x16_S1024x16_1_0_0_1_n_n.rhsBatch by decide),
        dif_pos (show (1 : Fin S4x16.rank) ∈ dot_S1024x4_S4x16_S1024x16_1_0_0_1_n_n.rhsNonContracting by decide)]
      rfl

/-! ## The x-part of a logit: four band products added up from zero -/

/-- One band's product at entry (r, 4·g + q). The kernel loads columns o … o + 1023 of the block of x and rows
    o … o + 1023 of the x-weights (o = 1024·j), changes x's format (the identity on extended reals), re-casts the weights
    to the shape they already have (the identity), and multiplies into the zero accumulator. Entry (r, k) of the loaded
    x-band is x (r, 1024·j + k), entry (k, c) of the loaded weight band is wxt (1024·j + k, c); so the product's entry is
    the partial inner product of row r of x with wire (g, q)'s weight row over band j. -/
theorem band_apply (x : Vec Ideal S1024x4096 .f32) (wxt : Vec Ideal S4096x16 .bf16) (wht : Vec Ideal S4x16 .bf16) (j : Fin 4)
    (ox ow : Nat) (hox : ox = 1024 * j.val) (how : ow = 1024 * j.val)
    (inbx : ∀ a, (![0, ox] : Fin 2 → Nat) a + S1024x1024.size a ≤ S1024x4096.size a)
    (inbw : ∀ a, (![ow, 0] : Fin 2 → Nat) a + S1024x16.size a ≤ S4096x16.size a) (r : Fin 1024) (g q : Fin 4) :
    matmul (φ₁ := .bf16) (φ₂ := .bf16) dot_S1024x1024_S1024x16_S1024x16_1_0_0_1_n_n none
        (truncf .bf16 (View.ld x (Rect.unit (s := S1024x4096) ![0, ox] S1024x1024.size inbx)) bitsLt_bf16_f32)
        (shapeCast S1024x16 (View.ld wxt (Rect.unit (s := S4096x16) ![ow, 0] S1024x16.size inbw)) shapeCasts_S1024x16_S1024x16)
        (constant (F := Ideal) S1024x16 .f32 0x00000000#32) (ix2 r (col g q))
      = bandDot (rowOf x r) (wRow wxt wht g q) j := by
  subst hox how
  rw [bandMatmul_apply, shapeCast_self]
  unfold bandDot wRow
  refine Finset.sum_congr rfl fun k _ => ?_
  rw [joined_band]
  refine congrArg₂ (· * ·) ?_ ?_
  · show x _ = x _
    refine congrArg x (Cert.LibMatmulFin.idx2_ext _ _ ?_ ?_)
    · show 0 + 1 * r.val = r.val
      omega
    · show 1024 * j.val + 1 * k.val = 1024 * j.val + k.val
      omega
  · show wxt _ = wxt _
    refine congrArg wxt (Cert.LibMatmulFin.idx2_ext _ _ ?_ ?_)
    · show 1024 * j.val + 1 * k.val = 1024 * j.val + k.val
      omega
    · show 0 + 1 * (col g q).val = (col g q).val
      omega

/-- The x-part of logit (g, q) of row r: zero, then the four band products, added in that order. -/
theorem xLogits_apply (x : Vec Ideal S1024x4096 .f32) (wxt : Vec Ideal S4096x16 .bf16) (wht : Vec Ideal S4x16 .bf16)
    (r : Fin 1024) (g q : Fin 4) :
    xLogits (F := Ideal) x wxt (ix2 r (col g q))
      = (((0 + bandDot (rowOf x r) (wRow wxt wht g q) 0) + bandDot (rowOf x r) (wRow wxt wht g q) 1)
          + bandDot (rowOf x r) (wRow wxt wht g q) 2) + bandDot (rowOf x r) (wRow wxt wht g q) 3 := by
  have e0 := band_apply x wxt wht 0 0 0 rfl rfl inb_S1024x4096_S1024x1024_0_0 inb_S4096x16_S1024x16_0_0 r g q
  have e1 := band_apply x wxt wht 1 1024 1024 rfl rfl inb_S1024x4096_S1024x1024_0_1024 inb_S4096x16_S1024x16_1024_0 r g q
  have e2 := band_apply x wxt wht 2 2048 2048 rfl rfl inb_S1024x4096_S1024x1024_0_2048 inb_S4096x16_S1024x16_2048_0 r g q
  have e3 := band_apply x wxt wht 3 3072 3072 rfl rfl inb_S1024x4096_S1024x1024_0_3072 inb_S4096x16_S1024x16_3072_0 r g q
  unfold xLogits k0_pay2
  exact congrArg₂ (· + ·) (congrArg₂ (· + ·) (congrArg₂ (· + ·) (congrArg₂ (· + ·) Ideal.ofBits_zero_f32 e0) e1) e2) e3

/-! ## The hidden-state part, and the whole logit -/

/-- The hidden-state product at entry (r, 4·g + q): the kernel loads columns 0–3 of the packed state and the whole
    4 × 16 block of h-weights; the casts and the format change are identities; so the entry is the inner product of row
    r's hidden state with the last four entries of wire (g, q)'s weight row. -/
theorem tail_apply (hc : Vec Ideal S1024x8 .f32) (wxt : Vec Ideal S4096x16 .bf16) (wht : Vec Ideal S4x16 .bf16)
    (r : Fin 1024) (g q : Fin 4) :
    matmul (φ₁ := .bf16) (φ₂ := .bf16) dot_S1024x4_S4x16_S1024x16_1_0_0_1_n_n none (k0_pay4 (View.ld hc hHalf)) (k0_pay5 (View.ld wht whWhole))
        (constant (F := Ideal) S1024x16 .f32 0x00000000#32) (ix2 r (col g q))
      = ∑ k : Fin 4, hRow hc r k * wRow wxt wht g q (tailIx k) := by
  rw [tailMatmul_apply]
  unfold k0_pay4 k0_pay5 wRow hRow
  rw [shapeCast_self, shapeCast_self]
  refine Finset.sum_congr rfl fun k _ => ?_
  rw [joined_tail]
  refine congrArg₂ (· * ·) ?_ ?_
  · show hc _ = hc _
    refine congrArg hc (Cert.LibMatmulFin.idx2_ext _ _ ?_ ?_)
    · show 0 + 1 * r.val = r.val
      omega
    · show 0 + 1 * k.val = k.val
      omega
  · show wht _ = wht _
    refine congrArg wht (Cert.LibMatmulFin.idx2_ext _ _ ?_ ?_)
    · show 0 + 1 * k.val = k.val
      omega
    · show 0 + 1 * (col g q).val = (col g q).val
      omega

/-- A 1 × 16 row, re-cast to its own shape and broadcast over the 1024 rows, reads at (r, c) the row's entry c. -/
theorem rowBroadcast_apply (v : Vec Ideal S1x16 .f32) (r : Fin 1024) (c : Fin 16) :
    broadcastTo S1024x16 (shapeCast S1x16 v shapeCasts_S1x16_S1x16) broadcasts_S1x16_S1024x16 (ix2 r c)
      = v (ix2 (0 : Fin 1) c) := by
  rw [broadcastTo_1b_ab_apply, shapeCast_self]

/-- A 1 × 16 row loaded whole reads its own entries. -/
theorem rowWhole_apply (v : Vec Ideal S1x16 .f32) (g q : Fin 4) :
    View.ld v rowWhole (ix2 (0 : Fin 1) (col g q)) = rowEntry v g q := by
  unfold rowEntry
  show v _ = v _
  refine congrArg v (Cert.LibMatmulFin.idx2_ext _ _ ?_ ?_)
  · show 0 + 1 * 0 = 0
    rfl
  · show 0 + 1 * (col g q).val = (col g q).val
    omega

/-- The sixteen logits of each row, before the angle row is added: the payload the gates slice. -/
def logits (x : Vec Ideal S1024x4096 .f32) (hc : Vec Ideal S1024x8 .f32) (wxt : Vec Ideal S4096x16 .bf16)
    (wht : Vec Ideal S4x16 .bf16) (b : Vec Ideal S1x16 .f32) : FVec Ideal S1024x16 .f32 :=
  k0_pay6 (xLogits (F := Ideal) x wxt) (k0_pay4 (View.ld hc hHalf)) (k0_pay5 (View.ld wht whWhole)) (View.ld b rowWhole)

/-- Logit (g, q) of row r: the x-part, plus the hidden-state part, plus the bias (the bias row is loaded whole, re-cast
    to its own shape, and broadcast over the 1024 rows). -/
theorem logits_apply (x : Vec Ideal S1024x4096 .f32) (hc : Vec Ideal S1024x8 .f32) (wxt : Vec Ideal S4096x16 .bf16)
    (wht : Vec Ideal S4x16 .bf16) (b : Vec Ideal S1x16 .f32) (r : Fin 1024) (g q : Fin 4) :
    logits x hc wxt wht b (ix2 r (col g q))
      = ((((((0 + bandDot (rowOf x r) (wRow wxt wht g q) 0) + bandDot (rowOf x r) (wRow wxt wht g q) 1)
          + bandDot (rowOf x r) (wRow wxt wht g q) 2) + bandDot (rowOf x r) (wRow wxt wht g q) 3)
          + ∑ k : Fin 4, hRow hc r k * wRow wxt wht g q (tailIx k)) + rowEntry b g q) := by
  unfold logits k0_pay6
  exact congrArg₂ (· + ·) (congrArg₂ (· + ·) (xLogits_apply x wxt wht r g q) (tail_apply hc wxt wht r g q))
    ((rowBroadcast_apply (View.ld b rowWhole) r (col g q)).trans (rowWhole_apply b g q))

/-- The angle of wire (g, q) of row r, as the kernel adds it up: the logit plus the angle row's entry (the angle row is
    loaded whole and re-cast to its own shape). -/
theorem angle_apply (x : Vec Ideal S1024x4096 .f32) (hc : Vec Ideal S1024x8 .f32) (wxt : Vec Ideal S4096x16 .bf16)
    (wht : Vec Ideal S4x16 .bf16) (b th : Vec Ideal S1x16 .f32) (r : Fin 1024) (g q : Fin 4) :
    logits x hc wxt wht b (ix2 r (col g q)) + k0_pay7 (F := Ideal) (View.ld th rowWhole) (ix2 (0 : Fin 1) (col g q))
      = angleBands (rowOf x r) (hRow hc r) (wRow wxt wht g q) (rowEntry b g q) (rowEntry th g q) := by
  unfold angleBands
  rw [logits_apply]
  unfold k0_pay7
  rw [shapeCast_self, rowWhole_apply]

/-! ## The ring of products on four columns -/

/-- The four ring products of four 1024 × 1 columns, each taken left to right, as the list of pieces the kernel lays
    side by side. -/
abbrev ringPieces (c0 c1 c2 c3 : FVec Ideal S1024x1 .f32) : List ((s : Shape) × (s.Idx → Ideal .f32)) :=
  [⟨S1024x1, mulf (mulf c1 c2) c3⟩, ⟨S1024x1, mulf c0 c1⟩, ⟨S1024x1, mulf (mulf c0 c1) c2⟩,
    ⟨S1024x1, mulf (mulf (mulf c0 c1) c2) c3⟩]

/-- Four 1024 × 1 columns c0 … c3 multiplied as the ring of controlled-NOTs prescribes — c1·c2·c3, c0·c1, c0·c1·c2,
    c0·c1·c2·c3, each product taken left to right — and laid side by side: at (r, q) this is the q-th ring product of
    the four numbers the columns hold in row r. -/
theorem ringConcat_apply (c0 c1 c2 c3 : FVec Ideal S1024x1 .f32) (r : Fin 1024) (c : Fin 4 → EReal)
    (h0 : c0 (ix2 r (0 : Fin 1)) = c 0) (h1 : c1 (ix2 r (0 : Fin 1)) = c 1)
    (h2 : c2 (ix2 r (0 : Fin 1)) = c 2) (h3 : c3 (ix2 r (0 : Fin 1)) = c 3) (q : Fin 4) :
    concatenate S1024x4 1 (ringPieces c0 c1 c2 c3) concatenates_S1024x1_S1024x1_S1024x1_S1024x1_S1024x4_d1 (ix2 r q)
      = ring c q := by
  have hi : ∀ (n : Nat) (hn : n < 4) (b : Fin S1024x1.rank), b.cast (rfl : S1024x1.rank = S1024x4.rank) ≠ (1 : Fin S1024x4.rank) →
      ((ix2 r (0 : Fin 1) : S1024x1.Idx) b).val = ((ix2 r (⟨n, hn⟩ : Fin 4) : S1024x4.Idx) (b.cast rfl)).val := fun n hn b hb => by
    match b with
    | ⟨0, _⟩ => rfl
    | ⟨1, _⟩ => exact absurd rfl hb
  match q with
  | ⟨0, _⟩ =>
    refine (concatenate_apply_piece (1 : Fin S1024x4.rank) (ringPieces c0 c1 c2 c3) concatenates_S1024x1_S1024x1_S1024x1_S1024x1_S1024x4_d1 _
      0 (by show (_ : Nat) < 4; omega) S1024x1 _ rfl rfl 0 rfl (ix2 r (0 : Fin 1)) (hi 0 _) rfl).trans ?_
    show c1 _ * c2 _ * c3 _ = c 1 * c 2 * c 3
    rw [h1, h2, h3]
  | ⟨1, _⟩ =>
    refine (concatenate_apply_piece (1 : Fin S1024x4.rank) (ringPieces c0 c1 c2 c3) concatenates_S1024x1_S1024x1_S1024x1_S1024x1_S1024x4_d1 _
      1 (by show (_ : Nat) < 4; omega) S1024x1 _ rfl rfl 1 rfl (ix2 r (0 : Fin 1)) (hi 1 _) rfl).trans ?_
    show c0 _ * c1 _ = c 0 * c 1
    rw [h0, h1]
  | ⟨2, _⟩ =>
    refine (concatenate_apply_piece (1 : Fin S1024x4.rank) (ringPieces c0 c1 c2 c3) concatenates_S1024x1_S1024x1_S1024x1_S1024x1_S1024x4_d1 _
      2 (by show (_ : Nat) < 4; omega) S1024x1 _ rfl rfl 2 rfl (ix2 r (0 : Fin 1)) (hi 2 _) rfl).trans ?_
    show c0 _ * c1 _ * c2 _ = c 0 * c 1 * c 2
    rw [h0, h1, h2]
  | ⟨3, _⟩ =>
    refine (concatenate_apply_piece (1 : Fin S1024x4.rank) (ringPieces c0 c1 c2 c3) concatenates_S1024x1_S1024x1_S1024x1_S1024x1_S1024x4_d1 _
      3 (by show (_ : Nat) < 4; omega) S1024x1 _ rfl rfl 3 rfl (ix2 r (0 : Fin 1)) (hi 3 _) rfl).trans ?_
    show c0 _ * c1 _ * c2 _ * c3 _ = c 0 * c 1 * c 2 * c 3
    rw [h0, h1, h2, h3]

/-- The same with the four columns cut out of one 1024 × 4 array C: the q-th ring product of row r of C. -/
theorem ringSlices_apply (C : FVec Ideal S1024x4 .f32) (r : Fin 1024) (q : Fin 4) :
    concatenate S1024x4 1
        [⟨S1024x1, mulf (mulf (extractStridedSlice S1024x1 ![0, 1] C slices_S1024x4_o0_1_S1024x1)
            (extractStridedSlice S1024x1 ![0, 2] C slices_S1024x4_o0_2_S1024x1))
            (extractStridedSlice S1024x1 ![0, 3] C slices_S1024x4_o0_3_S1024x1)⟩,
         ⟨S1024x1, mulf (extractStridedSlice S1024x1 ![0, 0] C slices_S1024x4_o0_0_S1024x1)
            (extractStridedSlice S1024x1 ![0, 1] C slices_S1024x4_o0_1_S1024x1)⟩,
         ⟨S1024x1, mulf (mulf (extractStridedSlice S1024x1 ![0, 0] C slices_S1024x4_o0_0_S1024x1)
            (extractStridedSlice S1024x1 ![0, 1] C slices_S1024x4_o0_1_S1024x1))
            (extractStridedSlice S1024x1 ![0, 2] C slices_S1024x4_o0_2_S1024x1)⟩,
         ⟨S1024x1, mulf (mulf (mulf (extractStridedSlice S1024x1 ![0, 0] C slices_S1024x4_o0_0_S1024x1)
            (extractStridedSlice S1024x1 ![0, 1] C slices_S1024x4_o0_1_S1024x1))
            (extractStridedSlice S1024x1 ![0, 2] C slices_S1024x4_o0_2_S1024x1))
            (extractStridedSlice S1024x1 ![0, 3] C slices_S1024x4_o0_3_S1024x1)⟩]
        concatenates_S1024x1_S1024x1_S1024x1_S1024x1_S1024x4_d1 (ix2 r q)
      = ring (fun q' => C (ix2 r q')) q :=
  ringConcat_apply _ _ _ _ r (fun q' => C (ix2 r q'))
    (slice2_axis1_apply 0 C slices_S1024x4_o0_0_S1024x1 r (0 : Fin 1) (0 : Fin 4) rfl)
    (slice2_axis1_apply 1 C slices_S1024x4_o0_1_S1024x1 r (0 : Fin 1) (1 : Fin 4) rfl)
    (slice2_axis1_apply 2 C slices_S1024x4_o0_2_S1024x1 r (0 : Fin 1) (2 : Fin 4) rfl)
    (slice2_axis1_apply 3 C slices_S1024x4_o0_3_S1024x1 r (0 : Fin 1) (3 : Fin 4) rfl) q

/-! ## One gate's four cosines -/

/-- Columns 4·g … 4·g + 3 of the logits plus the same columns of the angle row (broadcast over the rows), through the
    cosine: at (r, q) the cosine of logit (g, q) of row r plus angle (g, q). -/
theorem cosSlice_apply (L : FVec Ideal S1024x16 .f32) (T : FVec Ideal S1x16 .f32) (g : Fin 4) (o : Nat) (ho : o = 4 * g.val)
    (hL : S1024x16.Slices ![0, o] S1024x4) (hT : S1x16.Slices ![0, o] S1x4) (r : Fin 1024) (q : Fin 4) :
    cos (addf (extractStridedSlice S1024x4 ![0, o] L hL)
        (broadcastTo S1024x4 (extractStridedSlice S1x4 ![0, o] T hT) broadcasts_S1x4_S1024x4)) (ix2 r q)
      = Ideal.cos (L (ix2 r (col g q)) + T (ix2 (0 : Fin 1) (col g q))) := by
  subst ho
  refine congrArg Ideal.cos (congrArg₂ (· + ·) ?_ ?_)
  · exact slice2_axis1_apply (4 * g.val) L hL r q (col g q) rfl
  · rw [broadcastTo_1b_ab_apply]
    exact slice2_axis1_apply (4 * g.val) T hT (0 : Fin 1) q (col g q) rfl

/-! ## The gate payloads at an entry -/

/-- The forget gate before its slot in the cell update: columns 0–3 of the logits and of the angle row, the four cosines,
    the ring, the logistic function. -/
theorem pay10_apply (v24 : FVec Ideal S1024x16 .f32) (v29 : FVec Ideal S1024x4 .bf16) (v31 : FVec Ideal S4x16 .bf16)
    (v34 v38 : Vec Ideal S1x16 .f32) (r : Fin 1024) (q : Fin 4) :
    k0_pay10 v24 v29 v31 v34 v38 (ix2 r q)
      = Ideal.logistic (ring (fun q' => Ideal.cos (k0_pay6 v24 v29 v31 v34 (ix2 r (col 0 q'))
          + k0_pay7 v38 (ix2 (0 : Fin 1) (col 0 q')))) q) := by
  unfold k0_pay10
  refine congrArg Ideal.logistic ((ringSlices_apply _ r q).trans ?_)
  exact congrArg (fun c => ring c q) (funext fun q' =>
    cosSlice_apply _ _ 0 0 rfl slices_S1024x16_o0_0_S1024x4 slices_S1x16_o0_0_S1x4 r q')

/-- The input gate: the same on columns 4–7. -/
theorem pay11_apply (v24 : FVec Ideal S1024x16 .f32) (v29 : FVec Ideal S1024x4 .bf16) (v31 : FVec Ideal S4x16 .bf16)
    (v34 v38 : Vec Ideal S1x16 .f32) (r : Fin 1024) (q : Fin 4) :
    k0_pay11 v24 v29 v31 v34 v38 (ix2 r q)
      = Ideal.logistic (ring (fun q' => Ideal.cos (k0_pay6 v24 v29 v31 v34 (ix2 r (col 1 q'))
          + k0_pay7 v38 (ix2 (0 : Fin 1) (col 1 q')))) q) := by
  unfold k0_pay11
  refine congrArg Ideal.logistic ((ringSlices_apply _ r q).trans ?_)
  exact congrArg (fun c => ring c q) (funext fun q' =>
    cosSlice_apply _ _ 1 4 rfl slices_S1024x16_o0_4_S1024x4 slices_S1x16_o0_4_S1x4 r q')

/-- The candidate gate's four cosines (columns 8–11); its ring and hyperbolic tangent come with the store. -/
theorem pay12_apply (v24 : FVec Ideal S1024x16 .f32) (v29 : FVec Ideal S1024x4 .bf16) (v31 : FVec Ideal S4x16 .bf16)
    (v34 v38 : Vec Ideal S1x16 .f32) (r : Fin 1024) (q : Fin 4) :
    k0_pay12 v24 v29 v31 v34 v38 (ix2 r q)
      = Ideal.cos (k0_pay6 v24 v29 v31 v34 (ix2 r (col 2 q)) + k0_pay7 v38 (ix2 (0 : Fin 1) (col 2 q))) := by
  unfold k0_pay12
  exact cosSlice_apply _ _ 2 8 rfl slices_S1024x16_o0_8_S1024x4 slices_S1x16_o0_8_S1x4 r q

/-- The output gate's slice of the logits: column q of it is column 12 + q of the logits. -/
theorem pay8_apply (v24 : FVec Ideal S1024x16 .f32) (v29 : FVec Ideal S1024x4 .bf16) (v31 : FVec Ideal S4x16 .bf16)
    (v34 : Vec Ideal S1x16 .f32) (r : Fin 1024) (q : Fin 4) :
    k0_pay8 v24 v29 v31 v34 (ix2 r q) = k0_pay6 v24 v29 v31 v34 (ix2 r (col 3 q)) := by
  unfold k0_pay8
  exact slice2_axis1_apply 12 _ slices_S1024x16_o0_12_S1024x4 r q (col 3 q) rfl

/-- The output gate's slice of the angle row: entry q of it is entry 12 + q of the angle row. -/
theorem pay9_apply (v38 : Vec Ideal S1x16 .f32) (q : Fin 4) :
    k0_pay9 v38 (ix2 (0 : Fin 1) q) = k0_pay7 v38 (ix2 (0 : Fin 1) (col 3 q)) := by
  unfold k0_pay9
  exact slice2_axis1_apply 12 _ slices_S1x16_o0_12_S1x4 (0 : Fin 1) q (col 3 q) rfl

/-! ## The store: new hidden state beside new cell state -/

/-- Columns 4–7 of what is stored, the new cell state: forget-gate times the old cell state plus input-gate times the
    hyperbolic tangent of the candidate gate's ring (c names the candidate's four cosines in row r). -/
theorem pay1_cell (v28 v43 : FVec Ideal S1024x4 .f32) (v47 : FVec Ideal S1x4 .f32) (v64 v81 v84 : FVec Ideal S1024x4 .f32)
    (v85 v86 : FVec Ideal S1024x1 .f32) (r : Fin 1024) (c : Fin 4 → EReal)
    (h0 : v85 (ix2 r (0 : Fin 1)) = c 0) (h1 : v86 (ix2 r (0 : Fin 1)) = c 1)
    (h2 : v84 (ix2 r (2 : Fin 4)) = c 2) (h3 : v84 (ix2 r (3 : Fin 4)) = c 3) (q : Fin 4) :
    k0_pay1 v28 v43 v47 v64 v81 v84 v85 v86 (ix2 r (⟨4 + q.val, by have := q.isLt; omega⟩ : Fin 8))
      = v64 (ix2 r q) * v28 (ix2 r q) + v81 (ix2 r q) * Ideal.tanh (ring c q) := by
  unfold k0_pay1
  refine (concatenate_pair_apply_right (1 : Fin S1024x8.rank) _ _ concatenates_S1024x4_S1024x4_S1024x8_d1 _ rfl rfl
    (ix2 r q) (fun b hb => ?_) ?_).trans ?_
  · match b with
    | ⟨0, _⟩ => rfl
    | ⟨1, _⟩ => exact absurd rfl hb
  · show q.val + 4 = 4 + q.val
    omega
  · refine congrArg (fun t => v64 (ix2 r q) * v28 (ix2 r q) + v81 (ix2 r q) * Ideal.tanh t) ?_
    exact ringConcat_apply v85 v86 _ _ r c h0 h1
      ((slice2_axis1_apply 2 v84 slices_S1024x4_o0_2_S1024x1 r (0 : Fin 1) (2 : Fin 4) rfl).trans h2)
      ((slice2_axis1_apply 3 v84 slices_S1024x4_o0_3_S1024x1 r (0 : Fin 1) (3 : Fin 4) rfl).trans h3) q

/-- Columns 0–3 of what is stored, the new hidden state: output-gate (columns 12–15 of the logits and of the angle row,
    cosines, ring, logistic) times the hyperbolic tangent of the new cell state. -/
theorem pay1_hidden (v28 v43 : FVec Ideal S1024x4 .f32) (v47 : FVec Ideal S1x4 .f32) (v64 v81 v84 : FVec Ideal S1024x4 .f32)
    (v85 v86 : FVec Ideal S1024x1 .f32) (r : Fin 1024) (c : Fin 4 → EReal)
    (h0 : v85 (ix2 r (0 : Fin 1)) = c 0) (h1 : v86 (ix2 r (0 : Fin 1)) = c 1)
    (h2 : v84 (ix2 r (2 : Fin 4)) = c 2) (h3 : v84 (ix2 r (3 : Fin 4)) = c 3) (q : Fin 4) :
    k0_pay1 v28 v43 v47 v64 v81 v84 v85 v86 (ix2 r (⟨q.val, by have := q.isLt; omega⟩ : Fin 8))
      = Ideal.logistic (ring (fun q' => Ideal.cos (v43 (ix2 r q') + v47 (ix2 (0 : Fin 1) q'))) q)
          * Ideal.tanh (v64 (ix2 r q) * v28 (ix2 r q) + v81 (ix2 r q) * Ideal.tanh (ring c q)) := by
  unfold k0_pay1
  refine (concatenate_pair_apply_left (1 : Fin S1024x8.rank) _ _ concatenates_S1024x4_S1024x4_S1024x8_d1 _ rfl
    (ix2 r q) (fun b => ?_)).trans ?_
  · match b with
    | ⟨0, _⟩ => rfl
    | ⟨1, _⟩ => rfl
  · refine congrArg₂ (fun s t => Ideal.logistic s * Ideal.tanh (v64 (ix2 r q) * v28 (ix2 r q) + v81 (ix2 r q) * Ideal.tanh t)) ?_ ?_
    · refine (ringSlices_apply _ r q).trans (congrArg (fun c' => ring c' q) (funext fun q' => ?_))
      exact congrArg Ideal.cos (congrArg₂ (· + ·) rfl (broadcastTo_1b_ab_apply v47 broadcasts_S1x4_S1024x4 r q'))
    · exact ringConcat_apply v85 v86 _ _ r c h0 h1
        ((slice2_axis1_apply 2 v84 slices_S1024x4_o0_2_S1024x1 r (0 : Fin 1) (2 : Fin 4) rfl).trans h2)
        ((slice2_axis1_apply 3 v84 slices_S1024x4_o0_3_S1024x1 r (0 : Fin 1) (3 : Fin 4) rfl).trans h3) q

/-! ## The kernel's gates are the cell's -/

/-- The cosine the kernel takes for wire (g, q) of row r is the cosine of that wire's angle, added up band by band. -/
theorem cosAngle (x : Vec Ideal S1024x4096 .f32) (hc : Vec Ideal S1024x8 .f32) (wxt : Vec Ideal S4096x16 .bf16)
    (wht : Vec Ideal S4x16 .bf16) (b th : Vec Ideal S1x16 .f32) (r : Fin 1024) (g q : Fin 4) :
    Ideal.cos (logits x hc wxt wht b (ix2 r (col g q)) + k0_pay7 (F := Ideal) (View.ld th rowWhole) (ix2 (0 : Fin 1) (col g q)))
      = Ideal.cos (angleBands (rowOf x r) (hRow hc r) (wRow wxt wht g q) (rowEntry b g q) (rowEntry th g q)) :=
  congrArg Ideal.cos (angle_apply x hc wxt wht b th r g q)

/-- The forget gate, through the logistic function. -/
theorem forget_apply (x : Vec Ideal S1024x4096 .f32) (hc : Vec Ideal S1024x8 .f32) (wxt : Vec Ideal S4096x16 .bf16)
    (wht : Vec Ideal S4x16 .bf16) (b th : Vec Ideal S1x16 .f32) (r : Fin 1024) (q : Fin 4) :
    k0_pay10 (xLogits (F := Ideal) x wxt) (k0_pay4 (View.ld hc hHalf)) (k0_pay5 (View.ld wht whWhole)) (View.ld b rowWhole)
        (View.ld th rowWhole) (ix2 r q)
      = Ideal.logistic (gateBands (rowOf x r) (hRow hc r) (wRow wxt wht 0) (rowEntry b 0) (rowEntry th 0) q) :=
  (pay10_apply _ _ _ _ _ r q).trans
    (congrArg Ideal.logistic (congrArg (fun c => ring c q) (funext fun q' => cosAngle x hc wxt wht b th r 0 q')))

/-- The input gate, through the logistic function. -/
theorem input_apply (x : Vec Ideal S1024x4096 .f32) (hc : Vec Ideal S1024x8 .f32) (wxt : Vec Ideal S4096x16 .bf16)
    (wht : Vec Ideal S4x16 .bf16) (b th : Vec Ideal S1x16 .f32) (r : Fin 1024) (q : Fin 4) :
    k0_pay11 (xLogits (F := Ideal) x wxt) (k0_pay4 (View.ld hc hHalf)) (k0_pay5 (View.ld wht whWhole)) (View.ld b rowWhole)
        (View.ld th rowWhole) (ix2 r q)
      = Ideal.logistic (gateBands (rowOf x r) (hRow hc r) (wRow wxt wht 1) (rowEntry b 1) (rowEntry th 1) q) :=
  (pay11_apply _ _ _ _ _ r q).trans
    (congrArg Ideal.logistic (congrArg (fun c => ring c q) (funext fun q' => cosAngle x hc wxt wht b th r 1 q')))

/-- The candidate gate's cosine on wire q. -/
theorem cand_apply (x : Vec Ideal S1024x4096 .f32) (hc : Vec Ideal S1024x8 .f32) (wxt : Vec Ideal S4096x16 .bf16)
    (wht : Vec Ideal S4x16 .bf16) (b th : Vec Ideal S1x16 .f32) (r : Fin 1024) (q : Fin 4) :
    k0_pay12 (xLogits (F := Ideal) x wxt) (k0_pay4 (View.ld hc hHalf)) (k0_pay5 (View.ld wht whWhole)) (View.ld b rowWhole)
        (View.ld th rowWhole) (ix2 r q)
      = Ideal.cos (angleBands (rowOf x r) (hRow hc r) (wRow wxt wht 2 q) (rowEntry b 2 q) (rowEntry th 2 q)) :=
  (pay12_apply _ _ _ _ _ r q).trans (cosAngle x hc wxt wht b th r 2 q)

/-- The output gate's cosine on wire q, from its two slices. -/
theorem out_apply (x : Vec Ideal S1024x4096 .f32) (hc : Vec Ideal S1024x8 .f32) (wxt : Vec Ideal S4096x16 .bf16)
    (wht : Vec Ideal S4x16 .bf16) (b th : Vec Ideal S1x16 .f32) (r : Fin 1024) (q : Fin 4) :
    Ideal.cos (k0_pay8 (xLogits (F := Ideal) x wxt) (k0_pay4 (View.ld hc hHalf)) (k0_pay5 (View.ld wht whWhole)) (View.ld b rowWhole) (ix2 r q)
        + k0_pay9 (F := Ideal) (View.ld th rowWhole) (ix2 (0 : Fin 1) q))
      = Ideal.cos (angleBands (rowOf x r) (hRow hc r) (wRow wxt wht 3 q) (rowEntry b 3 q) (rowEntry th 3 q)) := by
  rw [pay8_apply, pay9_apply]
  exact cosAngle x hc wxt wht b th r 3 q

/-- The old cell state the kernel loads (columns 4–7 of the packed state, re-cast to its own shape). -/
theorem cellOld_apply (hc : Vec Ideal S1024x8 .f32) (r : Fin 1024) (q : Fin 4) :
    k0_pay3 (F := Ideal) (View.ld hc cHalf) (ix2 r q) = cRow hc r q := by
  unfold k0_pay3 cRow
  rw [shapeCast_self]
  show hc _ = hc _
  refine congrArg hc (Cert.LibMatmulFin.idx2_ext _ _ ?_ ?_)
  · show 0 + 1 * r.val = r.val
    omega
  · show 4 + 1 * q.val = 4 + q.val
    omega

/-! ## The stored block, entry by entry -/

/-- Column 4 + q of row r of what the body stores is the new cell state of that row on wire q. -/
theorem stored_cell (x : Vec Ideal S1024x4096 .f32) (hc : Vec Ideal S1024x8 .f32) (wxt : Vec Ideal S4096x16 .bf16)
    (wht : Vec Ideal S4x16 .bf16) (b th : Vec Ideal S1x16 .f32) (r : Fin 1024) (q : Fin 4) :
    stored (F := Ideal) x hc wxt wht b th (ix2 r (⟨4 + q.val, by have := q.isLt; omega⟩ : Fin 8))
      = cellNewBands (rowOf x r) (hRow hc r) (cRow hc r) (wRow wxt wht 0) (rowEntry b 0) (rowEntry th 0)
          (wRow wxt wht 1) (rowEntry b 1) (rowEntry th 1) (wRow wxt wht 2) (rowEntry b 2) (rowEntry th 2) q := by
  unfold stored
  refine (pay1_cell _ _ _ _ _ _ _ _ r
    (fun q' => Ideal.cos (angleBands (rowOf x r) (hRow hc r) (wRow wxt wht 2 q') (rowEntry b 2 q') (rowEntry th 2 q')))
    ?_ ?_ (cand_apply x hc wxt wht b th r 2) (cand_apply x hc wxt wht b th r 3) q).trans ?_
  · unfold k0_pay13
    exact (slice2_axis1_apply 0 _ slices_S1024x4_o0_0_S1024x1 r (0 : Fin 1) (0 : Fin 4) rfl).trans
      (cand_apply x hc wxt wht b th r 0)
  · unfold k0_pay14
    exact (slice2_axis1_apply 1 _ slices_S1024x4_o0_1_S1024x1 r (0 : Fin 1) (1 : Fin 4) rfl).trans
      (cand_apply x hc wxt wht b th r 1)
  · exact congrArg₂ (· + ·)
      (congrArg₂ (· * ·) (forget_apply x hc wxt wht b th r q) (cellOld_apply hc r q))
      (congrArg₂ (· * ·) (input_apply x hc wxt wht b th r q) rfl)

/-- Column q of row r of what the body stores is the new hidden state of that row on wire q. -/
theorem stored_hidden (x : Vec Ideal S1024x4096 .f32) (hc : Vec Ideal S1024x8 .f32) (wxt : Vec Ideal S4096x16 .bf16)
    (wht : Vec Ideal S4x16 .bf16) (b th : Vec Ideal S1x16 .f32) (r : Fin 1024) (q : Fin 4) :
    stored (F := Ideal) x hc wxt wht b th (ix2 r (⟨q.val, by have := q.isLt; omega⟩ : Fin 8))
      = hiddenNewBands (rowOf x r) (hRow hc r) (cRow hc r) (wRow wxt wht 0) (rowEntry b 0) (rowEntry th 0)
          (wRow wxt wht 1) (rowEntry b 1) (rowEntry th 1) (wRow wxt wht 2) (rowEntry b 2) (rowEntry th 2)
          (wRow wxt wht 3) (rowEntry b 3) (rowEntry th 3) q := by
  unfold stored
  refine (pay1_hidden _ _ _ _ _ _ _ _ r
    (fun q' => Ideal.cos (angleBands (rowOf x r) (hRow hc r) (wRow wxt wht 2 q') (rowEntry b 2 q') (rowEntry th 2 q')))
    ?_ ?_ (cand_apply x hc wxt wht b th r 2) (cand_apply x hc wxt wht b th r 3) q).trans ?_
  · unfold k0_pay13
    exact (slice2_axis1_apply 0 _ slices_S1024x4_o0_0_S1024x1 r (0 : Fin 1) (0 : Fin 4) rfl).trans
      (cand_apply x hc wxt wht b th r 0)
  · unfold k0_pay14
    exact (slice2_axis1_apply 1 _ slices_S1024x4_o0_1_S1024x1 r (0 : Fin 1) (1 : Fin 4) rfl).trans
      (cand_apply x hc wxt wht b th r 1)
  · refine congrArg₂ (· * ·)
      (congrArg Ideal.logistic (congrArg (fun c => ring c q) (funext fun q' => out_apply x hc wxt wht b th r q')))
      (congrArg Ideal.tanh ?_)
    exact congrArg₂ (· + ·)
      (congrArg₂ (· * ·) (forget_apply x hc wxt wht b th r q) (cellOld_apply hc r q))
      (congrArg₂ (· * ·) (input_apply x hc wxt wht b th r q) rfl)

end Cert.KernelIdeal.BlockValue

end
-- ==== Proof.KernelResult.lean ====
/-
  What the kernel's program returns, as two functions of its fifteen arguments.

  Point `t` of the grid writes back rows 1024·t … 1024·t + 1023 of the packed result (32768 × 8): row r of what the body
  stored there is the new hidden state (columns 0–3) and the new cell state (columns 4–7) of row 1024·t + r of the batch,
  because every block the body was handed is the matching piece of an argument array (the features' and the packed
  state's rows 1024·t + r; the weights, biases and angles whole), and because the body's band-by-band inner product is the
  whole inner product. The 32 blocks tile the packed result, so after the region it holds the new state of every row; the
  two slices after the region cut it into the new hidden state and the new cell state, which are the program's results.
-/
import proofs.«138498_j65481071399076_2_alg».proof.Proof.KernelIdealFrame
import proofs.«138498_j65481071399076_2_alg».proof.Proof.KernelBlocks
import proofs.«138498_j65481071399076_2_alg».proof.Proof.KernelBlockValue
import proofs.«138498_j65481071399076_2_alg».proof.Proof.Bands
import Idealize.ShloMosaic.Lib.Pipeline.Value
import Idealize.ShloMosaic.Lib.StableHlo.Run

noncomputable section

namespace Cert.KernelIdeal.Result

open Cert.KernelIdeal Cert.KernelIdeal.Gen
open Idealize.ShloMosaic Idealize.ShloMosaic.TcCoe Idealize.ShloMosaic.ValueIdx Idealize.ShloMosaic.StableHlo Idealize.SL.Sem
open Cert.QLstm Cert.KernelIdeal.BlockValue Cert.KernelIdeal.Blocks
open Cert.KernelIdeal.HostValue (col16 weightOf biasOf angleOf)

variable (m : (ℓ : Loc nD τ sig) → Buf (Elt Ideal) ℓ) (ρ : Dev nD → PrngReg)

/-! ## The results -/

/-- The new hidden state of every row, from core `c`'s arguments as launched. -/
def hiddenOut (c : Dev nD) : S32768x4.Idx → EReal :=
  hiddenArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The new cell state of every row. -/
def cellOut (c : Dev nD) : S32768x4.Idx → EReal :=
  cellArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The packed result: columns 0–3 the new hidden state, columns 4–7 the new cell state. -/
def packedOut (c : Dev nD) : S32768x8.Idx → EReal := fun i =>
  if h : (i 1).val < 4 then hiddenOut m c (ix2 (⟨(i 0).val, idx2_lt0 i⟩ : Fin 32768) (⟨(i 1).val, h⟩ : Fin 4))
  else cellOut m c (ix2 (⟨(i 0).val, idx2_lt0 i⟩ : Fin 32768) (⟨(i 1).val - 4, by have := idx2_lt1 i; omega⟩ : Fin 4))

theorem packedOut_hidden (c : Dev nD) (R : Fin 32768) (q : Fin 4) :
    packedOut m c (ix2 R (⟨q.val, by have := q.isLt; omega⟩ : Fin 8)) = hiddenOut m c (ix2 R q) := by
  unfold packedOut
  rw [dif_pos (show ((ix2 R (⟨q.val, by have := q.isLt; omega⟩ : Fin 8) : S32768x8.Idx) 1).val < 4 from q.isLt)]

theorem packedOut_cell (c : Dev nD) (R : Fin 32768) (q : Fin 4) :
    packedOut m c (ix2 R (⟨4 + q.val, by have := q.isLt; omega⟩ : Fin 8)) = cellOut m c (ix2 R q) := by
  unfold packedOut
  rw [dif_neg (show ¬ ((ix2 R (⟨4 + q.val, by have := q.isLt; omega⟩ : Fin 8) : S32768x8.Idx) 1).val < 4 from by
    show ¬ (4 + q.val < 4); omega)]
  exact congrArg (cellOut m c) (congrArg (ix2 R) (Fin.ext (by show 4 + q.val - 4 = q.val; omega)))

/-! ## The blocks' rows are the arguments' rows -/

/-- Row r of the feature block at point t is row 1024·t + r of the features. -/
theorem row_features (c : Dev nD) (t : Fin cfg0.N) (r : Fin 1024) :
    rowOf (Around.iblk m c 0 t : S1024x4096.Idx → EReal) r
      = rowOf (m ((c : Thread nD τ).loc main_arg0) : S32768x4096.Idx → EReal) (rowAt t r) :=
  funext fun k => features_at m c t r k

/-- Row r of the packed-state block: its first half is row 1024·t + r of the hidden state, -/
theorem row_hidden (c : Dev nD) (t : Fin cfg0.N) (r : Fin 1024) :
    hRow (Around.iblk m c 1 t : S1024x8.Idx → EReal) r
      = rowOf (m ((c : Thread nD τ).loc main_arg1) : S32768x4.Idx → EReal) (rowAt t r) :=
  funext fun k => (packed_at m c t r _).trans (HostValue.packed_hidden_at m c (rowAt t r) k)

/-- its second half row 1024·t + r of the cell state. -/
theorem row_cell (c : Dev nD) (t : Fin cfg0.N) (r : Fin 1024) :
    cRow (Around.iblk m c 1 t : S1024x8.Idx → EReal) r
      = rowOf (m ((c : Thread nD τ).loc main_arg2) : S32768x4.Idx → EReal) (rowAt t r) :=
  funext fun k => (packed_at m c t r _).trans (HostValue.packed_cell_at m c (rowAt t r) k)

/-- Wire (g, q)'s weight row, read off the two transposed weight blocks, is row q of gate g's weight matrix: the first
    4096 positions come from the x-block, the last 4 from the h-block. -/
theorem row_weights (c : Dev nD) (t : Fin cfg0.N) (g : Fin 4) :
    wRow (Around.iblk m c 2 t : S4096x16.Idx → EReal) (Around.iblk m c 3 t : S4x16.Idx → EReal) g = rowOf (weightOf m c g) := by
  funext q k
  unfold wRow joined rowOf
  by_cases hk : k.val < 4096
  · rw [dif_pos hk]
    refine ((wxt_block_at m c t ⟨k.val, hk⟩ (col g q)).trans (HostValue.wxt_at m c g q ⟨k.val, hk⟩)).trans ?_
    exact congrArg (weightOf m c g) (congrArg (ix2 q) (Fin.ext rfl))
  · rw [dif_neg hk]
    refine ((wht_block_at m c t ⟨k.val - 4096, by have := k.isLt; omega⟩ (col g q)).trans
      (HostValue.wht_at m c g q ⟨k.val - 4096, by have := k.isLt; omega⟩)).trans ?_
    exact congrArg (weightOf m c g) (congrArg (ix2 q) (Fin.ext (by show 4096 + (k.val - 4096) = k.val; omega)))

/-- The bias row's entry (g, q) is gate g's bias at q; -/
theorem row_bias (c : Dev nD) (t : Fin cfg0.N) (g : Fin 4) :
    rowEntry (Around.iblk m c 4 t : S1x16.Idx → EReal) g = vecOf (biasOf m c g) :=
  funext fun q => (bias_block_at m c t (col g q)).trans (HostValue.bias_at m c g q)

/-- the angle row's, gate g's angle at q. -/
theorem row_angle (c : Dev nD) (t : Fin cfg0.N) (g : Fin 4) :
    rowEntry (Around.iblk m c 5 t : S1x16.Idx → EReal) g = vecOf (angleOf m c g) :=
  funext fun q => (angle_block_at m c t (col g q)).trans (HostValue.angle_at m c g q)

/-! ## What a point stores -/

/-- Entry (r, q), q < 4, of what point t stores is the new hidden state of row 1024·t + r on wire q. -/
theorem stored_hidden_at (c : Dev nD) (t : Fin cfg0.N) (r : Fin 1024) (q : Fin 4) :
    Body.stored (F := Ideal) (Around.iblk m c 0 t) (Around.iblk m c 1 t) (Around.iblk m c 2 t) (Around.iblk m c 3 t)
        (Around.iblk m c 4 t) (Around.iblk m c 5 t) (ix2 r (⟨q.val, by have := q.isLt; omega⟩ : Fin 8))
      = hiddenOut m c (ix2 (rowAt t r) q) := by
  refine (stored_hidden (Around.iblk m c 0 t) (Around.iblk m c 1 t) (Around.iblk m c 2 t) (Around.iblk m c 3 t)
    (Around.iblk m c 4 t) (Around.iblk m c 5 t) r q).trans ?_
  rw [hiddenNewBands_eq, row_features, row_hidden, row_cell, row_weights, row_weights, row_weights, row_weights,
    row_bias, row_bias, row_bias, row_bias, row_angle, row_angle, row_angle, row_angle]
  rfl

/-- Entry (r, 4 + q) is the new cell state of row 1024·t + r on wire q. -/
theorem stored_cell_at (c : Dev nD) (t : Fin cfg0.N) (r : Fin 1024) (q : Fin 4) :
    Body.stored (F := Ideal) (Around.iblk m c 0 t) (Around.iblk m c 1 t) (Around.iblk m c 2 t) (Around.iblk m c 3 t)
        (Around.iblk m c 4 t) (Around.iblk m c 5 t) (ix2 r (⟨4 + q.val, by have := q.isLt; omega⟩ : Fin 8))
      = cellOut m c (ix2 (rowAt t r) q) := by
  refine (stored_cell (Around.iblk m c 0 t) (Around.iblk m c 1 t) (Around.iblk m c 2 t) (Around.iblk m c 3 t)
    (Around.iblk m c 4 t) (Around.iblk m c 5 t) r q).trans ?_
  rw [cellNewBands_eq, row_features, row_hidden, row_cell, row_weights, row_weights, row_weights,
    row_bias, row_bias, row_bias, row_angle, row_angle, row_angle]
  rfl

/-! ## From blocks to the array -/

theorem zero_offsets : (![0, 0] : Fin 2 → Nat) = fun _ => 0 := funext fun a => by fin_cases a <;> rfl

/-- What point t writes back is block t of the packed result. -/
theorem flushed_eq (c : Dev nD) (t : Fin cfg0.N) :
    (Frame.dats m 0 c).flushed 6 t = ((cfg0.win 6).blk t).view.read (Elt Ideal) (packedOut m c) := by
  obtain ⟨-, -, -, -, -, -, -, -, -, -, -, -, e0, e1⟩ := index_facts t
  show (cfg0.win 6).cut (grid0.coords t) ((Frame.dats m 0 c).after 6 t) = _
  rw [Frame.after_6]
  unfold Body.outBlock
  rw [View.canon_unit_zero zero_offsets]
  show (Body.stored (F := Ideal) (Around.iblk m c 0 t) (Around.iblk m c 1 t) (Around.iblk m c 2 t) (Around.iblk m c 3 t)
      (Around.iblk m c 4 t) (Around.iblk m c 5 t) : S1024x8.Idx → EReal)
    = fun y : S1024x8.Idx => packedOut m c (((cfg0.win 6).blk t).view.emb y)
  funext y
  obtain ⟨r, j, rfl⟩ : ∃ (r : Fin 1024) (j : Fin 8), y = ix2 r j := ⟨y 0, y 1, eq_ix2 y⟩
  have hemb : ((cfg0.win 6).blk t).view.emb (ix2 r j) = (ix2 (rowAt t r) j : S32768x8.Idx) := by
    funext a; apply Fin.ext
    match a with
    | ⟨0, _⟩ => show win0_6.index t (0 : Fin 2) * 1024 + 1 * r.val = 1024 * t.val + r.val; omega
    | ⟨1, _⟩ => show win0_6.index t (1 : Fin 2) * 8 + 1 * j.val = j.val; omega
  rw [hemb]
  by_cases hj : j.val < 4
  · have ej : j = (⟨(⟨j.val, hj⟩ : Fin 4).val, by omega⟩ : Fin 8) := Fin.ext rfl
    rw [ej, stored_hidden_at m c t r ⟨j.val, hj⟩, packedOut_hidden]
  · have ej : j = (⟨4 + (⟨j.val - 4, by have := j.isLt; omega⟩ : Fin 4).val, by have := j.isLt; omega⟩ : Fin 8) :=
      Fin.ext (by show j.val = 4 + (j.val - 4); omega)
    rw [ej, stored_cell_at m c t r ⟨j.val - 4, by have := j.isLt; omega⟩, packedOut_cell]

/-- An index of the packed result is in point t's block iff each coordinate is in the block's range on its axis. -/
theorem mem_block (t : Fin cfg0.N) (i : S32768x8.Idx) :
    i ∈ ((cfg0.win 6).blk t).view.set ↔ ∀ a : Fin 2, win0_6.index t a * S1024x8.size a ≤ (i a).val
      ∧ (i a).val < win0_6.index t a * S1024x8.size a + S1024x8.size a := by
  show i ∈ ((View.whole main_v12).slice (win0_6.rect t)).set ↔ _
  rw [View.set_slice_whole, Rect.mem_set_unit]
  exact Iff.rfl

/-- Row R of the packed result lies in the block of point R / 1024: the 32 blocks tile the array. -/
theorem covered (i : S32768x8.Idx) :
    ∃ t : Fin cfg0.N, (cfg0.win 6).flush t = true ∧ i ∈ ((cfg0.win 6).blk t).view.set := by
  have hi0 : (i 0).val < 32768 := idx2_lt0 i
  have hi1 : (i 1).val < 8 := idx2_lt1 i
  have hN : cfg0.N = 32 := N_0
  let t : Fin cfg0.N := ⟨(i 0).val / 1024, Nat.lt_of_lt_of_eq (by omega : (i 0).val / 1024 < 32) hN.symm⟩
  obtain ⟨-, -, -, -, -, -, -, -, -, -, -, -, e0, e1⟩ := index_facts t
  have et : t.val = (i 0).val / 1024 := rfl
  refine ⟨t, flush0_6 t, ?_⟩
  rw [mem_block]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 8 ≤ (i 1).val ∧ (i 1).val < win0_6.index t (1 : Fin 2) * 8 + 8; omega

/-- After the region the packed result holds the new state of every row. -/
theorem packed_final (c : Dev nD) : (Frame.dats m 0 c).arrAt 6 cfg0.N = packedOut m c :=
  (Frame.dats m 0 c).arrAt_eq_of_cover 6 (packedOut m c) (fun t _ => flushed_eq m c t) covered

/-! ## The two slices after the region -/

/-- The first result: columns 0–3 of the packed result. -/
theorem hidden_result (c : Dev nD) :
    Pipeline.afterTail₀ cfgs (Frame.dats m) 0 (Around.V0 m) [hostOps1] c main_v13 = hiddenOut m c := by
  unfold Pipeline.afterTail₀
  show StableHlo.after hostOps1 _ (Proc.devRef .tc main_v13) = _
  after_results
  rw [Pipeline.withArrays_arr spec0 launch0.win.arr_inj c _ _ 6, packed_final]
  funext i
  obtain ⟨R, q, rfl⟩ : ∃ (R : Fin 32768) (q : Fin 4), i = ix2 R q := ⟨i 0, i 1, eq_ix2 i⟩
  rw [extractStridedSlice_apply ![0, 0] _ slices_S32768x8_S32768x4_0_0 (ix2 R q)
    (ix2 R (⟨q.val, by have := q.isLt; omega⟩ : Fin 8) : S32768x8.Idx)
    (fun a => by match a with | ⟨0, _⟩ => exact (Nat.zero_add _).symm | ⟨1, _⟩ => exact (Nat.zero_add _).symm)]
  exact packedOut_hidden m c R q

/-- The second result: columns 4–7 of the packed result. -/
theorem cell_result (c : Dev nD) :
    Pipeline.afterTail₀ cfgs (Frame.dats m) 0 (Around.V0 m) [hostOps1] c main_v14 = cellOut m c := by
  unfold Pipeline.afterTail₀
  show StableHlo.after hostOps1 _ (Proc.devRef .tc main_v14) = _
  after_results
  rw [Pipeline.withArrays_arr spec0 launch0.win.arr_inj c _ _ 6, packed_final]
  funext i
  obtain ⟨R, q, rfl⟩ : ∃ (R : Fin 32768) (q : Fin 4), i = ix2 R q := ⟨i 0, i 1, eq_ix2 i⟩
  rw [extractStridedSlice_apply ![0, 4] _ slices_S32768x8_S32768x4_0_4 (ix2 R q)
    (ix2 R (⟨4 + q.val, by have := q.isLt; omega⟩ : Fin 8) : S32768x8.Idx)
    (fun a => by match a with | ⟨0, _⟩ => exact (Nat.zero_add _).symm | ⟨1, _⟩ => rfl)]
  exact packedOut_cell m c R q

/-! ## The run, with its results named -/

/-- Every weakly fair execution of the program terminates with the two results at the new hidden state and the new cell
    state of every row, and the fifteen arguments unchanged. -/
theorem run : θ_run defs (onTc (τ := τ) (main (F := Ideal))) ⟨m, fun _ => 0, ρ⟩ (fun r => ∀ c : Dev nD,
      r.2.mem ((c.tc : Thread nD τ).loc main_v13) = hiddenOut m c
      ∧ r.2.mem ((c.tc : Thread nD τ).loc main_v14) = cellOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨((h c).2 main_v13 (Pipeline.mem_restRefs_of main_v13 (by decide) (by decide))).trans (hidden_result m c),
     ((h c).2 main_v14 (Pipeline.mem_restRefs_of main_v14 (by decide) (by decide))).trans (cell_result m c),
     ((h c).1 0).trans (((Frame.dats m 0 c).arrAt_in 0 rfl _).trans ((Frame.A_eq m c 0).trans (Around.V_main_arg0 m c))),
       Around.bypass_kept m (Frame.dats m) h c main_arg1 (by decide) (by decide) (Around.W_main_arg1 m (Frame.dats m) c),
       Around.bypass_kept m (Frame.dats m) h c main_arg2 (by decide) (by decide) (Around.W_main_arg2 m (Frame.dats m) c),
       Around.bypass_kept m (Frame.dats m) h c main_arg3 (by decide) (by decide) (Around.W_main_arg3 m (Frame.dats m) c),
       Around.bypass_kept m (Frame.dats m) h c main_arg4 (by decide) (by decide) (Around.W_main_arg4 m (Frame.dats m) c),
       Around.bypass_kept m (Frame.dats m) h c main_arg5 (by decide) (by decide) (Around.W_main_arg5 m (Frame.dats m) c),
       Around.bypass_kept m (Frame.dats m) h c main_arg6 (by decide) (by decide) (Around.W_main_arg6 m (Frame.dats m) c),
       Around.bypass_kept m (Frame.dats m) h c main_arg7 (by decide) (by decide) (Around.W_main_arg7 m (Frame.dats m) c),
       Around.bypass_kept m (Frame.dats m) h c main_arg8 (by decide) (by decide) (Around.W_main_arg8 m (Frame.dats m) c),
       Around.bypass_kept m (Frame.dats m) h c main_arg9 (by decide) (by decide) (Around.W_main_arg9 m (Frame.dats m) c),
       Around.bypass_kept m (Frame.dats m) h c main_arg10 (by decide) (by decide) (Around.W_main_arg10 m (Frame.dats m) c),
       Around.bypass_kept m (Frame.dats m) h c main_arg11 (by decide) (by decide) (Around.W_main_arg11 m (Frame.dats m) c),
       Around.bypass_kept m (Frame.dats m) h c main_arg12 (by decide) (by decide) (Around.W_main_arg12 m (Frame.dats m) c),
       Around.bypass_kept m (Frame.dats m) h c main_arg13 (by decide) (by decide) (Around.W_main_arg13 m (Frame.dats m) c),
       Around.bypass_kept m (Frame.dats m) h c main_arg14 (by decide) (by decide) (Around.W_main_arg14 m (Frame.dats m) c)⟩)
    (Frame.run_main m ρ)

end Cert.KernelIdeal.Result

end
-- ==== Proof.ReferenceAngle.lean ====
/-
  One wire's angle in the reference program.

  The reference joins the feature array `x` (32768 × 4096) and the hidden state `h` (32768 × 4) along the columns
  into a 32768 × 4100 array, multiplies it by the transposed weight array of a gate (a contraction over the 4100
  columns), and adds the gate's bias and then its angle, each broadcast along the rows. Read at row `r` and wire `q`
  this is

      ( ∑ k < 4100, [x r, h r] k · W q k  +  b q )  +  th q,

  the `angle` of the one-row description of the cell. The only step that is not a direct reading of one operation at an index is
  the joined array: its entry `(r, k)` is `x (r, k)` when `k < 4096` and `h (r, k - 4096)` otherwise.
-/
import proofs.«138498_j65481071399076_2_alg».proof.Proof.Gen.ReferenceIdeal.Read
import proofs.«138498_j65481071399076_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Cert.QLstm
open Idealize.ShloMosaic Idealize.ShloMosaic.StableHlo

/-! ## The joined array -/

/-- A column `k` among the first 4096 of the joined array holds the feature array's entry. -/
theorem joined_left (x0 : (⟨S32768x4096, .f32⟩ : BufTy).Contents (Elt Ideal)) (x1 : (⟨S32768x4, .f32⟩ : BufTy).Contents (Elt Ideal))
    (r : Fin 32768) (k : Fin 4100) (hk : k.val < 4096) :
    val_main_v0 (F := Ideal) x0 x1 (ValueIdx.ix2 r k) = x0 (ValueIdx.ix2 r ⟨k.val, hk⟩) := by
  unfold val_main_v0
  -- the column falls in the first piece; the piece is read at the same two coordinates
  exact concatenate_pair_apply_left 1 x0 x1 concatenates_S32768x4096_S32768x4_S32768x4100_d1 (ValueIdx.ix2 r k) rfl
    (ValueIdx.ix2 r ⟨k.val, hk⟩) (fun b => match b with
      | ⟨0, _⟩ => rfl
      | ⟨1, _⟩ => rfl)

/-- A column `k` from 4096 on holds the hidden state's entry `k - 4096`. -/
theorem joined_right (x0 : (⟨S32768x4096, .f32⟩ : BufTy).Contents (Elt Ideal)) (x1 : (⟨S32768x4, .f32⟩ : BufTy).Contents (Elt Ideal))
    (r : Fin 32768) (k : Fin 4100) (hk : ¬ k.val < 4096) :
    val_main_v0 (F := Ideal) x0 x1 (ValueIdx.ix2 r k) = x1 (ValueIdx.ix2 r ⟨k.val - 4096, by omega⟩) := by
  unfold val_main_v0
  -- the column falls in the second piece: same row, and the column is the first piece's 4096 columns less
  exact concatenate_pair_apply_right 1 x0 x1 concatenates_S32768x4096_S32768x4_S32768x4100_d1 (ValueIdx.ix2 r k) rfl rfl
    (ValueIdx.ix2 r ⟨k.val - 4096, by omega⟩) (fun b hb => match b, hb with
      | ⟨0, _⟩, _ => rfl
      | ⟨1, _⟩, hb => absurd rfl hb)
    (by show (k.val - 4096) + 4096 = k.val; omega)

/-- Row `r` of the joined array is the row `[x r, h r]`. -/
theorem joined_read (x0 : (⟨S32768x4096, .f32⟩ : BufTy).Contents (Elt Ideal)) (x1 : (⟨S32768x4, .f32⟩ : BufTy).Contents (Elt Ideal))
    (r : Fin 32768) (k : Fin 4100) :
    val_main_v0 (F := Ideal) x0 x1 (ValueIdx.ix2 r k) = joined (rowOf x0 r) (rowOf x1 r) k := by
  unfold joined
  by_cases hk : k.val < 4096
  · rw [dif_pos hk, joined_left x0 x1 r k hk]; rfl
  · rw [dif_neg hk, joined_right x0 x1 r k hk]; rfl

/-! ## The angle -/

/-- The angle the reference computes for row `r` and wire `q` of a gate with weights `W`, biases `b` and angles `th`:
    the inner product of `[x r, h r]` with row `q` of `W`, plus `b q`, plus `th q`. -/
theorem angle_read (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) (q : Fin 4) :
    val_main_v8 (F := Ideal) x0 x1 W b th (ValueIdx.ix2 r q)
      = angle (rowOf x0 r) (rowOf x1 r) (rowOf W q) (vecOf b q) (vecOf th q) := by
  -- the bias: a vector of 4 made a 1 × 4 array, then repeated down the 32768 rows, so entry (r, q) is entry q
  have eb : idx_main_v3 (idx_main_v4 (ValueIdx.ix2 r q)) = ValueIdx.ix1 q :=
    funext fun a => by match a with | ⟨0, _⟩ => rfl
  have hb : val_main_v4 (F := Ideal) b (ValueIdx.ix2 r q) = vecOf b q := by
    rw [val_main_v4_apply, val_main_v3_apply, eb]; rfl
  -- the angle vector, in the same way
  have eth : idx_main_v6 (idx_main_v7 (ValueIdx.ix2 r q)) = ValueIdx.ix1 q :=
    funext fun a => by match a with | ⟨0, _⟩ => rfl
  have hth : val_main_v7 (F := Ideal) th (ValueIdx.ix2 r q) = vecOf th q := by
    rw [val_main_v7_apply, val_main_v6_apply, eth]; rfl
  -- the contraction: term k is the joined array at (r, k) times the transposed weights at (k, q), that is W at (q, k)
  have hdot : val_main_v2 (F := Ideal) x0 x1 W (ValueIdx.ix2 r q)
      = ∑ k : Fin 4100, joined (rowOf x0 r) (rowOf x1 r) k * rowOf W q k := by
    rw [val_main_v2_apply]
    refine Finset.sum_congr rfl fun k _ => ?_
    have el : lidx_main_v2 (ValueIdx.ix2 r q) k = ValueIdx.ix2 r k :=
      funext fun a => by match a with | ⟨0, _⟩ => rfl | ⟨1, _⟩ => rfl
    have er : idx_main_v1 (ridx_main_v2 (ValueIdx.ix2 r q) k) = ValueIdx.ix2 q k :=
      funext fun a => by match a with | ⟨0, _⟩ => rfl | ⟨1, _⟩ => rfl
    rw [el, joined_read, val_main_v1_apply, er]; rfl
  rw [val_main_v8_apply, val_main_v5_apply, hdot, hb, hth]
  rfl

end Cert.ReferenceIdeal.RefValue

end
-- ==== Proof.ReferenceGate.lean ====
/-
  A gate of the reference program, and its logistic function.

  From the 32768 × 4 array of angles the reference takes cosines, cuts the array into its four columns `c 0 … c 3`
  (a slice of one column, reshaped to a vector over the rows), forms the four products

      c 1 · c 2 · c 3,   c 0 · c 1,   c 0 · c 1 · c 2,   c 0 · c 1 · c 2 · c 3

  (each multiplied left to right), makes each a 32768 × 1 column again and joins the four columns. Entry `(r, q)` of the
  result is therefore the `q`-th product for row `r`: the gate's value on wire `q`.

  The logistic function arrives expanded as `1 / (1 + exp (-v))`, the two ones being the single-precision bit pattern of 1.
-/
import proofs.«138498_j65481071399076_2_alg».proof.Proof.ReferenceAngle

noncomputable section

open scoped BigOperators

namespace Cert.ReferenceIdeal.RefValue

open Cert.ReferenceIdeal Cert.ReferenceIdeal.Gen Cert.ReferenceIdeal.Read Cert.QLstm
open Idealize.ShloMosaic Idealize.ShloMosaic.StableHlo

/-! ## Four columns joined -/

/-- Four 32768 × 1 columns joined along the columns, read at `(r, q)`: column `q` at row `r`. Each column spans one
    position of the joined axis, so the columns before column `q` span `q` positions, and position `q` is the (only)
    position 0 of column `q`. -/
theorem columns_read (c0 c1 c2 c3 : (⟨S32768x1, .f32⟩ : BufTy).Contents (Elt Ideal)) (r : Fin 32768) (q : Fin 4) :
    concatenate S32768x4 1 [⟨S32768x1, c0⟩, ⟨S32768x1, c1⟩, ⟨S32768x1, c2⟩, ⟨S32768x1, c3⟩]
        concatenates_S32768x1_S32768x1_S32768x1_S32768x1_S32768x4_d1 (ValueIdx.ix2 r q)
      = match q with
        | ⟨0, _⟩ => c0 (ValueIdx.ix2 r 0)
        | ⟨1, _⟩ => c1 (ValueIdx.ix2 r 0)
        | ⟨2, _⟩ => c2 (ValueIdx.ix2 r 0)
        | ⟨3, _⟩ => c3 (ValueIdx.ix2 r 0) := by
  -- off the joined axis (the rows) the piece is read at the same coordinate
  have hi : ∀ (q : Fin 4) (b : Fin S32768x1.rank), b.cast (rfl : S32768x1.rank = S32768x4.rank) ≠ 1 →
      ((ValueIdx.ix2 r (0 : Fin 1)) b).val = ((ValueIdx.ix2 r q) (b.cast rfl)).val := fun q b hb =>
    match b, hb with
    | ⟨0, _⟩, _ => rfl
    | ⟨1, _⟩, hb => absurd rfl hb
  match q with
  | ⟨0, hq⟩ =>
    refine concatenate_apply_piece 1 _ _ (ValueIdx.ix2 r ⟨0, hq⟩) 0 ?_ S32768x1 c0 ?_ rfl 0 ?_ (ValueIdx.ix2 r 0)
      (hi ⟨0, hq⟩) ?_
    · show 0 < 4; omega  -- there is a column 0 among the four
    · rfl     -- it is c0
    · rfl     -- the columns before it span 0 positions
    · rfl     -- position 0 is 0 + 0
  | ⟨1, hq⟩ =>
    refine concatenate_apply_piece 1 _ _ (ValueIdx.ix2 r ⟨1, hq⟩) 1 ?_ S32768x1 c1 ?_ rfl 1 ?_ (ValueIdx.ix2 r 0)
      (hi ⟨1, hq⟩) ?_
    · show 1 < 4; omega  -- there is a column 1 among the four
    · rfl     -- it is c1
    · rfl     -- the columns before it span 1 positions
    · rfl     -- position 1 is 1 + 0
  | ⟨2, hq⟩ =>
    refine concatenate_apply_piece 1 _ _ (ValueIdx.ix2 r ⟨2, hq⟩) 2 ?_ S32768x1 c2 ?_ rfl 2 ?_ (ValueIdx.ix2 r 0)
      (hi ⟨2, hq⟩) ?_
    · show 2 < 4; omega  -- there is a column 2 among the four
    · rfl     -- it is c2
    · rfl     -- the columns before it span 2 positions
    · rfl     -- position 2 is 2 + 0
  | ⟨3, hq⟩ =>
    refine concatenate_apply_piece 1 _ _ (ValueIdx.ix2 r ⟨3, hq⟩) 3 ?_ S32768x1 c3 ?_ rfl 3 ?_ (ValueIdx.ix2 r 0)
      (hi ⟨3, hq⟩) ?_
    · show 3 < 4; omega  -- there is a column 3 among the four
    · rfl     -- it is c3
    · rfl     -- the columns before it span 3 positions
    · rfl     -- position 3 is 3 + 0

/-! ## The cosines, column by column -/

/-- The cosine of the angle at row `r`, wire `q`. -/
theorem cos_read (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) (q : Fin 4) :
    val_main_v9 (F := Ideal) x0 x1 W b th (ValueIdx.ix2 r q)
      = Ideal.cos (angle (rowOf x0 r) (rowOf x1 r) (rowOf W q) (vecOf b q) (vecOf th q)) := by
  rw [val_main_v9_apply, angle_read]; rfl

/-- Column 0 of the cosines as a vector over the rows. -/
theorem wire0 (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) :
    val_main_v11 (F := Ideal) x0 x1 W b th (ValueIdx.ix1 r)
      = Ideal.cos (angle (rowOf x0 r) (rowOf x1 r) (rowOf W 0) (vecOf b 0) (vecOf th 0)) := by
  -- the reshape reads the 32768 × 1 slice at (r / 1, 0), that is at (r, 0); the slice starts at column 0, so that is
  -- entry (r, 0 + 0) of the cosines
  have e : idx_main_v10 (idx_main_v11 (ValueIdx.ix1 r)) = ValueIdx.ix2 r 0 :=
    funext fun a => Fin.ext (by
      match a with
      | ⟨0, _⟩ => exact Nat.div_one r.val
      | ⟨1, _⟩ => rfl)
  rw [val_main_v11_apply, val_main_v10_apply, e, cos_read]

/-- Column 1 of the cosines as a vector over the rows. -/
theorem wire1 (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) :
    val_main_v13 (F := Ideal) x0 x1 W b th (ValueIdx.ix1 r)
      = Ideal.cos (angle (rowOf x0 r) (rowOf x1 r) (rowOf W 1) (vecOf b 1) (vecOf th 1)) := by
  -- the reshape reads the 32768 × 1 slice at (r / 1, 0), that is at (r, 0); the slice starts at column 1, so that is
  -- entry (r, 1 + 0) of the cosines
  have e : idx_main_v12 (idx_main_v13 (ValueIdx.ix1 r)) = ValueIdx.ix2 r 1 :=
    funext fun a => Fin.ext (by
      match a with
      | ⟨0, _⟩ => exact Nat.div_one r.val
      | ⟨1, _⟩ => rfl)
  rw [val_main_v13_apply, val_main_v12_apply, e, cos_read]

/-- Column 2 of the cosines as a vector over the rows. -/
theorem wire2 (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) :
    val_main_v15 (F := Ideal) x0 x1 W b th (ValueIdx.ix1 r)
      = Ideal.cos (angle (rowOf x0 r) (rowOf x1 r) (rowOf W 2) (vecOf b 2) (vecOf th 2)) := by
  -- the reshape reads the 32768 × 1 slice at (r / 1, 0), that is at (r, 0); the slice starts at column 2, so that is
  -- entry (r, 2 + 0) of the cosines
  have e : idx_main_v14 (idx_main_v15 (ValueIdx.ix1 r)) = ValueIdx.ix2 r 2 :=
    funext fun a => Fin.ext (by
      match a with
      | ⟨0, _⟩ => exact Nat.div_one r.val
      | ⟨1, _⟩ => rfl)
  rw [val_main_v15_apply, val_main_v14_apply, e, cos_read]

/-- Column 3 of the cosines as a vector over the rows. -/
theorem wire3 (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) :
    val_main_v17 (F := Ideal) x0 x1 W b th (ValueIdx.ix1 r)
      = Ideal.cos (angle (rowOf x0 r) (rowOf x1 r) (rowOf W 3) (vecOf b 3) (vecOf th 3)) := by
  -- the reshape reads the 32768 × 1 slice at (r / 1, 0), that is at (r, 0); the slice starts at column 3, so that is
  -- entry (r, 3 + 0) of the cosines
  have e : idx_main_v16 (idx_main_v17 (ValueIdx.ix1 r)) = ValueIdx.ix2 r 3 :=
    funext fun a => Fin.ext (by
      match a with
      | ⟨0, _⟩ => exact Nat.div_one r.val
      | ⟨1, _⟩ => rfl)
  rw [val_main_v17_apply, val_main_v16_apply, e, cos_read]

/-! ## The gate -/

/-- The gate's value at row `r`, wire `q`: the ring of products of the four wires' cosines. -/
theorem gate_read (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) (q : Fin 4) :
    val_main_v30 (F := Ideal) x0 x1 W b th (ValueIdx.ix2 r q)
      = gate (rowOf x0 r) (rowOf x1 r) (rowOf W) (vecOf b) (vecOf th) q := by
  -- a vector over the rows made a 32768 × 1 column: entry (r, 0) is entry r
  have e26 : idx_main_v26 (ValueIdx.ix2 r (0 : Fin 1)) = ValueIdx.ix1 r := funext fun a => by match a with | ⟨0, _⟩ => rfl
  have e27 : idx_main_v27 (ValueIdx.ix2 r (0 : Fin 1)) = ValueIdx.ix1 r := funext fun a => by match a with | ⟨0, _⟩ => rfl
  have e28 : idx_main_v28 (ValueIdx.ix2 r (0 : Fin 1)) = ValueIdx.ix1 r := funext fun a => by match a with | ⟨0, _⟩ => rfl
  have e29 : idx_main_v29 (ValueIdx.ix2 r (0 : Fin 1)) = ValueIdx.ix1 r := funext fun a => by match a with | ⟨0, _⟩ => rfl
  unfold val_main_v30
  rw [columns_read]
  unfold gate ring
  match q with
  | ⟨0, _⟩ =>
    -- c 1 · c 2 · c 3
    show val_main_v26 (F := Ideal) x0 x1 W b th (ValueIdx.ix2 r 0) = _
    rw [val_main_v26_apply, e26, val_main_v19_apply, val_main_v18_apply, wire1, wire2, wire3]; rfl
  | ⟨1, _⟩ =>
    -- c 0 · c 1
    show val_main_v27 (F := Ideal) x0 x1 W b th (ValueIdx.ix2 r 0) = _
    rw [val_main_v27_apply, e27, val_main_v20_apply, wire0, wire1]; rfl
  | ⟨2, _⟩ =>
    -- c 0 · c 1 · c 2
    show val_main_v28 (F := Ideal) x0 x1 W b th (ValueIdx.ix2 r 0) = _
    rw [val_main_v28_apply, e28, val_main_v22_apply, val_main_v21_apply, wire0, wire1, wire2]; rfl
  | ⟨3, _⟩ =>
    -- c 0 · c 1 · c 2 · c 3
    show val_main_v29 (F := Ideal) x0 x1 W b th (ValueIdx.ix2 r 0) = _
    rw [val_main_v29_apply, e29, val_main_v25_apply, val_main_v24_apply, val_main_v23_apply, wire0, wire1, wire2, wire3]; rfl

/-! ## The logistic function -/

/-- The bit pattern `0x3F800000` is the single-precision 1. -/
theorem one_bits : Ideal.ofBits .f32 0x3F800000#32 = 1 := IdealRules.sign_bit.ideal_onePat .f32

/-- `1 / (1 + exp (-v))` is the logistic function of `v`, entry by entry. -/
theorem logistic_read (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (i : S32768x4.Idx) :
    val_main_v36 (F := Ideal) x0 x1 W b th i = Ideal.logistic (val_main_v30 (F := Ideal) x0 x1 W b th i) := by
  rw [val_main_v36_apply, val_main_v35_apply, val_main_cst_0_apply, val_main_v34_apply, val_main_v33_apply,
    val_main_cst_apply, val_main_v32_apply, val_main_v31_apply]
  simp only [Ideal.hostDivf_def, Ideal.addf_def, Ideal.hostUnary_exp_def, Ideal.hostNegf_def, Ideal.negf_def,
    Ideal.ofBits_def, one_bits]
  rfl

end Cert.ReferenceIdeal.RefValue

end
-- ==== Proof.ReferenceValue.lean ====
/-
  The two results of the reference program.

  The reference evaluates the same gate four times (forget, input, candidate, output), each time with its own weights,
  biases and angles; the forget, input and output gates go through the logistic function, the candidate through the
  hyperbolic tangent. The four evaluations are the same sequence of operations, so the stages of the later three are, as
  terms, the stages of the first at other arguments, and what was read for the first gate holds for all.

  With `f, i, g, o` the four gates' values at row `r`, wire `q`, and `c` the old cell state there, the results are

      c' = σ(f) · c + σ(i) · tanh(g)          and          h' = σ(o) · tanh(c'),

  which are the new cell state and the new hidden state of the one-row description of the cell.
-/
import proofs.«138498_j65481071399076_2_alg».proof.Proof.Gen.ReferenceIdeal.Read
import proofs.«138498_j65481071399076_2_alg».proof.Proof.Spec
import proofs.«138498_j65481071399076_2_alg».proof.Proof.ReferenceGate

noncomputable section

open scoped BigOperators

namespace Cert.ReferenceIdeal.RefValue

open Cert.ReferenceIdeal Cert.ReferenceIdeal.Gen Cert.ReferenceIdeal.Read Cert.QLstm
open Idealize.ShloMosaic Idealize.ShloMosaic.StableHlo

/-! ## The later gates are the first gate at other arguments -/

/-- The input gate's joined products are the forget gate's, at the input gate's arguments. -/
theorem input_products (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) :
    val_main_v66 (F := Ideal) x0 x1 W b th = val_main_v30 (F := Ideal) x0 x1 W b th := rfl

/-- The input gate after the logistic function, likewise. -/
theorem input_logistic (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) :
    val_main_v72 (F := Ideal) x0 x1 W b th = val_main_v36 (F := Ideal) x0 x1 W b th := rfl

/-- The candidate gate's joined products. -/
theorem candidate_products (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) :
    val_main_v102 (F := Ideal) x0 x1 W b th = val_main_v30 (F := Ideal) x0 x1 W b th := rfl

/-- The output gate after the logistic function. -/
theorem output_logistic (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) :
    val_main_v139 (F := Ideal) x0 x1 W b th = val_main_v36 (F := Ideal) x0 x1 W b th := rfl

/-! ## The gates after their nonlinearities, at a row and a wire -/

/-- A gate through the logistic function. -/
theorem logistic_gate_read (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) (q : Fin 4) :
    val_main_v36 (F := Ideal) x0 x1 W b th (ValueIdx.ix2 r q)
      = Ideal.logistic (gate (rowOf x0 r) (rowOf x1 r) (rowOf W) (vecOf b) (vecOf th) q) := by
  rw [logistic_read, gate_read]

/-- The candidate gate through the hyperbolic tangent. -/
theorem tanh_gate_read (x0 : (⟨S32768x4096, .f32⟩ : BufTy).Contents (Elt Ideal)) (x1 : (⟨S32768x4, .f32⟩ : BufTy).Contents (Elt Ideal))
    (W : (⟨S4x4100, .f32⟩ : BufTy).Contents (Elt Ideal)) (b th : (⟨S4, .f32⟩ : BufTy).Contents (Elt Ideal)) (r : Fin 32768) (q : Fin 4) :
    val_main_v103 (F := Ideal) x0 x1 W b th (ValueIdx.ix2 r q)
      = Ideal.tanh (gate (rowOf x0 r) (rowOf x1 r) (rowOf W) (vecOf b) (vecOf th) q) := by
  rw [val_main_v103_apply, candidate_products, gate_read]; rfl

/-! ## The new cell state and the new hidden state -/

/-- The second result at row `r`, wire `q`: σ(forget) · c + σ(input) · tanh(candidate). -/
theorem cell_read (x0 : (⟨S32768x4096, .f32⟩ : BufTy).Contents (Elt Ideal)) (x1 x2 : (⟨S32768x4, .f32⟩ : BufTy).Contents (Elt Ideal))
    (x3 : (⟨S4x4100, .f32⟩ : BufTy).Contents (Elt Ideal)) (x4 x5 : (⟨S4, .f32⟩ : BufTy).Contents (Elt Ideal))
    (x6 : (⟨S4x4100, .f32⟩ : BufTy).Contents (Elt Ideal)) (x7 x8 : (⟨S4, .f32⟩ : BufTy).Contents (Elt Ideal))
    (x9 : (⟨S4x4100, .f32⟩ : BufTy).Contents (Elt Ideal)) (x10 x11 : (⟨S4, .f32⟩ : BufTy).Contents (Elt Ideal)) (r : Fin 32768) (q : Fin 4) :
    val_main_v142 (F := Ideal) x0 x1 x2 x3 x4 x5 x6 x7 x8 x9 x10 x11 (ValueIdx.ix2 r q)
      = cellNew (rowOf x0 r) (rowOf x1 r) (rowOf x2 r) (rowOf x3) (vecOf x4) (vecOf x5) (rowOf x6) (vecOf x7) (vecOf x8)
          (rowOf x9) (vecOf x10) (vecOf x11) q := by
  rw [val_main_v142_apply, val_main_v140_apply, val_main_v141_apply, input_logistic,
    logistic_gate_read x0 x1 x3 x4 x5, logistic_gate_read x0 x1 x6 x7 x8, tanh_gate_read x0 x1 x9 x10 x11]
  rfl

/-- The first result at row `r`, wire `q`: σ(output) · tanh of the new cell state. -/
theorem hidden_read (x0 : (⟨S32768x4096, .f32⟩ : BufTy).Contents (Elt Ideal)) (x1 x2 : (⟨S32768x4, .f32⟩ : BufTy).Contents (Elt Ideal))
    (x3 : (⟨S4x4100, .f32⟩ : BufTy).Contents (Elt Ideal)) (x4 x5 : (⟨S4, .f32⟩ : BufTy).Contents (Elt Ideal))
    (x6 : (⟨S4x4100, .f32⟩ : BufTy).Contents (Elt Ideal)) (x7 x8 : (⟨S4, .f32⟩ : BufTy).Contents (Elt Ideal))
    (x9 : (⟨S4x4100, .f32⟩ : BufTy).Contents (Elt Ideal)) (x10 x11 : (⟨S4, .f32⟩ : BufTy).Contents (Elt Ideal))
    (x12 : (⟨S4x4100, .f32⟩ : BufTy).Contents (Elt Ideal)) (x13 x14 : (⟨S4, .f32⟩ : BufTy).Contents (Elt Ideal)) (r : Fin 32768) (q : Fin 4) :
    val_main_v144 (F := Ideal) x0 x1 x2 x3 x4 x5 x6 x7 x8 x9 x10 x11 x12 x13 x14 (ValueIdx.ix2 r q)
      = hiddenNew (rowOf x0 r) (rowOf x1 r) (rowOf x2 r) (rowOf x3) (vecOf x4) (vecOf x5) (rowOf x6) (vecOf x7) (vecOf x8)
          (rowOf x9) (vecOf x10) (vecOf x11) (rowOf x12) (vecOf x13) (vecOf x14) q := by
  rw [val_main_v144_apply, val_main_v143_apply, output_logistic, logistic_gate_read x0 x1 x12 x13 x14, cell_read]
  rfl

/-- **The reference's second result is the new cell state of every row.** -/
theorem cell_eq (x0 : (⟨S32768x4096, .f32⟩ : BufTy).Contents (Elt Ideal)) (x1 x2 : (⟨S32768x4, .f32⟩ : BufTy).Contents (Elt Ideal))
    (x3 : (⟨S4x4100, .f32⟩ : BufTy).Contents (Elt Ideal)) (x4 x5 : (⟨S4, .f32⟩ : BufTy).Contents (Elt Ideal))
    (x6 : (⟨S4x4100, .f32⟩ : BufTy).Contents (Elt Ideal)) (x7 x8 : (⟨S4, .f32⟩ : BufTy).Contents (Elt Ideal))
    (x9 : (⟨S4x4100, .f32⟩ : BufTy).Contents (Elt Ideal)) (x10 x11 : (⟨S4, .f32⟩ : BufTy).Contents (Elt Ideal)) :
    Cert.ReferenceIdeal.Read.val_main_v142 (F := Ideal) x0 x1 x2 x3 x4 x5 x6 x7 x8 x9 x10 x11
      = Cert.QLstm.cellArray x0 x1 x2 x3 x4 x5 x6 x7 x8 x9 x10 x11 := by
  funext i
  obtain ⟨r, q, rfl⟩ : ∃ (r : Fin 32768) (q : Fin 4), i = ValueIdx.ix2 r q := ⟨i 0, i 1, ValueIdx.eq_ix2 i⟩
  unfold cellArray
  rw [ofCoords_ix2]
  exact cell_read x0 x1 x2 x3 x4 x5 x6 x7 x8 x9 x10 x11 r q

/-- **The reference's first result is the new hidden state of every row.** -/
theorem hidden_eq (x0 : (⟨S32768x4096, .f32⟩ : BufTy).Contents (Elt Ideal)) (x1 x2 : (⟨S32768x4, .f32⟩ : BufTy).Contents (Elt Ideal))
    (x3 : (⟨S4x4100, .f32⟩ : BufTy).Contents (Elt Ideal)) (x4 x5 : (⟨S4, .f32⟩ : BufTy).Contents (Elt Ideal))
    (x6 : (⟨S4x4100, .f32⟩ : BufTy).Contents (Elt Ideal)) (x7 x8 : (⟨S4, .f32⟩ : BufTy).Contents (Elt Ideal))
    (x9 : (⟨S4x4100, .f32⟩ : BufTy).Contents (Elt Ideal)) (x10 x11 : (⟨S4, .f32⟩ : BufTy).Contents (Elt Ideal))
    (x12 : (⟨S4x4100, .f32⟩ : BufTy).Contents (Elt Ideal)) (x13 x14 : (⟨S4, .f32⟩ : BufTy).Contents (Elt Ideal)) :
    Cert.ReferenceIdeal.Read.val_main_v144 (F := Ideal) x0 x1 x2 x3 x4 x5 x6 x7 x8 x9 x10 x11 x12 x13 x14
      = Cert.QLstm.hiddenArray x0 x1 x2 x3 x4 x5 x6 x7 x8 x9 x10 x11 x12 x13 x14 := by
  funext i
  obtain ⟨r, q, rfl⟩ : ∃ (r : Fin 32768) (q : Fin 4), i = ValueIdx.ix2 r q := ⟨i 0, i 1, ValueIdx.eq_ix2 i⟩
  unfold hiddenArray
  rw [ofCoords_ix2]
  exact hidden_read x0 x1 x2 x3 x4 x5 x6 x7 x8 x9 x10 x11 x12 x13 x14 r q

end Cert.ReferenceIdeal.RefValue

end
-- ==== Proof.lean ====
/-
  A cell of a long short-term memory whose four gates are small quantum circuits, computed by a pipelined kernel, against
  the same cell written with whole-array operations.

  Both programs take a batch of 32768 rows: features `x` (4096 per row), a hidden state and a cell state (4 per row), and
  for each of the four gates a 4 × 4100 weight matrix, a bias and an angle vector of length 4. Wire q of a gate carries
  cos(⟨[x, h], W q⟩ + b q + θ q); a ring of controlled-NOTs turns the four wires' numbers into four products of them; the
  gates' values go through the logistic function (forget, input, output) or the hyperbolic tangent (candidate) and update
  the state in the usual way. Proof/Spec.lean states this one row at a time.

  The kernel's program stacks the four gates' parameters, cuts the stacked weights into an x-part and an h-part, packs the
  two states side by side, and runs a pipeline over 32 blocks of 1024 rows whose body forms the sixteen inner products of a
  row as four partial products over bands of 1024 features plus the product with the hidden state, added up from zero; two
  slices then cut the packed result into the two outputs. The reference joins x and h and takes each gate's inner product
  in one go. On the extended reals the two agree entry by entry, because a finite sum may be cut into consecutive bands
  in any additive commutative monoid (Proof/Bands.lean) — nothing is asked of the inputs, so the precondition is not used.

  The five claims:
    * the kernel's program, read on machine words and read on the extended reals, runs to the end on every fair
      schedule, faults nowhere and leaves its arguments as they were (Proof/KernelFrame.lean, Proof/KernelIdealFrame.lean:
      the body's triple, the pipeline's launch, the operations around it);
    * so does the reference (its run, with the results dropped);
    * the idealized kernel is the kernel's own text read on the extended reals: nothing was rewritten, nothing to preserve;
    * from memories that agree on the arguments, the idealized kernel's two results (Proof/KernelResult.lean) and the
      reference's (Proof/ReferenceValue.lean) are the same two functions of the arguments: the new hidden state and the
      new cell state of every row.
-/
import proofs.«138498_j65481071399076_2_alg».proof.Defs
import proofs.«138498_j65481071399076_2_alg».proof.Proof.Gen.Kernel
import proofs.«138498_j65481071399076_2_alg».proof.Proof.Gen.KernelIdeal
import proofs.«138498_j65481071399076_2_alg».proof.Proof.Gen.ReferenceIdeal
import proofs.«138498_j65481071399076_2_alg».proof.Proof.Gen.Pre_finite_inputs
import proofs.«138498_j65481071399076_2_alg».proof.Proof.Gen.ReferenceIdeal.Run
import proofs.«138498_j65481071399076_2_alg».proof.Proof.KernelFrame
import proofs.«138498_j65481071399076_2_alg».proof.Proof.KernelIdealFrame
import proofs.«138498_j65481071399076_2_alg».proof.Proof.KernelResult
import proofs.«138498_j65481071399076_2_alg».proof.Proof.ReferenceValue
import Idealize.ShloMosaic.Adequacy
import Idealize.ShloMosaic.Init

noncomputable section

namespace Cert.Proof

open Idealize.ShloMosaic Idealize.SL.Sem

/-- The kernel's program on machine words runs and keeps its arguments. -/
theorem frame_kernel : Cert.frame_Kernel := fun m ρ _ => Cert.Kernel.Frame.frame m ρ

/-- So does its reading on the extended reals. -/
theorem frame_kernelIdeal : Cert.frame_KernelIdeal := fun m ρ _ => Cert.KernelIdeal.Frame.frame m ρ

/-- The reference runs and keeps its arguments: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the new hidden state and the new cell state of every
    row: the kernel's by its run read back block by block, the reference's by its run read operation by operation. -/
theorem algebraic : Cert.algebraic_KernelIdeal_ReferenceIdeal := by
  intro m ρ m' ρ' _ hagree
  refine ⟨fun c => Cert.KernelIdeal.Result.hiddenOut m c, fun c => Cert.KernelIdeal.Result.cellOut m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v144_eq, Cert.ReferenceIdeal.RefValue.hidden_eq,
      a0, a1, a2, a3, a4, a5, a6, a7, a8, a9, a10, a11, a12, a13, a14]
    rfl
  · obtain ⟨a0, a1, a2, a3, a4, a5, a6, a7, a8, a9, a10, a11, a12, a13, a14⟩ := hagree c
    rw [Cert.ReferenceIdeal.Read.val_main_v142_eq, Cert.ReferenceIdeal.RefValue.cell_eq,
      a0, a1, a2, a3, a4, a5, a6, a7, a8, a9, a10, a11]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
